-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S2x524288 : Shape := ⟨2, ![2, 524288]⟩
abbrev S524288x32 : Shape := ⟨2, ![524288, 32]⟩
abbrev S128x128 : Shape := ⟨2, ![128, 128]⟩
abbrev S1x128 : Shape := ⟨2, ![1, 128]⟩
abbrev S_ : Shape := ⟨0, ![]⟩
abbrev S4x32x4x32 : Shape := ⟨4, ![4, 32, 4, 32]⟩
abbrev S1x32x1x32 : Shape := ⟨4, ![1, 32, 1, 32]⟩
abbrev S1x4x32 : Shape := ⟨3, ![1, 4, 32]⟩
abbrev S1x1x32 : Shape := ⟨3, ![1, 1, 32]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S524288x32 : S_.BroadcastsInDim S524288x32 (![] : Fin 0 → Fin S524288x32.rank)
  reducesTo_S524288x32_S_d0_1 : S524288x32.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  shapeCasts_S128x128_S4x32x4x32 : S128x128.ShapeCasts S4x32x4x32
  slices_S4x32x4x32_S1x32x1x32_0_0_0_0 : S4x32x4x32.Slices ![0, 0, 0, 0] S1x32x1x32
  bcast_S1x32x1x32_S4x32x4x32_0_1_2_3 : S1x32x1x32.BroadcastsInDim S4x32x4x32 (![0, 1, 2, 3] : Fin 4 → Fin S4x32x4x32.rank)
  bcast_S_S4x32x4x32 : S_.BroadcastsInDim S4x32x4x32 (![] : Fin 0 → Fin S4x32x4x32.rank)
  reducesTo_S4x32x4x32_S_d0_1_2_3 : S4x32x4x32.ReducesTo [0, 1, 2, 3] S_
  shapeCasts_S1x128_S1x4x32 : S1x128.ShapeCasts S1x4x32
  slices_S1x4x32_S1x1x32_0_0_0 : S1x4x32.Slices ![0, 0, 0] S1x1x32
  bcast_S1x1x32_S1x4x32_0_1_2 : S1x1x32.BroadcastsInDim S1x4x32 (![0, 1, 2] : Fin 3 → Fin S1x4x32.rank)
  reducesTo_S1x4x32_S_d0_1_2 : S1x4x32.ReducesTo [0, 1, 2] S_

variable [Facts]

def fn_part11 {F : FTy → Type} [FloatOps F] (main_arg18 : FVec F S1x128 .f32) (main_v202 : IVec S_ 1) (main_v206 : IVec S1x4x32 1) (main_c_54 : IVec S_ 1) : IVec S_ 1 :=
  let main_v207 : IVec S_ 1 := (fun x v => Host.reduce IntOp.andi x v reducesTo_S1x4x32_S_d0_1_2 h_S_) main_v206 main_c_54
  let main_v208 : IVec S_ 1 := andi main_v202 main_v207
  let main_v209 : FVec F S1x4x32 .f32 := shapeCast S1x4x32 main_arg18 shapeCasts_S1x128_S1x4x32
  let main_v210 : FVec F S1x1x32 .f32 := (extractStridedSlice S1x1x32 ![0, 0, 0] · slices_S1x4x32_S1x1x32_0_0_0) main_v209
  let main_v211 : FVec F S1x4x32 .f32 := broadcastInDim S1x4x32 ![0, 1, 2] bcast_S1x1x32_S1x4x32_0_1_2 main_v210
  let main_v212 : IVec S1x4x32 1 := cmpf .oeq main_v209 main_v211
  let main_c_55 : IVec S_ 1 := constantI S_ 1 1#1
  let main_v213 : IVec S_ 1 := (fun x v => Host.reduce IntOp.andi x v reducesTo_S1x4x32_S_d0_1_2 h_S_) main_v212 main_c_55
  let main_v214 : IVec S_ 1 := andi main_v208 main_v213
  main_v214

def fn_part10 {F : FTy → Type} [FloatOps F] (main_arg14 : FVec F S1x128 .f32) (main_arg16 : FVec F S1x128 .f32) (main_arg17 : FVec F S1x128 .f32) (main_arg18 : FVec F S1x128 .f32) (main_v184 : IVec S_ 1) (main_v185 : FVec F S1x4x32 .f32) (main_v186 : FVec F S1x1x32 .f32) : IVec S_ 1 :=
  let main_v187 : FVec F S1x4x32 .f32 := broadcastInDim S1x4x32 ![0, 1, 2] bcast_S1x1x32_S1x4x32_0_1_2 main_v186
  let main_v188 : IVec S1x4x32 1 := cmpf .oeq main_v185 main_v187
  let main_c_51 : IVec S_ 1 := constantI S_ 1 1#1
  let main_v189 : IVec S_ 1 := (fun x v => Host.reduce IntOp.andi x v reducesTo_S1x4x32_S_d0_1_2 h_S_) main_v188 main_c_51
  let main_v190 : IVec S_ 1 := andi main_v184 main_v189
  let main_v191 : FVec F S1x4x32 .f32 := shapeCast S1x4x32 main_arg14 shapeCasts_S1x128_S1x4x32
  let main_v192 : FVec F S1x1x32 .f32 := (extractStridedSlice S1x1x32 ![0, 0, 0] · slices_S1x4x32_S1x1x32_0_0_0) main_v191
  let main_v193 : FVec F S1x4x32 .f32 := broadcastInDim S1x4x32 ![0, 1, 2] bcast_S1x1x32_S1x4x32_0_1_2 main_v192
  let main_v194 : IVec S1x4x32 1 := cmpf .oeq main_v191 main_v193
  let main_c_52 : IVec S_ 1 := constantI S_ 1 1#1
  let main_v195 : IVec S_ 1 := (fun x v => Host.reduce IntOp.andi x v reducesTo_S1x4x32_S_d0_1_2 h_S_) main_v194 main_c_52
  let main_v196 : IVec S_ 1 := andi main_v190 main_v195
  let main_v197 : FVec F S1x4x32 .f32 := shapeCast S1x4x32 main_arg16 shapeCasts_S1x128_S1x4x32
  let main_v198 : FVec F S1x1x32 .f32 := (extractStridedSlice S1x1x32 ![0, 0, 0] · slices_S1x4x32_S1x1x32_0_0_0) main_v197
  let main_v199 : FVec F S1x4x32 .f32 := broadcastInDim S1x4x32 ![0, 1, 2] bcast_S1x1x32_S1x4x32_0_1_2 main_v198
  let main_v200 : IVec S1x4x32 1 := cmpf .oeq main_v197 main_v199
  let main_c_53 : IVec S_ 1 := constantI S_ 1 1#1
  let main_v201 : IVec S_ 1 := (fun x v => Host.reduce IntOp.andi x v reducesTo_S1x4x32_S_d0_1_2 h_S_) main_v200 main_c_53
  let main_v202 : IVec S_ 1 := andi main_v196 main_v201
  let main_v203 : FVec F S1x4x32 .f32 := shapeCast S1x4x32 main_arg17 shapeCasts_S1x128_S1x4x32
  let main_v204 : FVec F S1x1x32 .f32 := (extractStridedSlice S1x1x32 ![0, 0, 0] · slices_S1x4x32_S1x1x32_0_0_0) main_v203
  let main_v205 : FVec F S1x4x32 .f32 := broadcastInDim S1x4x32 ![0, 1, 2] bcast_S1x1x32_S1x4x32_0_1_2 main_v204
  let main_v206 : IVec S1x4x32 1 := cmpf .oeq main_v203 main_v205
  let main_c_54 : IVec S_ 1 := constantI S_ 1 1#1
  fn_part11 (F := F) main_arg18 main_v202 main_v206 main_c_54

def fn_part9 {F : FTy → Type} [FloatOps F] (main_arg8 : FVec F S1x128 .f32) (main_arg9 : FVec F S1x128 .f32) (main_arg10 : FVec F S1x128 .f32) (main_arg12 : FVec F S1x128 .f32) (main_arg14 : FVec F S1x128 .f32) (main_arg16 : FVec F S1x128 .f32) (main_arg17 : FVec F S1x128 .f32) (main_arg18 : FVec F S1x128 .f32) (main_v160 : IVec S_ 1) (main_v165 : IVec S_ 1) : IVec S_ 1 :=
  let main_v166 : IVec S_ 1 := andi main_v160 main_v165
  let main_v167 : FVec F S1x4x32 .f32 := shapeCast S1x4x32 main_arg8 shapeCasts_S1x128_S1x4x32
  let main_v168 : FVec F S1x1x32 .f32 := (extractStridedSlice S1x1x32 ![0, 0, 0] · slices_S1x4x32_S1x1x32_0_0_0) main_v167
  let main_v169 : FVec F S1x4x32 .f32 := broadcastInDim S1x4x32 ![0, 1, 2] bcast_S1x1x32_S1x4x32_0_1_2 main_v168
  let main_v170 : IVec S1x4x32 1 := cmpf .oeq main_v167 main_v169
  let main_c_48 : IVec S_ 1 := constantI S_ 1 1#1
  let main_v171 : IVec S_ 1 := (fun x v => Host.reduce IntOp.andi x v reducesTo_S1x4x32_S_d0_1_2 h_S_) main_v170 main_c_48
  let main_v172 : IVec S_ 1 := andi main_v166 main_v171
  let main_v173 : FVec F S1x4x32 .f32 := shapeCast S1x4x32 main_arg9 shapeCasts_S1x128_S1x4x32
  let main_v174 : FVec F S1x1x32 .f32 := (extractStridedSlice S1x1x32 ![0, 0, 0] · slices_S1x4x32_S1x1x32_0_0_0) main_v173
  let main_v175 : FVec F S1x4x32 .f32 := broadcastInDim S1x4x32 ![0, 1, 2] bcast_S1x1x32_S1x4x32_0_1_2 main_v174
  let main_v176 : IVec S1x4x32 1 := cmpf .oeq main_v173 main_v175
  let main_c_49 : IVec S_ 1 := constantI S_ 1 1#1
  let main_v177 : IVec S_ 1 := (fun x v => Host.reduce IntOp.andi x v reducesTo_S1x4x32_S_d0_1_2 h_S_) main_v176 main_c_49
  let main_v178 : IVec S_ 1 := andi main_v172 main_v177
  let main_v179 : FVec F S1x4x32 .f32 := shapeCast S1x4x32 main_arg10 shapeCasts_S1x128_S1x4x32
  let main_v180 : FVec F S1x1x32 .f32 := (extractStridedSlice S1x1x32 ![0, 0, 0] · slices_S1x4x32_S1x1x32_0_0_0) main_v179
  let main_v181 : FVec F S1x4x32 .f32 := broadcastInDim S1x4x32 ![0, 1, 2] bcast_S1x1x32_S1x4x32_0_1_2 main_v180
  let main_v182 : IVec S1x4x32 1 := cmpf .oeq main_v179 main_v181
  let main_c_50 : IVec S_ 1 := constantI S_ 1 1#1
  let main_v183 : IVec S_ 1 := (fun x v => Host.reduce IntOp.andi x v reducesTo_S1x4x32_S_d0_1_2 h_S_) main_v182 main_c_50
  let main_v184 : IVec S_ 1 := andi main_v178 main_v183
  let main_v185 : FVec F S1x4x32 .f32 := shapeCast S1x4x32 main_arg12 shapeCasts_S1x128_S1x4x32
  let main_v186 : FVec F S1x1x32 .f32 := (extractStridedSlice S1x1x32 ![0, 0, 0] · slices_S1x4x32_S1x1x32_0_0_0) main_v185
  fn_part10 (F := F) main_arg14 main_arg16 main_arg17 main_arg18 main_v184 main_v185 main_v186

def fn_part8 {F : FTy → Type} [FloatOps F] (main_arg4 : FVec F S1x128 .f32) (main_arg6 : FVec F S1x128 .f32) (main_arg8 : FVec F S1x128 .f32) (main_arg9 : FVec F S1x128 .f32) (main_arg10 : FVec F S1x128 .f32) (main_arg12 : FVec F S1x128 .f32) (main_arg14 : FVec F S1x128 .f32) (main_arg16 : FVec F S1x128 .f32) (main_arg17 : FVec F S1x128 .f32) (main_arg18 : FVec F S1x128 .f32) (main_v143 : IVec S_ 1) (main_v144 : FVec F S4x32x4x32 .f32) (main_v145 : IVec S4x32x4x32 32) : IVec S_ 1 :=
  let main_v146 : IVec S4x32x4x32 32 := iotaInDim S4x32x4x32 32 2
  let main_v147 : IVec S4x32x4x32 1 := cmpi .eq main_v145 main_v146
  let main_v148 : FVec F S1x32x1x32 .f32 := (extractStridedSlice S1x32x1x32 ![0, 0, 0, 0] · slices_S4x32x4x32_S1x32x1x32_0_0_0_0) main_v144
  let main_v149 : FVec F S4x32x4x32 .f32 := broadcastInDim S4x32x4x32 ![0, 1, 2, 3] bcast_S1x32x1x32_S4x32x4x32_0_1_2_3 main_v148
  let main_cst_44 : FVec F S_ .f32 := constant S_ .f32 0x00000000#32
  let main_v150 : FVec F S4x32x4x32 .f32 := broadcastInDim S4x32x4x32 ![] bcast_S_S4x32x4x32 main_cst_44
  let main_v151 : FVec F S4x32x4x32 .f32 := select main_v147 main_v149 main_v150
  let main_v152 : IVec S4x32x4x32 1 := cmpf .oeq main_v144 main_v151
  let main_c_45 : IVec S_ 1 := constantI S_ 1 1#1
  let main_v153 : IVec S_ 1 := (fun x v => Host.reduce IntOp.andi x v reducesTo_S4x32x4x32_S_d0_1_2_3 h_S_) main_v152 main_c_45
  let main_v154 : IVec S_ 1 := andi main_v143 main_v153
  let main_v155 : FVec F S1x4x32 .f32 := shapeCast S1x4x32 main_arg4 shapeCasts_S1x128_S1x4x32
  let main_v156 : FVec F S1x1x32 .f32 := (extractStridedSlice S1x1x32 ![0, 0, 0] · slices_S1x4x32_S1x1x32_0_0_0) main_v155
  let main_v157 : FVec F S1x4x32 .f32 := broadcastInDim S1x4x32 ![0, 1, 2] bcast_S1x1x32_S1x4x32_0_1_2 main_v156
  let main_v158 : IVec S1x4x32 1 := cmpf .oeq main_v155 main_v157
  let main_c_46 : IVec S_ 1 := constantI S_ 1 1#1
  let main_v159 : IVec S_ 1 := (fun x v => Host.reduce IntOp.andi x v reducesTo_S1x4x32_S_d0_1_2 h_S_) main_v158 main_c_46
  let main_v160 : IVec S_ 1 := andi main_v154 main_v159
  let main_v161 : FVec F S1x4x32 .f32 := shapeCast S1x4x32 main_arg6 shapeCasts_S1x128_S1x4x32
  let main_v162 : FVec F S1x1x32 .f32 := (extractStridedSlice S1x1x32 ![0, 0, 0] · slices_S1x4x32_S1x1x32_0_0_0) main_v161
  let main_v163 : FVec F S1x4x32 .f32 := broadcastInDim S1x4x32 ![0, 1, 2] bcast_S1x1x32_S1x4x32_0_1_2 main_v162
  let main_v164 : IVec S1x4x32 1 := cmpf .oeq main_v161 main_v163
  let main_c_47 : IVec S_ 1 := constantI S_ 1 1#1
  let main_v165 : IVec S_ 1 := (fun x v => Host.reduce IntOp.andi x v reducesTo_S1x4x32_S_d0_1_2 h_S_) main_v164 main_c_47
  fn_part9 (F := F) main_arg8 main_arg9 main_arg10 main_arg12 main_arg14 main_arg16 main_arg17 main_arg18 main_v160 main_v165

def fn_part7 {F : FTy → Type} [FloatOps F] (main_arg4 : FVec F S1x128 .f32) (main_arg6 : FVec F S1x128 .f32) (main_arg8 : FVec F S1x128 .f32) (main_arg9 : FVec F S1x128 .f32) (main_arg10 : FVec F S1x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v121 : IVec S_ 1) (main_v122 : FVec F S4x32x4x32 .f32) (main_v125 : IVec S4x32x4x32 1) : IVec S_ 1 :=
  let main_v126 : FVec F S1x32x1x32 .f32 := (extractStridedSlice S1x32x1x32 ![0, 0, 0, 0] · slices_S4x32x4x32_S1x32x1x32_0_0_0_0) main_v122
  let main_v127 : FVec F S4x32x4x32 .f32 := broadcastInDim S4x32x4x32 ![0, 1, 2, 3] bcast_S1x32x1x32_S4x32x4x32_0_1_2_3 main_v126
  let main_cst_40 : FVec F S_ .f32 := constant S_ .f32 0x00000000#32
  let main_v128 : FVec F S4x32x4x32 .f32 := broadcastInDim S4x32x4x32 ![] bcast_S_S4x32x4x32 main_cst_40
  let main_v129 : FVec F S4x32x4x32 .f32 := select main_v125 main_v127 main_v128
  let main_v130 : IVec S4x32x4x32 1 := cmpf .oeq main_v122 main_v129
  let main_c_41 : IVec S_ 1 := constantI S_ 1 1#1
  let main_v131 : IVec S_ 1 := (fun x v => Host.reduce IntOp.andi x v reducesTo_S4x32x4x32_S_d0_1_2_3 h_S_) main_v130 main_c_41
  let main_v132 : IVec S_ 1 := andi main_v121 main_v131
  let main_v133 : FVec F S4x32x4x32 .f32 := shapeCast S4x32x4x32 main_arg13 shapeCasts_S128x128_S4x32x4x32
  let main_v134 : IVec S4x32x4x32 32 := iotaInDim S4x32x4x32 32 0
  let main_v135 : IVec S4x32x4x32 32 := iotaInDim S4x32x4x32 32 2
  let main_v136 : IVec S4x32x4x32 1 := cmpi .eq main_v134 main_v135
  let main_v137 : FVec F S1x32x1x32 .f32 := (extractStridedSlice S1x32x1x32 ![0, 0, 0, 0] · slices_S4x32x4x32_S1x32x1x32_0_0_0_0) main_v133
  let main_v138 : FVec F S4x32x4x32 .f32 := broadcastInDim S4x32x4x32 ![0, 1, 2, 3] bcast_S1x32x1x32_S4x32x4x32_0_1_2_3 main_v137
  let main_cst_42 : FVec F S_ .f32 := constant S_ .f32 0x00000000#32
  let main_v139 : FVec F S4x32x4x32 .f32 := broadcastInDim S4x32x4x32 ![] bcast_S_S4x32x4x32 main_cst_42
  let main_v140 : FVec F S4x32x4x32 .f32 := select main_v136 main_v138 main_v139
  let main_v141 : IVec S4x32x4x32 1 := cmpf .oeq main_v133 main_v140
  let main_c_43 : IVec S_ 1 := constantI S_ 1 1#1
  let main_v142 : IVec S_ 1 := (fun x v => Host.reduce IntOp.andi x v reducesTo_S4x32x4x32_S_d0_1_2_3 h_S_) main_v141 main_c_43
  let main_v143 : IVec S_ 1 := andi main_v132 main_v142
  let main_v144 : FVec F S4x32x4x32 .f32 := shapeCast S4x32x4x32 main_arg15 shapeCasts_S128x128_S4x32x4x32
  let main_v145 : IVec S4x32x4x32 32 := iotaInDim S4x32x4x32 32 0
  fn_part8 (F := F) main_arg4 main_arg6 main_arg8 main_arg9 main_arg10 main_arg12 main_arg14 main_arg16 main_arg17 main_arg18 main_v143 main_v144 main_v145

def fn_part6 {F : FTy → Type} [FloatOps F] (main_arg4 : FVec F S1x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v99 : IVec S_ 1) (main_v100 : FVec F S4x32x4x32 .f32) (main_v103 : IVec S4x32x4x32 1) (main_v105 : FVec F S4x32x4x32 .f32) : IVec S_ 1 :=
  let main_cst_36 : FVec F S_ .f32 := constant S_ .f32 0x00000000#32
  let main_v106 : FVec F S4x32x4x32 .f32 := broadcastInDim S4x32x4x32 ![] bcast_S_S4x32x4x32 main_cst_36
  let main_v107 : FVec F S4x32x4x32 .f32 := select main_v103 main_v105 main_v106
  let main_v108 : IVec S4x32x4x32 1 := cmpf .oeq main_v100 main_v107
  let main_c_37 : IVec S_ 1 := constantI S_ 1 1#1
  let main_v109 : IVec S_ 1 := (fun x v => Host.reduce IntOp.andi x v reducesTo_S4x32x4x32_S_d0_1_2_3 h_S_) main_v108 main_c_37
  let main_v110 : IVec S_ 1 := andi main_v99 main_v109
  let main_v111 : FVec F S4x32x4x32 .f32 := shapeCast S4x32x4x32 main_arg7 shapeCasts_S128x128_S4x32x4x32
  let main_v112 : IVec S4x32x4x32 32 := iotaInDim S4x32x4x32 32 0
  let main_v113 : IVec S4x32x4x32 32 := iotaInDim S4x32x4x32 32 2
  let main_v114 : IVec S4x32x4x32 1 := cmpi .eq main_v112 main_v113
  let main_v115 : FVec F S1x32x1x32 .f32 := (extractStridedSlice S1x32x1x32 ![0, 0, 0, 0] · slices_S4x32x4x32_S1x32x1x32_0_0_0_0) main_v111
  let main_v116 : FVec F S4x32x4x32 .f32 := broadcastInDim S4x32x4x32 ![0, 1, 2, 3] bcast_S1x32x1x32_S4x32x4x32_0_1_2_3 main_v115
  let main_cst_38 : FVec F S_ .f32 := constant S_ .f32 0x00000000#32
  let main_v117 : FVec F S4x32x4x32 .f32 := broadcastInDim S4x32x4x32 ![] bcast_S_S4x32x4x32 main_cst_38
  let main_v118 : FVec F S4x32x4x32 .f32 := select main_v114 main_v116 main_v117
  let main_v119 : IVec S4x32x4x32 1 := cmpf .oeq main_v111 main_v118
  let main_c_39 : IVec S_ 1 := constantI S_ 1 1#1
  let main_v120 : IVec S_ 1 := (fun x v => Host.reduce IntOp.andi x v reducesTo_S4x32x4x32_S_d0_1_2_3 h_S_) main_v119 main_c_39
  let main_v121 : IVec S_ 1 := andi main_v110 main_v120
  let main_v122 : FVec F S4x32x4x32 .f32 := shapeCast S4x32x4x32 main_arg11 shapeCasts_S128x128_S4x32x4x32
  let main_v123 : IVec S4x32x4x32 32 := iotaInDim S4x32x4x32 32 0
  let main_v124 : IVec S4x32x4x32 32 := iotaInDim S4x32x4x32 32 2
  let main_v125 : IVec S4x32x4x32 1 := cmpi .eq main_v123 main_v124
  fn_part7 (F := F) main_arg4 main_arg6 main_arg8 main_arg9 main_arg10 main_arg12 main_arg13 main_arg14 main_arg15 main_arg16 main_arg17 main_arg18 main_v121 main_v122 main_v125

def fn_part5 {F : FTy → Type} [FloatOps F] (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  let main_v89 : FVec F S4x32x4x32 .f32 := shapeCast S4x32x4x32 main_arg3 shapeCasts_S128x128_S4x32x4x32
  let main_v90 : IVec S4x32x4x32 32 := iotaInDim S4x32x4x32 32 0
  let main_v91 : IVec S4x32x4x32 32 := iotaInDim S4x32x4x32 32 2
  let main_v92 : IVec S4x32x4x32 1 := cmpi .eq main_v90 main_v91
  let main_v93 : FVec F S1x32x1x32 .f32 := (extractStridedSlice S1x32x1x32 ![0, 0, 0, 0] · slices_S4x32x4x32_S1x32x1x32_0_0_0_0) main_v89
  let main_v94 : FVec F S4x32x4x32 .f32 := broadcastInDim S4x32x4x32 ![0, 1, 2, 3] bcast_S1x32x1x32_S4x32x4x32_0_1_2_3 main_v93
  let main_cst_34 : FVec F S_ .f32 := constant S_ .f32 0x00000000#32
  let main_v95 : FVec F S4x32x4x32 .f32 := broadcastInDim S4x32x4x32 ![] bcast_S_S4x32x4x32 main_cst_34
  let main_v96 : FVec F S4x32x4x32 .f32 := select main_v92 main_v94 main_v95
  let main_v97 : IVec S4x32x4x32 1 := cmpf .oeq main_v89 main_v96
  let main_c_35 : IVec S_ 1 := constantI S_ 1 1#1
  let main_v98 : IVec S_ 1 := (fun x v => Host.reduce IntOp.andi x v reducesTo_S4x32x4x32_S_d0_1_2_3 h_S_) main_v97 main_c_35
  let main_v99 : IVec S_ 1 := andi main_v88 main_v98
  let main_v100 : FVec F S4x32x4x32 .f32 := shapeCast S4x32x4x32 main_arg5 shapeCasts_S128x128_S4x32x4x32
  let main_v101 : IVec S4x32x4x32 32 := iotaInDim S4x32x4x32 32 0
  let main_v102 : IVec S4x32x4x32 32 := iotaInDim S4x32x4x32 32 2
  let main_v103 : IVec S4x32x4x32 1 := cmpi .eq main_v101 main_v102
  let main_v104 : FVec F S1x32x1x32 .f32 := (extractStridedSlice S1x32x1x32 ![0, 0, 0, 0] · slices_S4x32x4x32_S1x32x1x32_0_0_0_0) main_v100
  let main_v105 : FVec F S4x32x4x32 .f32 := broadcastInDim S4x32x4x32 ![0, 1, 2, 3] bcast_S1x32x1x32_S4x32x4x32_0_1_2_3 main_v104
  fn_part6 (F := F) main_arg4 main_arg6 main_arg7 main_arg8 main_arg9 main_arg10 main_arg11 main_arg12 main_arg13 main_arg14 main_arg15 main_arg16 main_arg17 main_arg18 main_v99 main_v100 main_v103 main_v105

def fn_part4 {F : FTy → Type} [FloatOps F] (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S1x128 .f32 := Host.absf main_arg16
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1x128 .f32 := Host.absf main_arg17
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1x128 .f32 := Host.absf main_arg18
  let main_cst_32 : FVec F S_ .f32 := constant S_ .f32 0x7F800000#32
  fn_part5 (F := F) main_arg3 main_arg4 main_arg5 main_arg6 main_arg7 main_arg8 main_arg9 main_arg10 main_arg11 main_arg12 main_arg13 main_arg14 main_arg15 main_arg16 main_arg17 main_arg18 main_v83 main_v84 main_cst_32

def fn_part3 {F : FTy → Type} [FloatOps F] (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S1x128 .f32 := Host.absf main_arg14
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg3 main_arg4 main_arg5 main_arg6 main_arg7 main_arg8 main_arg9 main_arg10 main_arg11 main_arg12 main_arg13 main_arg14 main_arg15 main_arg16 main_arg17 main_arg18 main_v63 main_v67

def fn_part2 {F : FTy → Type} [FloatOps F] (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg3 main_arg4 main_arg5 main_arg6 main_arg7 main_arg8 main_arg9 main_arg10 main_arg11 main_arg12 main_arg13 main_arg14 main_arg15 main_arg16 main_arg17 main_arg18 main_v48 main_v49 main_v50

def fn_part1 {F : FTy → Type} [FloatOps F] (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg4 main_arg5 main_arg6 main_arg7 main_arg8 main_arg9 main_arg10 main_arg11 main_arg12 main_arg13 main_arg14 main_arg15 main_arg16 main_arg17 main_arg18 main_v33

def fn {F : FTy → Type} [FloatOps F] (main_arg0 : FVec F S262144x32 .f32) (main_arg1 : IVec S2x524288 32) (main_arg2 : FVec F S524288x32 .f32) (main_arg3 : FVec F S128x128 .f32) (main_arg4 : FVec F S1x128 .f32) (main_arg5 : FVec F S128x128 .f32) (main_arg6 : FVec F S1x128 .f32) (main_arg7 : FVec F S128x128 .f32) (main_arg8 : FVec F S1x128 .f32) (main_arg9 : FVec F S1x128 .f32) (main_arg10 : FVec F S1x128 .f32) (main_arg11 : FVec F S128x128 .f32) (main_arg12 : FVec F S1x128 .f32) (main_arg13 : FVec F S128x128 .f32) (main_arg14 : FVec F S1x128 .f32) (main_arg15 : FVec F S128x128 .f32) (main_arg16 : FVec F S1x128 .f32) (main_arg17 : FVec F S1x128 .f32) (main_arg18 : FVec F S1x128 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S524288x32 .f32 := Host.absf main_arg2
  let main_cst_0 : FVec F S_ .f32 := constant S_ .f32 0x7F800000#32
  let main_v5 : FVec F S524288x32 .f32 := broadcastInDim S524288x32 ![] bcast_S_S524288x32 main_cst_0
  let main_v6 : IVec S524288x32 1 := cmpf .olt main_v4 main_v5
  let main_c_1 : IVec S_ 1 := constantI S_ 1 1#1
  let main_v7 : IVec S_ 1 := (fun x v => Host.reduce IntOp.andi x v reducesTo_S524288x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg3 main_arg4 main_arg5 main_arg6 main_arg7 main_arg8 main_arg9 main_arg10 main_arg11 main_arg12 main_arg13 main_arg14 main_arg15 main_arg16 main_arg17 main_arg18 main_v13 main_v16
-- ==== Kernel.lean ====
abbrev S262144x32 : Shape := ⟨2, ![262144, 32]⟩
abbrev S2x524288 : Shape := ⟨2, ![2, 524288]⟩
abbrev S524288x32 : Shape := ⟨2, ![524288, 32]⟩
abbrev S128x128 : Shape := ⟨2, ![128, 128]⟩
abbrev S1x128 : Shape := ⟨2, ![1, 128]⟩
abbrev S2x2 : Shape := ⟨2, ![2, 2]⟩
abbrev S_ : Shape := ⟨0, ![]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S256x256 : Shape := ⟨2, ![256, 256]⟩
abbrev S1x1x1x128 : Shape := ⟨4, ![1, 1, 1, 128]⟩
abbrev S1x1x2x128 : Shape := ⟨4, ![1, 1, 2, 128]⟩
abbrev S1x256 : Shape := ⟨2, ![1, 256]⟩
abbrev S8192x32 : Shape := ⟨2, ![8192, 32]⟩
abbrev S16384x32 : Shape := ⟨2, ![16384, 32]⟩
abbrev S1024x32 : Shape := ⟨2, ![1024, 32]⟩
abbrev S1024x256 : Shape := ⟨2, ![1024, 256]⟩
abbrev S2048x32 : Shape := ⟨2, ![2048, 32]⟩
abbrev S2048x256 : Shape := ⟨2, ![2048, 256]⟩

abbrev nBuf : Space → Nat
  | .hbm => 129
  | .vmem => 24
  | .smem => 0
  | _ => 0

abbrev hbmTy0_0 (i : Nat) : BufTy := match i % 128 with
  | 0 => ⟨S262144x32, .f32⟩
  | 1 => ⟨S2x524288, .i32⟩
  | 2 => ⟨S524288x32, .f32⟩
  | 3 => ⟨S128x128, .f32⟩
  | 4 => ⟨S1x128, .f32⟩
  | 5 => ⟨S128x128, .f32⟩
  | 6 => ⟨S1x128, .f32⟩
  | 7 => ⟨S128x128, .f32⟩
  | 8 => ⟨S1x128, .f32⟩
  | 9 => ⟨S1x128, .f32⟩
  | 10 => ⟨S1x128, .f32⟩
  | 11 => ⟨S128x128, .f32⟩
  | 12 => ⟨S1x128, .f32⟩
  | 13 => ⟨S128x128, .f32⟩
  | 14 => ⟨S1x128, .f32⟩
  | 15 => ⟨S128x128, .f32⟩
  | 16 => ⟨S1x128, .f32⟩
  | 17 => ⟨S1x128, .f32⟩
  | 18 => ⟨S1x128, .f32⟩
  | 19 => ⟨S2x2, .i32⟩
  | 20 => ⟨S2x2, .i32⟩
  | 21 => ⟨S_, .i32⟩
  | 22 => ⟨S2x2, .i32⟩
  | 23 => ⟨S2x2, .i32⟩
  | 24 => ⟨S2x2, .i1⟩
  | 25 => ⟨S2x2, .f32⟩
  | 26 => ⟨S2x1x2x1, .f32⟩
  | 27 => ⟨S1x128x1x128, .f32⟩
  | 28 => ⟨S2x128x2x128, .f32⟩
  | 29 => ⟨S2x128x2x128, .f32⟩
  | 30 => ⟨S2x128x2x128, .f32⟩
  | 31 => ⟨S256x256, .f32⟩
  | 32 => ⟨S2x2, .i32⟩
  | 33 => ⟨S2x2, .i32⟩
  | 34 => ⟨S_, .i32⟩
  | 35 => ⟨S2x2, .i32⟩
  | 36 => ⟨S2x2, .i32⟩
  | 37 => ⟨S2x2, .i1⟩
  | 38 => ⟨S2x2, .f32⟩
  | 39 => ⟨S2x1x2x1, .f32⟩
  | 40 => ⟨S1x128x1x128, .f32⟩
  | 41 => ⟨S2x128x2x128, .f32⟩
  | 42 => ⟨S2x128x2x128, .f32⟩
  | 43 => ⟨S2x128x2x128, .f32⟩
  | 44 => ⟨S256x256, .f32⟩
  | 45 => ⟨S2x2, .i32⟩
  | 46 => ⟨S2x2, .i32⟩
  | 47 => ⟨S_, .i32⟩
  | 48 => ⟨S2x2, .i32⟩
  | 49 => ⟨S2x2, .i32⟩
  | 50 => ⟨S2x2, .i1⟩
  | 51 => ⟨S2x2, .f32⟩
  | 52 => ⟨S2x1x2x1, .f32⟩
  | 53 => ⟨S1x128x1x128, .f32⟩
  | 54 => ⟨S2x128x2x128, .f32⟩
  | 55 => ⟨S2x128x2x128, .f32⟩
  | 56 => ⟨S2x128x2x128, .f32⟩
  | 57 => ⟨S256x256, .f32⟩
  | 58 => ⟨S1x1x1x128, .f32⟩
  | 59 => ⟨S1x1x2x128, .f32⟩
  | 60 => ⟨S1x256, .f32⟩
  | 61 => ⟨S1x1x1x128, .f32⟩
  | 62 => ⟨S1x1x2x128, .f32⟩
  | 63 => ⟨S1x256, .f32⟩
  | 64 => ⟨S1x1x1x128, .f32⟩
  | 65 => ⟨S1x1x2x128, .f32⟩
  | 66 => ⟨S1x256, .f32⟩
  | 67 => ⟨S1x1x1x128, .f32⟩
  | 68 => ⟨S1x1x2x128, .f32⟩
  | 69 => ⟨S1x256, .f32⟩
  | 70 => ⟨S1x1x1x128, .f32⟩
  | 71 => ⟨S1x1x2x128, .f32⟩
  | 72 => ⟨S1x256, .f32⟩
  | 73 => ⟨S2x2, .i32⟩
  | 74 => ⟨S2x2, .i32⟩
  | 75 => ⟨S_, .i32⟩
  | 76 => ⟨S2x2, .i32⟩
  | 77 => ⟨S2x2, .i32⟩
  | 78 => ⟨S2x2, .i1⟩
  | 79 => ⟨S2x2, .f32⟩
  | 80 => ⟨S2x1x2x1, .f32⟩
  | 81 => ⟨S1x128x1x128, .f32⟩
  | 82 => ⟨S2x128x2x128, .f32⟩
  | 83 => ⟨S2x128x2x128, .f32⟩
  | 84 => ⟨S2x128x2x128, .f32⟩
  | 85 => ⟨S256x256, .f32⟩
  | 86 => ⟨S2x2, .i32⟩
  | 87 => ⟨S2x2, .i32⟩
  | 88 => ⟨S_, .i32⟩
  | 89 => ⟨S2x2, .i32⟩
  | 90 => ⟨S2x2, .i32⟩
  | 91 => ⟨S2x2, .i1⟩
  | 92 => ⟨S2x2, .f32⟩
  | 93 => ⟨S2x1x2x1, .f32⟩
  | 94 => ⟨S1x128x1x128, .f32⟩
  | 95 => ⟨S2x128x2x128, .f32⟩
  | 96 => ⟨S2x128x2x128, .f32⟩
  | 97 => ⟨S2x128x2x128, .f32⟩
  | 98 => ⟨S256x256, .f32⟩
  | 99 => ⟨S2x2, .i32⟩
  | 100 => ⟨S2x2, .i32⟩
  | 101 => ⟨S_, .i32⟩
  | 102 => ⟨S2x2, .i32⟩
  | 103 => ⟨S2x2, .i32⟩
  | 104 => ⟨S2x2, .i1⟩
  | 105 => ⟨S2x2, .f32⟩
  | 106 => ⟨S2x1x2x1, .f32⟩
  | 107 => ⟨S1x128x1x128, .f32⟩
  | 108 => ⟨S2x128x2x128, .f32⟩
  | 109 => ⟨S2x128x2x128, .f32⟩
  | 110 => ⟨S2x128x2x128, .f32⟩
  | 111 => ⟨S256x256, .f32⟩
  | 112 => ⟨S1x1x1x128, .f32⟩
  | 113 => ⟨S1x1x2x128, .f32⟩
  | 114 => ⟨S1x256, .f32⟩
  | 115 => ⟨S1x1x1x128, .f32⟩
  | 116 => ⟨S1x1x2x128, .f32⟩
  | 117 => ⟨S1x256, .f32⟩
  | 118 => ⟨S1x1x1x128, .f32⟩
  | 119 => ⟨S1x1x2x128, .f32⟩
  | 120 => ⟨S1x256, .f32⟩
  | 121 => ⟨S1x1x1x128, .f32⟩
  | 122 => ⟨S1x1x2x128, .f32⟩
  | 123 => ⟨S1x256, .f32⟩
  | 124 => ⟨S1x1x1x128, .f32⟩
  | 125 => ⟨S1x1x2x128, .f32⟩
  | 126 => ⟨S1x256, .f32⟩
  | 127 => ⟨S262144x32, .f32⟩
  | _ => ⟨S262144x32, .f32⟩

abbrev hbmTy0_1 (i : Nat) : BufTy := match i % 128 with
  | 0 => ⟨S524288x32, .f32⟩
  | _ => ⟨S262144x32, .f32⟩

abbrev hbmTy (i : Nat) : BufTy := match i / 128 with
  | 0 => hbmTy0_0 i
  | 1 => hbmTy0_1 i
  | _ => ⟨S262144x32, .f32⟩

abbrev bufTy : (tb : Table) → Fin (tcTables nBuf tb) → BufTy
  | .hbm, ⟨i, _⟩ => hbmTy i
  | .local _ .vmem, ⟨0, _⟩ => ⟨S8192x32, .f32⟩
  | .local _ .vmem, ⟨1, _⟩ => ⟨S8192x32, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S16384x32, .f32⟩
  | .local _ .vmem, ⟨11, _⟩ => ⟨S16384x32, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S8192x32, .f32⟩
  | .local _ .vmem, ⟨21, _⟩ => ⟨S8192x32, .f32⟩
  | .local _ .vmem, ⟨22, _⟩ => ⟨S16384x32, .f32⟩
  | .local _ .vmem, ⟨23, _⟩ => ⟨S16384x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c_0 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_call1_v0 : Ref sig .tc := ⟨.hbm, 39, rfl⟩
abbrev main_call0_call1_v1 : Ref sig .tc := ⟨.hbm, 40, rfl⟩
abbrev main_call0_call1_v2 : Ref sig .tc := ⟨.hbm, 41, rfl⟩
abbrev main_call0_call1_v3 : Ref sig .tc := ⟨.hbm, 42, rfl⟩
abbrev main_call0_call1_v4 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_c_1 : Ref sig .tc := ⟨.hbm, 47, rfl⟩
abbrev main_call0_v16 : Ref sig .tc := ⟨.hbm, 48, rfl⟩
abbrev main_call0_v17 : Ref sig .tc := ⟨.hbm, 49, rfl⟩
abbrev main_call0_v18 : Ref sig .tc := ⟨.hbm, 50, rfl⟩
abbrev main_call0_v19 : Ref sig .tc := ⟨.hbm, 51, rfl⟩
abbrev main_call0_call2_v0 : Ref sig .tc := ⟨.hbm, 52, rfl⟩
abbrev main_call0_call2_v1 : Ref sig .tc := ⟨.hbm, 53, rfl⟩
abbrev main_call0_call2_v2 : Ref sig .tc := ⟨.hbm, 54, rfl⟩
abbrev main_call0_call2_v3 : Ref sig .tc := ⟨.hbm, 55, rfl⟩
abbrev main_call0_call2_v4 : Ref sig .tc := ⟨.hbm, 56, rfl⟩
abbrev main_call0_v20 : Ref sig .tc := ⟨.hbm, 57, rfl⟩
abbrev main_call0_v21 : Ref sig .tc := ⟨.hbm, 58, rfl⟩
abbrev main_call0_v22 : Ref sig .tc := ⟨.hbm, 59, rfl⟩
abbrev main_call0_v23 : Ref sig .tc := ⟨.hbm, 60, rfl⟩
abbrev main_call0_v24 : Ref sig .tc := ⟨.hbm, 61, rfl⟩
abbrev main_call0_v25 : Ref sig .tc := ⟨.hbm, 62, rfl⟩
abbrev main_call0_v26 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_v35 : Ref sig .tc := ⟨.hbm, 72, rfl⟩
abbrev main_call0_v36 : Ref sig .tc := ⟨.hbm, 73, rfl⟩
abbrev main_call0_v37 : Ref sig .tc := ⟨.hbm, 74, rfl⟩
abbrev main_call0_c_2 : Ref sig .tc := ⟨.hbm, 75, rfl⟩
abbrev main_call0_v38 : Ref sig .tc := ⟨.hbm, 76, rfl⟩
abbrev main_call0_v39 : Ref sig .tc := ⟨.hbm, 77, rfl⟩
abbrev main_call0_v40 : Ref sig .tc := ⟨.hbm, 78, rfl⟩
abbrev main_call0_v41 : Ref sig .tc := ⟨.hbm, 79, rfl⟩
abbrev main_call0_call3_v0 : Ref sig .tc := ⟨.hbm, 80, rfl⟩
abbrev main_call0_call3_v1 : Ref sig .tc := ⟨.hbm, 81, rfl⟩
abbrev main_call0_call3_v2 : Ref sig .tc := ⟨.hbm, 82, rfl⟩
abbrev main_call0_call3_v3 : Ref sig .tc := ⟨.hbm, 83, rfl⟩
abbrev main_call0_call3_v4 : Ref sig .tc := ⟨.hbm, 84, rfl⟩
abbrev main_call0_v42 : Ref sig .tc := ⟨.hbm, 85, rfl⟩
abbrev main_call0_v43 : Ref sig .tc := ⟨.hbm, 86, rfl⟩
abbrev main_call0_v44 : Ref sig .tc := ⟨.hbm, 87, rfl⟩
abbrev main_call0_c_3 : Ref sig .tc := ⟨.hbm, 88, rfl⟩
abbrev main_call0_v45 : Ref sig .tc := ⟨.hbm, 89, rfl⟩
abbrev main_call0_v46 : Ref sig .tc := ⟨.hbm, 90, rfl⟩
abbrev main_call0_v47 : Ref sig .tc := ⟨.hbm, 91, rfl⟩
abbrev main_call0_v48 : Ref sig .tc := ⟨.hbm, 92, rfl⟩
abbrev main_call0_call4_v0 : Ref sig .tc := ⟨.hbm, 93, rfl⟩
abbrev main_call0_call4_v1 : Ref sig .tc := ⟨.hbm, 94, rfl⟩
abbrev main_call0_call4_v2 : Ref sig .tc := ⟨.hbm, 95, rfl⟩
abbrev main_call0_call4_v3 : Ref sig .tc := ⟨.hbm, 96, rfl⟩
abbrev main_call0_call4_v4 : Ref sig .tc := ⟨.hbm, 97, rfl⟩
abbrev main_call0_v49 : Ref sig .tc := ⟨.hbm, 98, rfl⟩
abbrev main_call0_v50 : Ref sig .tc := ⟨.hbm, 99, rfl⟩
abbrev main_call0_v51 : Ref sig .tc := ⟨.hbm, 100, rfl⟩
abbrev main_call0_c_4 : Ref sig .tc := ⟨.hbm, 101, rfl⟩
abbrev main_call0_v52 : Ref sig .tc := ⟨.hbm, 102, rfl⟩
abbrev main_call0_v53 : Ref sig .tc := ⟨.hbm, 103, rfl⟩
abbrev main_call0_v54 : Ref sig .tc := ⟨.hbm, 104, rfl⟩
abbrev main_call0_v55 : Ref sig .tc := ⟨.hbm, 105, rfl⟩
abbrev main_call0_call5_v0 : Ref sig .tc := ⟨.hbm, 106, rfl⟩
abbrev main_call0_call5_v1 : Ref sig .tc := ⟨.hbm, 107, rfl⟩
abbrev main_call0_call5_v2 : Ref sig .tc := ⟨.hbm, 108, rfl⟩
abbrev main_call0_call5_v3 : Ref sig .tc := ⟨.hbm, 109, rfl⟩
abbrev main_call0_call5_v4 : Ref sig .tc := ⟨.hbm, 110, rfl⟩
abbrev main_call0_v56 : Ref sig .tc := ⟨.hbm, 111, rfl⟩
abbrev main_call0_v57 : Ref sig .tc := ⟨.hbm, 112, rfl⟩
abbrev main_call0_v58 : Ref sig .tc := ⟨.hbm, 113, rfl⟩
abbrev main_call0_v59 : Ref sig .tc := ⟨.hbm, 114, rfl⟩
abbrev main_call0_v60 : Ref sig .tc := ⟨.hbm, 115, rfl⟩
abbrev main_call0_v61 : Ref sig .tc := ⟨.hbm, 116, rfl⟩
abbrev main_call0_v62 : Ref sig .tc := ⟨.hbm, 117, rfl⟩
abbrev main_call0_v63 : Ref sig .tc := ⟨.hbm, 118, rfl⟩
abbrev main_call0_v64 : Ref sig .tc := ⟨.hbm, 119, rfl⟩
abbrev main_call0_v65 : Ref sig .tc := ⟨.hbm, 120, rfl⟩
abbrev main_call0_v66 : Ref sig .tc := ⟨.hbm, 121, rfl⟩
abbrev main_call0_v67 : Ref sig .tc := ⟨.hbm, 122, rfl⟩
abbrev main_call0_v68 : Ref sig .tc := ⟨.hbm, 123, rfl⟩
abbrev main_call0_v69 : Ref sig .tc := ⟨.hbm, 124, rfl⟩
abbrev main_call0_v70 : Ref sig .tc := ⟨.hbm, 125, rfl⟩
abbrev main_call0_v71 : Ref sig .tc := ⟨.hbm, 126, rfl⟩
abbrev main_v0_2 : Ref sig .tc := ⟨.hbm, 127, rfl⟩
abbrev main_v0_0 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8192x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16384x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S2x2 : S_.BroadcastsInDim S2x2 (![] : Fin 0 → Fin S2x2.rank)
  bcast_S2x2_S2x1x2x1_0_2 : S2x2.BroadcastsInDim S2x1x2x1 (![0, 2] : Fin 2 → Fin S2x1x2x1.rank)
  bcast_S128x128_S1x128x1x128_1_3 : S128x128.BroadcastsInDim S1x128x1x128 (![1, 3] : Fin 2 → Fin S1x128x1x128.rank)
  bcast_S2x1x2x1_S2x128x2x128_0_1_2_3 : S2x1x2x1.BroadcastsInDim S2x128x2x128 (![0, 1, 2, 3] : Fin 4 → Fin S2x128x2x128.rank)
  bcast_S1x128x1x128_S2x128x2x128_0_1_2_3 : S1x128x1x128.BroadcastsInDim S2x128x2x128 (![0, 1, 2, 3] : Fin 4 → Fin S2x128x2x128.rank)
  shapeCasts_S2x128x2x128_S256x256 : S2x128x2x128.ShapeCasts S256x256
  shapeCasts_S1x128_S1x1x1x128 : S1x128.ShapeCasts S1x1x1x128
  bcast_S1x1x1x128_S1x1x2x128_0_1_2_3 : S1x1x1x128.BroadcastsInDim S1x1x2x128 (![0, 1, 2, 3] : Fin 4 → Fin S1x1x2x128.rank)
  shapeCasts_S1x1x2x128_S1x256 : S1x1x2x128.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  inb_S8192x32_S8192x32_0_0 : ∀ a, (![0, 0] : Fin 2 → Nat) a + S8192x32.size a ≤ S8192x32.size a
  h_S8192x32 : 0 < S8192x32.numel
  slices_S8192x32_o0_0_S1024x32 : S8192x32.Slices ![0, 0] S1024x32
  slices_S8192x32_o1024_0_S1024x32 : S8192x32.Slices ![1024, 0] S1024x32
  slices_S8192x32_o2048_0_S1024x32 : S8192x32.Slices ![2048, 0] S1024x32
  slices_S8192x32_o3072_0_S1024x32 : S8192x32.Slices ![3072, 0] S1024x32
  slices_S8192x32_o4096_0_S1024x32 : S8192x32.Slices ![4096, 0] S1024x32
  slices_S8192x32_o5120_0_S1024x32 : S8192x32.Slices ![5120, 0] S1024x32
  slices_S8192x32_o6144_0_S1024x32 : S8192x32.Slices ![6144, 0] S1024x32
  slices_S8192x32_o7168_0_S1024x32 : S8192x32.Slices ![7168, 0] S1024x32
  concatenates_S1024x32_S1024x32_S1024x32_S1024x32_S1024x32_S1024x32_S1024x32_S1024x32_S1024x256_d1 : Shape.Concatenates [S1024x32, S1024x32, S1024x32, S1024x32, S1024x32, S1024x32, S1024x32, S1024x32] S1024x256 1
  broadcasts_S1x256_S1024x256 : S1x256.Broadcasts S1024x256
  iota_S256x256_d0_w32 : S256x256.Iotas .tc 32 [0]
  natLt_1_32 : 1 < 32
  iota_S256x256_d1_w32 : S256x256.Iotas .tc 32 [1]
  slices_S1024x256_o0_0_S1024x32 : S1024x256.Slices ![0, 0] S1024x32
  inb_S8192x32_S1024x32_0_0 : ∀ a, (![0, 0] : Fin 2 → Nat) a + S1024x32.size a ≤ S8192x32.size a
  h_S1024x32 : 0 < S1024x32.numel
  slices_S1024x256_o0_32_S1024x32 : S1024x256.Slices ![0, 32] S1024x32
  inb_S8192x32_S1024x32_1024_0 : ∀ a, (![1024, 0] : Fin 2 → Nat) a + S1024x32.size a ≤ S8192x32.size a
  slices_S1024x256_o0_64_S1024x32 : S1024x256.Slices ![0, 64] S1024x32
  inb_S8192x32_S1024x32_2048_0 : ∀ a, (![2048, 0] : Fin 2 → Nat) a + S1024x32.size a ≤ S8192x32.size a
  slices_S1024x256_o0_96_S1024x32 : S1024x256.Slices ![0, 96] S1024x32
  inb_S8192x32_S1024x32_3072_0 : ∀ a, (![3072, 0] : Fin 2 → Nat) a + S1024x32.size a ≤ S8192x32.size a
  slices_S1024x256_o0_128_S1024x32 : S1024x256.Slices ![0, 128] S1024x32
  inb_S8192x32_S1024x32_4096_0 : ∀ a, (![4096, 0] : Fin 2 → Nat) a + S1024x32.size a ≤ S8192x32.size a
  slices_S1024x256_o0_160_S1024x32 : S1024x256.Slices ![0, 160] S1024x32
  inb_S8192x32_S1024x32_5120_0 : ∀ a, (![5120, 0] : Fin 2 → Nat) a + S1024x32.size a ≤ S8192x32.size a
  slices_S1024x256_o0_192_S1024x32 : S1024x256.Slices ![0, 192] S1024x32
  inb_S8192x32_S1024x32_6144_0 : ∀ a, (![6144, 0] : Fin 2 → Nat) a + S1024x32.size a ≤ S8192x32.size a
  slices_S1024x256_o0_224_S1024x32 : S1024x256.Slices ![0, 224] S1024x32
  inb_S8192x32_S1024x32_7168_0 : ∀ a, (![7168, 0] : Fin 2 → Nat) a + S1024x32.size a ≤ S8192x32.size a
  inb_S16384x32_S16384x32_0_0 : ∀ a, (![0, 0] : Fin 2 → Nat) a + S16384x32.size a ≤ S16384x32.size a
  h_S16384x32 : 0 < S16384x32.numel
  slices_S16384x32_o0_0_S2048x32 : S16384x32.Slices ![0, 0] S2048x32
  slices_S16384x32_o2048_0_S2048x32 : S16384x32.Slices ![2048, 0] S2048x32
  slices_S16384x32_o4096_0_S2048x32 : S16384x32.Slices ![4096, 0] S2048x32
  slices_S16384x32_o6144_0_S2048x32 : S16384x32.Slices ![6144, 0] S2048x32
  slices_S16384x32_o8192_0_S2048x32 : S16384x32.Slices ![8192, 0] S2048x32
  slices_S16384x32_o10240_0_S2048x32 : S16384x32.Slices ![10240, 0] S2048x32
  slices_S16384x32_o12288_0_S2048x32 : S16384x32.Slices ![12288, 0] S2048x32
  slices_S16384x32_o14336_0_S2048x32 : S16384x32.Slices ![14336, 0] S2048x32
  concatenates_S2048x32_S2048x32_S2048x32_S2048x32_S2048x32_S2048x32_S2048x32_S2048x32_S2048x256_d1 : Shape.Concatenates [S2048x32, S2048x32, S2048x32, S2048x32, S2048x32, S2048x32, S2048x32, S2048x32] S2048x256 1
  broadcasts_S1x256_S2048x256 : S1x256.Broadcasts S2048x256
  slices_S2048x256_o0_0_S2048x32 : S2048x256.Slices ![0, 0] S2048x32
  inb_S16384x32_S2048x32_0_0 : ∀ a, (![0, 0] : Fin 2 → Nat) a + S2048x32.size a ≤ S16384x32.size a
  h_S2048x32 : 0 < S2048x32.numel
  slices_S2048x256_o0_32_S2048x32 : S2048x256.Slices ![0, 32] S2048x32
  inb_S16384x32_S2048x32_2048_0 : ∀ a, (![2048, 0] : Fin 2 → Nat) a + S2048x32.size a ≤ S16384x32.size a
  slices_S2048x256_o0_64_S2048x32 : S2048x256.Slices ![0, 64] S2048x32
  inb_S16384x32_S2048x32_4096_0 : ∀ a, (![4096, 0] : Fin 2 → Nat) a + S2048x32.size a ≤ S16384x32.size a
  slices_S2048x256_o0_96_S2048x32 : S2048x256.Slices ![0, 96] S2048x32
  inb_S16384x32_S2048x32_6144_0 : ∀ a, (![6144, 0] : Fin 2 → Nat) a + S2048x32.size a ≤ S16384x32.size a
  slices_S2048x256_o0_128_S2048x32 : S2048x256.Slices ![0, 128] S2048x32
  inb_S16384x32_S2048x32_8192_0 : ∀ a, (![8192, 0] : Fin 2 → Nat) a + S2048x32.size a ≤ S16384x32.size a
  slices_S2048x256_o0_160_S2048x32 : S2048x256.Slices ![0, 160] S2048x32
  inb_S16384x32_S2048x32_10240_0 : ∀ a, (![10240, 0] : Fin 2 → Nat) a + S2048x32.size a ≤ S16384x32.size a
  slices_S2048x256_o0_192_S2048x32 : S2048x256.Slices ![0, 192] S2048x32
  inb_S16384x32_S2048x32_12288_0 : ∀ a, (![12288, 0] : Fin 2 → Nat) a + S2048x32.size a ≤ S16384x32.size a
  slices_S2048x256_o0_224_S2048x32 : S2048x256.Slices ![0, 224] S2048x32
  inb_S16384x32_S2048x32_14336_0 : ∀ a, (![14336, 0] : Fin 2 → Nat) a + S2048x32.size a ≤ S16384x32.size a
  dot_S1024x256_S256x256_S1024x256_1_0_0_1_n_n_wf : DotDims.WF S1024x256 S256x256 S1024x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S262144x32.size a
  hwx0_0 : ∀ i : grid0.Coords, EltTy.bits .f32 = 32 ∨ (Rect.block (s := S262144x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384x32.size a ≤ S524288x32.size a
  hwx0_9 : ∀ i : grid0.Coords, EltTy.bits .f32 = 32 ∨ (Rect.block (s := S524288x32) S16384x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8192x32.size a ≤ S262144x32.size a
  hwx0_18 : ∀ i : grid0.Coords, EltTy.bits .f32 = 32 ∨ (Rect.block (s := S262144x32) S8192x32.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S16384x32.size a ≤ S524288x32.size a
  hwx0_19 : ∀ i : grid0.Coords, EltTy.bits .f32 = 32 ∨ (Rect.block (s := S524288x32) S16384x32.size (cc0_transform_19 i) (hinb0_19 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v29) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v32) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v35) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S16384x32.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_call0_v42) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v59) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v49) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v62) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v56) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v65) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v68) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_call0_v71) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0_2) S8192x32.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_0) S16384x32.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S262144x32 : Shape := ⟨2, ![262144, 32]⟩
abbrev S2x524288 : Shape := ⟨2, ![2, 524288]⟩
abbrev S524288x32 : Shape := ⟨2, ![524288, 32]⟩
abbrev S128x128 : Shape := ⟨2, ![128, 128]⟩
abbrev S1x128 : Shape := ⟨2, ![1, 128]⟩
abbrev S65536x128 : Shape := ⟨2, ![65536, 128]⟩
abbrev S4096x128 : Shape := ⟨2, ![4096, 128]⟩
abbrev S131072x128 : Shape := ⟨2, ![131072, 128]⟩

abbrev nBuf : Space → Nat
  | .hbm => 25
  | .vmem => 24
  | .smem => 0
  | _ => 0

abbrev bufTy : (tb : Table) → Fin (tcTables nBuf tb) → BufTy
  | .hbm, ⟨0, _⟩ => ⟨S262144x32, .f32⟩
  | .hbm, ⟨1, _⟩ => ⟨S2x524288, .i32⟩
  | .hbm, ⟨2, _⟩ => ⟨S524288x32, .f32⟩
  | .hbm, ⟨3, _⟩ => ⟨S128x128, .f32⟩
  | .hbm, ⟨4, _⟩ => ⟨S1x128, .f32⟩
  | .hbm, ⟨5, _⟩ => ⟨S128x128, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .f32⟩
  | .hbm, ⟨12, _⟩ => ⟨S1x128, .f32⟩
  | .hbm, ⟨13, _⟩ => ⟨S128x128, .f32⟩
  | .hbm, ⟨14, _⟩ => ⟨S1x128, .f32⟩
  | .hbm, ⟨15, _⟩ => ⟨S128x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S65536x128, .f32⟩
  | .hbm, ⟨20, _⟩ => ⟨S65536x128, .f32⟩
  | .hbm, ⟨21, _⟩ => ⟨S262144x32, .f32⟩
  | .hbm, ⟨22, _⟩ => ⟨S131072x128, .f32⟩
  | .hbm, ⟨23, _⟩ => ⟨S131072x128, .f32⟩
  | .hbm, ⟨24, _⟩ => ⟨S524288x32, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_v0 : Ref sig .tc := ⟨.hbm, 21, rfl⟩
abbrev main_call1_v0 : Ref sig .tc := ⟨.hbm, 22, rfl⟩
abbrev main_call1_v1 : Ref sig .tc := ⟨.hbm, 23, rfl⟩
abbrev main_v1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S262144x32_S65536x128 : S262144x32.ShapeCasts S65536x128
  shapeCasts_S65536x128_S262144x32 : S65536x128.ShapeCasts S262144x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  iota_S128x128_d0_w32 : S128x128.Iotas .tc 32 [0]
  natLt_1_32 : 1 < 32
  iota_S128x128_d1_w32 : S128x128.Iotas .tc 32 [1]
  shapeCasts_S524288x32_S131072x128 : S524288x32.ShapeCasts S131072x128
  shapeCasts_S131072x128_S524288x32 : S131072x128.ShapeCasts S524288x32
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S65536x128.size a
  hwx0_9 : ∀ i : grid0.Coords, EltTy.bits .f32 = 32 ∨ (Rect.block (s := S65536x128) S4096x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S131072x128.size a
  hwx1_9 : ∀ i : grid1.Coords, EltTy.bits .f32 = 32 ∨ (Rect.block (s := S131072x128) S4096x128.size (cc1_transform_9 i) (hinb1_9 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_call0_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v1) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call1_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call1_v1) S4096x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.Packing.lean ====
/-
  The lane-packing vocabulary shared by the two sides of this certificate.

  Both programs run the same per-row network — three affine layers with x·σ(x) between them, then a normalisation over
  the row's 32 features — but on rows that carry several logical rows side by side: a packed row of 32·S lanes holds S
  logical rows, lane 32·a + u being feature u of the a-th of them. One program packs S = 4 logical rows, the other S = 8.
  A 128×128 weight acts on each logical row separately exactly when it is four equal 32×32 blocks on the diagonal and
  zero elsewhere (`PackedW`), and a 1×128 vector adds the same 32 numbers to each logical row exactly when it repeats
  its first 32 entries four times (`TiledV`). These two statements are the added conjuncts of the precondition, index by
  index.
-/
import Idealize.ShloMosaic.PureOps.Ideal
import Idealize.ShloMosaic.PureOps.Ideal.Laws
import Idealize.ShloMosaic.Lib.ValueIdx

noncomputable section

namespace Cert.Packing

open Idealize.ShloMosaic Idealize.ShloMosaic.ValueIdx

/-- Lane `32·a + u` of a row of 128 lanes: feature `u` of the `a`-th of four logical rows. -/
def lane128 (a : Fin 4) (u : Fin 32) : Fin 128 := ⟨32 * a.val + u.val, by omega⟩

/-- Lane `32·a + u` of a row of 256 lanes: feature `u` of the `a`-th of eight logical rows. -/
def lane256 (a : Fin 8) (u : Fin 32) : Fin 256 := ⟨32 * a.val + u.val, by omega⟩

@[simp] theorem lane128_val (a : Fin 4) (u : Fin 32) : (lane128 a u).val = 32 * a.val + u.val := rfl
@[simp] theorem lane256_val (a : Fin 8) (u : Fin 32) : (lane256 a u).val = 32 * a.val + u.val := rfl

/-- Every lane of 128 is `lane128` of its quotient and remainder by 32. -/
theorem eq_lane128 (l : Fin 128) : l = lane128 ⟨l.val / 32, by omega⟩ ⟨l.val % 32, by omega⟩ :=
  Fin.ext (by simp only [lane128_val]; omega)

/-- Every lane of 256 is `lane256` of its quotient and remainder by 32. -/
theorem eq_lane256 (l : Fin 256) : l = lane256 ⟨l.val / 32, by omega⟩ ⟨l.val % 32, by omega⟩ :=
  Fin.ext (by simp only [lane256_val]; omega)

/-- A 128×128 weight that is `A` on each of its four diagonal 32×32 blocks and zero off them, `A` being its own
    top-left block: entry `(32a+u, 32b+v)` is entry `(u, v)` when `a = b` and `0` otherwise. -/
def PackedW (w : FVec Ideal (⟨2, ![128, 128]⟩ : Shape) .f32) : Prop :=
  ∀ (a b : Fin 4) (u v : Fin 32),
    w (ix2 (lane128 a u) (lane128 b v)) = if a = b then w (ix2 (lane128 0 u) (lane128 0 v)) else (0 : EReal)

/-- A 1×128 vector that repeats its first 32 entries in each of the four lane groups. -/
def TiledV (v : FVec Ideal (⟨2, ![1, 128]⟩ : Shape) .f32) : Prop :=
  ∀ (a : Fin 4) (u : Fin 32), v (ix2 (0 : Fin 1) (lane128 a u)) = v (ix2 (0 : Fin 1) (lane128 0 u))

end Cert.Packing

end
-- ==== Proof.PreDecode.lean ====
/-
  The structure conjuncts of the precondition, read back.

  The precondition is one bit: the conjunction, by `and`, of eighteen finiteness tests and sixteen structure tests of
  the argument arrays, in source order. This module reads the sixteen structure tests back as statements about entries.

  A test of a 128×128 weight `w` views it as a 4×32×4×32 array `W` (row 32a+u, column 32b+v is `W[a,u,b,v]`),
  compares `W[a,u,b,v]` with `W[0,u,0,v]` where the block coordinates agree (a = b) and with zero elsewhere, and
  reduces all 4·32·4·32 comparisons by `and` from 1. A test of a 1×128 vector `v` views it as 1×4×32 and compares
  `V[0,a,u]` with `V[0,0,u]`. A reduction by `and` that ends in 1 met only 1s, and an ordered float comparison for
  equality is 1 exactly when the two extended reals are equal; so each test that is 1 says the array is block
  diagonal with equal blocks (`PackedW`), respectively periodic with period 32 (`TiledV`).
-/
import Idealize.ShloMosaic.Lib.ReduceAll
import Idealize.ShloMosaic.Lib.IdealHost
import Idealize.ShloMosaic.Lib.Pipeline.Value
import proofs.«161702_g2000305235446769_pallaspilot1_107_16_alg».proof.Pre_finite_inputs
import proofs.«161702_g2000305235446769_pallaspilot1_107_16_alg».proof.Proof.Packing

noncomputable section

namespace Cert.PreDecode

open Idealize.ShloMosaic Idealize.ShloMosaic.ValueIdx
open Cert.Packing Cert.Pre_finite_inputs Cert.Pre_finite_inputs.Facts

variable [Cert.Pre_finite_inputs.Facts]

/-! ## Words -/

/-- An ordered float comparison for equality that came out 1 compared equal extended reals. -/
theorem eq_of_cmp_oeq {x y : EReal} (h : Ideal.cmp .oeq x y = 1#1) : x = y := by
  unfold Ideal.cmp at h
  by_cases hxy : x = y
  · exact hxy
  · simp [hxy] at h

/-- Two block coordinates, written as 32-bit words, compare equal exactly when they are equal. -/
theorem cmpi_eq_coord : ∀ a b : Fin 4,
    IntOp.cmpi .eq (BitVec.ofNat 32 a.val) (BitVec.ofNat 32 b.val) = if a = b then 1#1 else 0#1 := by decide

/-- A conjunction of two bits, each the one entry of a rank-0 array, is 1 only if both are. -/
theorem andi_ix0 (x y : IVec S_ 1) (h : andi x y ix0 = 1#1) : x ix0 = 1#1 ∧ y ix0 = 1#1 := IntOp.andi_eq_one.1 h

/-! ## The test of a 1×128 vector -/

/-- The printed test that a 1×128 vector repeats its first 32 entries: view it as 1×4×32, compare it with its slice
    `[0:1, 0:1, 0:32]` broadcast back, reduce by `and`. -/
def tiledBit (v : FVec Ideal S1x128 .f32) : IVec S_ 1 :=
  Host.reduce IntOp.andi
    (cmpf .oeq (shapeCast S1x4x32 v shapeCasts_S1x128_S1x4x32)
      (broadcastInDim S1x4x32 ![0, 1, 2] bcast_S1x1x32_S1x4x32_0_1_2
        (extractStridedSlice S1x1x32 ![0, 0, 0] (shapeCast S1x4x32 v shapeCasts_S1x128_S1x4x32) slices_S1x4x32_S1x1x32_0_0_0)))
    (constantI S_ 1 1#1) reducesTo_S1x4x32_S_d0_1_2 h_S_

/-- Entry `(0, a, u)` of the 1×4×32 view is entry `(0, 32a+u)` of the vector: both sit at row-major position 32a+u. -/
theorem reshape3 (v : FVec Ideal S1x128 .f32) (a : Fin 4) (u : Fin 32) :
    shapeCast S1x4x32 v shapeCasts_S1x128_S1x4x32 (ix3 (0 : Fin 1) a u) = v (ix2 (0 : Fin 1) (lane128 a u)) := by
  refine shapeCast_apply v _ _ _ ?_
  rw [Shape.rowMajor_val_two, Shape.rowMajor_val_three]
  show (0 : Nat) * 128 + (32 * a.val + u.val) = ((0 : Nat) * 4 + a.val) * 32 + u.val
  omega

/-- A vector whose test is 1 repeats its first 32 entries. -/
theorem tiledV_of (v : FVec Ideal S1x128 .f32) (h : tiledBit v ix0 = 1#1) : TiledV v := by
  intro a u
  -- the comparison at (0, a, u) is 1, so the two compared entries are equal
  have e := Host.reduce_andi_eq_one _ _ _ _ ix0 h (ix3 (0 : Fin 1) a u) (funext fun d => d.elim0)
  have e2 := eq_of_cmp_oeq e
  rw [reshape3] at e2
  rw [e2]
  -- the broadcast reads the slice at (0, 0, u), the slice reads the view at (0, 0, u)
  refine (broadcastInDim_apply _ _ _ _ (ix3 (0 : Fin 1) (0 : Fin 1) u) ?_).trans ?_
  · intro c
    match c with
    | ⟨0, _⟩ => rfl
    | ⟨1, _⟩ => rfl
    | ⟨2, _⟩ => rfl
  refine (extractStridedSlice_apply _ _ _ _ (ix3 (0 : Fin 1) (0 : Fin 4) u) ?_).trans ?_
  · intro c
    match c with
    | ⟨0, _⟩ => rfl
    | ⟨1, _⟩ => rfl
    | ⟨2, _⟩ => show u.val = 0 + u.val; omega
  exact reshape3 v 0 u

/-! ## The test of a 128×128 weight -/

/-- The printed test that a 128×128 weight is four equal 32×32 blocks on the diagonal and zero off it: view it as
    4×32×4×32, compare it with (where the two block coordinates agree) its slice `[0:1, :, 0:1, :]` broadcast back and
    (elsewhere) zero, reduce by `and`. -/
def packedBit (w : FVec Ideal S128x128 .f32) : IVec S_ 1 :=
  Host.reduce IntOp.andi
    (cmpf .oeq (shapeCast S4x32x4x32 w shapeCasts_S128x128_S4x32x4x32)
      (select (cmpi .eq (iotaInDim S4x32x4x32 32 0) (iotaInDim S4x32x4x32 32 2))
        (broadcastInDim S4x32x4x32 ![0, 1, 2, 3] bcast_S1x32x1x32_S4x32x4x32_0_1_2_3
          (extractStridedSlice S1x32x1x32 ![0, 0, 0, 0] (shapeCast S4x32x4x32 w shapeCasts_S128x128_S4x32x4x32)
            slices_S4x32x4x32_S1x32x1x32_0_0_0_0))
        (broadcastInDim S4x32x4x32 ![] bcast_S_S4x32x4x32 (constant (F := Ideal) S_ .f32 0x00000000#32))))
    (constantI S_ 1 1#1) reducesTo_S4x32x4x32_S_d0_1_2_3 h_S_

/-- Entry `(a, u, b, v)` of the 4×32×4×32 view is entry `(32a+u, 32b+v)` of the weight: both sit at row-major
    position 128·(32a+u) + 32b+v. -/
theorem reshape4 (w : FVec Ideal S128x128 .f32) (a : Fin 4) (u : Fin 32) (b : Fin 4) (v : Fin 32) :
    shapeCast S4x32x4x32 w shapeCasts_S128x128_S4x32x4x32 (ix4 a u b v) = w (ix2 (lane128 a u) (lane128 b v)) := by
  refine shapeCast_apply w _ _ _ ?_
  rw [Shape.rowMajor_val_two, Shape.rowMajor_val_four]
  show (32 * a.val + u.val) * 128 + (32 * b.val + v.val) = ((a.val * 32 + u.val) * 4 + b.val) * 32 + v.val
  omega

/-- A weight whose test is 1 is block diagonal with four equal blocks. -/
theorem packedW_of (w : FVec Ideal S128x128 .f32) (h : packedBit w ix0 = 1#1) : PackedW w := by
  intro a b u v
  -- the comparison at (a, u, b, v) is 1, so the two compared entries are equal
  have e := Host.reduce_andi_eq_one _ _ _ _ ix0 h (ix4 a u b v) (funext fun d => d.elim0)
  have e2 := eq_of_cmp_oeq e
  rw [reshape4] at e2
  rw [e2]
  -- the right-hand entry is a choice on the bit "a = b"
  show Scalar.select (IntOp.cmpi .eq (BitVec.ofNat 32 a.val) (BitVec.ofNat 32 b.val)) _ _ = _
  rw [cmpi_eq_coord]
  by_cases hab : a = b
  · rw [if_pos hab, if_pos hab, select_one]
    -- the broadcast reads the slice at (0, u, 0, v), the slice reads the view at (0, u, 0, v)
    refine (broadcastInDim_apply _ _ _ _ (ix4 (0 : Fin 1) u (0 : Fin 1) v) ?_).trans ?_
    · intro c
      match c with
      | ⟨0, _⟩ => rfl
      | ⟨1, _⟩ => rfl
      | ⟨2, _⟩ => rfl
      | ⟨3, _⟩ => rfl
    refine (extractStridedSlice_apply _ _ _ _ (ix4 (0 : Fin 4) u (0 : Fin 4) v) ?_).trans ?_
    · intro c
      match c with
      | ⟨0, _⟩ => rfl
      | ⟨1, _⟩ => show u.val = 0 + u.val; omega
      | ⟨2, _⟩ => rfl
      | ⟨3, _⟩ => show v.val = 0 + v.val; omega
    exact reshape4 w 0 u 0 v
  · rw [if_neg hab, if_neg hab, select_zero]
    -- the zero constant broadcast to every entry
    refine (broadcastInDim_scalar_apply _ _ _).trans ?_
    exact Ideal.ofBits_zero_f32

/-! ## The conjunction split -/

/-- Under the precondition the six weights are block diagonal with equal blocks and the ten vectors are periodic:
    the precondition's bit is a left-nested conjunction whose last sixteen conjuncts are the weights' tests, then the
    vectors' tests, in argument order within each kind. -/
theorem structure_of_pre
    (a0 : FVec Ideal S262144x32 .f32)
    (a1 : IVec S2x524288 32)
    (a2 : FVec Ideal S524288x32 .f32)
    (a3 : FVec Ideal S128x128 .f32)
    (a4 : FVec Ideal S1x128 .f32)
    (a5 : FVec Ideal S128x128 .f32)
    (a6 : FVec Ideal S1x128 .f32)
    (a7 : FVec Ideal S128x128 .f32)
    (a8 : FVec Ideal S1x128 .f32)
    (a9 : FVec Ideal S1x128 .f32)
    (a10 : FVec Ideal S1x128 .f32)
    (a11 : FVec Ideal S128x128 .f32)
    (a12 : FVec Ideal S1x128 .f32)
    (a13 : FVec Ideal S128x128 .f32)
    (a14 : FVec Ideal S1x128 .f32)
    (a15 : FVec Ideal S128x128 .f32)
    (a16 : FVec Ideal S1x128 .f32)
    (a17 : FVec Ideal S1x128 .f32)
    (a18 : FVec Ideal S1x128 .f32)
    (h : Cert.Pre_finite_inputs.fn (F := Ideal) a0 a1 a2 a3 a4 a5 a6 a7 a8 a9 a10 a11 a12 a13 a14 a15 a16 a17 a18 = fun _ => 1#1) :
    PackedW a3 ∧ TiledV a4 ∧ PackedW a5 ∧ TiledV a6 ∧ PackedW a7 ∧ TiledV a8 ∧ TiledV a9 ∧ TiledV a10 ∧ PackedW a11 ∧
      TiledV a12 ∧ PackedW a13 ∧ TiledV a14 ∧ PackedW a15 ∧ TiledV a16 ∧ TiledV a17 ∧ TiledV a18 := by
  have e := congrFun h ix0
  dsimp only [fn, fn_part1, fn_part2, fn_part3, fn_part4, fn_part5, fn_part6, fn_part7, fn_part8, fn_part9, fn_part10, fn_part11] at e
  obtain ⟨e, h18⟩ := andi_ix0 _ _ e
  obtain ⟨e, h17⟩ := andi_ix0 _ _ e
  obtain ⟨e, h16⟩ := andi_ix0 _ _ e
  obtain ⟨e, h14⟩ := andi_ix0 _ _ e
  obtain ⟨e, h12⟩ := andi_ix0 _ _ e
  obtain ⟨e, h10⟩ := andi_ix0 _ _ e
  obtain ⟨e, h9⟩ := andi_ix0 _ _ e
  obtain ⟨e, h8⟩ := andi_ix0 _ _ e
  obtain ⟨e, h6⟩ := andi_ix0 _ _ e
  obtain ⟨e, h4⟩ := andi_ix0 _ _ e
  obtain ⟨e, h15⟩ := andi_ix0 _ _ e
  obtain ⟨e, h13⟩ := andi_ix0 _ _ e
  obtain ⟨e, h11⟩ := andi_ix0 _ _ e
  obtain ⟨e, h7⟩ := andi_ix0 _ _ e
  obtain ⟨e, h5⟩ := andi_ix0 _ _ e
  obtain ⟨-, h3⟩ := andi_ix0 _ _ e
  exact ⟨packedW_of a3 h3, tiledV_of a4 h4, packedW_of a5 h5, tiledV_of a6 h6, packedW_of a7 h7, tiledV_of a8 h8,
    tiledV_of a9 h9, tiledV_of a10 h10, packedW_of a11 h11, tiledV_of a12 h12, packedW_of a13 h13, tiledV_of a14 h14,
    packedW_of a15 h15, tiledV_of a16 h16, tiledV_of a17 h17, tiledV_of a18 h18⟩

end Cert.PreDecode

end
-- ==== Proof.RowNet.lean ====
/-
  The network both programs apply to a row, and why packing several rows side by side does not change it.

  On a row `z` of `n` numbers: an affine layer is `z ↦ (Σₖ zₖ·Wₖₗ) + bₗ`; the gate is `x ↦ x·σ(x)` entry by entry; the
  normalisation subtracts a weighted mean `Σₖ yₖ·Mₖₗ`, divides by the root of the same weighted mean of the squared
  deviations plus `ε`, scales by `g` and shifts by `h`. The whole network is three affine layers with the gate between
  them, then the normalisation.

  A packed row carries `S` logical rows of 32 features, lane `e (a, u)` being feature `u` of logical row `a`. If every
  weight is one 32×32 matrix `A` repeated on the diagonal blocks and zero off them, every vector one 32-vector `c`
  repeated, and the averaging matrix the constant `μ` inside a block and zero outside, then each sum over the packed
  row's lanes keeps only the lanes of one logical row — every other term is a product with zero, which is zero for
  every extended real, infinite ones included — so the packed network's value at lane `e (a, v)` is the 32-wide network's
  value at `v` on logical row `a` alone. No sum is reordered across an infinity and nothing is distributed, so no
  finiteness is used.
-/
import Idealize.ShloMosaic.PureOps.Ideal

noncomputable section

open scoped BigOperators

namespace Cert.RowNet

open Idealize.ShloMosaic

/-- One affine layer on a row of `n` numbers. -/
def affine {n : ℕ} (W : Fin n → Fin n → EReal) (b : Fin n → EReal) (z : Fin n → EReal) : Fin n → EReal :=
  fun l => (∑ k : Fin n, z k * W k l) + b l

/-- The gate `x·σ(x)`, entry by entry. -/
def gate {n : ℕ} (z : Fin n → EReal) : Fin n → EReal := fun l => z l * Ideal.logistic (z l)

/-- The deviation of each entry from the weighted mean `Σₖ yₖ·Mₖₗ`. -/
def dev {n : ℕ} (M : Fin n → Fin n → EReal) (y : Fin n → EReal) : Fin n → EReal :=
  fun l => y l - ∑ k : Fin n, y k * M k l

/-- The normalisation: deviation over the root of the weighted mean squared deviation plus `ε`, scaled and shifted. -/
def normalise {n : ℕ} (M : Fin n → Fin n → EReal) (eps : EReal) (g h : Fin n → EReal) (y : Fin n → EReal) :
    Fin n → EReal :=
  fun l => (dev M y l * Ideal.rsqrt ((∑ k : Fin n, (dev M y k * dev M y k) * M k l) + eps)) * g l + h l

/-- Three affine layers with the gate between them, then the normalisation. -/
def net {n : ℕ} (W1 : Fin n → Fin n → EReal) (b1 : Fin n → EReal) (W2 : Fin n → Fin n → EReal) (b2 : Fin n → EReal)
    (W3 : Fin n → Fin n → EReal) (b3 : Fin n → EReal) (M : Fin n → Fin n → EReal) (eps : EReal) (g h : Fin n → EReal)
    (z : Fin n → EReal) : Fin n → EReal :=
  normalise M eps g h (affine W3 b3 (gate (affine W2 b2 (gate (affine W1 b1 z)))))

section Packed

variable {S n : ℕ} (e : Fin S × Fin 32 ≃ Fin n)

/-- A matrix on packed lanes that is `A` on each diagonal block and zero off the blocks. -/
def BlockDiag (W : Fin n → Fin n → EReal) (A : Fin 32 → Fin 32 → EReal) : Prop :=
  ∀ (a b : Fin S) (u v : Fin 32), W (e (a, u)) (e (b, v)) = if a = b then A u v else 0

/-- A vector on packed lanes that repeats `c` in every block. -/
def Repeats (b : Fin n → EReal) (c : Fin 32 → EReal) : Prop :=
  ∀ (a : Fin S) (v : Fin 32), b (e (a, v)) = c v

/-- A sum over the packed lanes against a block-diagonal matrix keeps the lanes of one logical row. -/
theorem sum_blockDiag {W : Fin n → Fin n → EReal} {A : Fin 32 → Fin 32 → EReal} (hW : BlockDiag e W A)
    (z : Fin n → EReal) (a : Fin S) (v : Fin 32) :
    ∑ k : Fin n, z k * W k (e (a, v)) = ∑ u : Fin 32, z (e (a, u)) * A u v := by
  rw [← e.sum_comp, Fintype.sum_prod_type]
  have inner : ∀ b : Fin S, ∑ u : Fin 32, z (e (b, u)) * W (e (b, u)) (e (a, v))
      = if b = a then ∑ u : Fin 32, z (e (a, u)) * A u v else 0 := by
    intro b
    by_cases hba : b = a
    · subst hba
      rw [if_pos rfl]
      exact Finset.sum_congr rfl fun u _ => by rw [hW b b u v, if_pos rfl]
    · rw [if_neg hba]
      exact Finset.sum_eq_zero fun u _ => by rw [hW b a u v, if_neg hba, mul_zero]
  rw [Finset.sum_congr rfl fun b _ => inner b, Finset.sum_ite_eq' Finset.univ a, if_pos (Finset.mem_univ a)]

/-- An affine layer with a block-diagonal weight and a repeated bias acts on each logical row by itself. -/
theorem affine_packed {W : Fin n → Fin n → EReal} {A : Fin 32 → Fin 32 → EReal} {b : Fin n → EReal}
    {c : Fin 32 → EReal} (hW : BlockDiag e W A) (hb : Repeats e b c) (z : Fin n → EReal) (a : Fin S) (v : Fin 32) :
    affine W b z (e (a, v)) = affine A c (fun u => z (e (a, u))) v := by
  unfold affine
  rw [sum_blockDiag e hW z a v, hb a v]

/-- The gate acts entry by entry, so it acts on each logical row by itself. -/
theorem gate_packed (z : Fin n → EReal) (a : Fin S) (v : Fin 32) :
    gate z (e (a, v)) = gate (fun u => z (e (a, u))) v := rfl

/-- The deviation from a block-constant weighted mean is each logical row's own deviation. -/
theorem dev_packed {M : Fin n → Fin n → EReal} {μ : Fin 32 → Fin 32 → EReal} (hM : BlockDiag e M μ)
    (y : Fin n → EReal) (a : Fin S) (v : Fin 32) :
    dev M y (e (a, v)) = dev μ (fun u => y (e (a, u))) v := by
  unfold dev
  rw [sum_blockDiag e hM y a v]

/-- The normalisation with a block-constant averaging matrix and repeated scale and shift acts on each logical row by
    itself. -/
theorem normalise_packed {M : Fin n → Fin n → EReal} {μ : Fin 32 → Fin 32 → EReal} {g h : Fin n → EReal}
    {g' h' : Fin 32 → EReal} (hM : BlockDiag e M μ) (hg : Repeats e g g') (hh : Repeats e h h') (eps : EReal)
    (y : Fin n → EReal) (a : Fin S) (v : Fin 32) :
    normalise M eps g h y (e (a, v)) = normalise μ eps g' h' (fun u => y (e (a, u))) v := by
  unfold normalise
  rw [sum_blockDiag e hM (fun k => dev M y k * dev M y k) a v, dev_packed e hM y a v, hg a v, hh a v]
  have hd : (fun u : Fin 32 => dev M y (e (a, u)) * dev M y (e (a, u)))
      = fun u : Fin 32 => dev μ (fun w => y (e (a, w))) u * dev μ (fun w => y (e (a, w))) u :=
    funext fun u => by rw [dev_packed e hM y a u]
  have hs : ∑ u : Fin 32, (fun k => dev M y k * dev M y k) (e (a, u)) * μ u v
      = ∑ u : Fin 32, (dev μ (fun w => y (e (a, w))) u * dev μ (fun w => y (e (a, w))) u) * μ u v :=
    Finset.sum_congr rfl fun u _ => by rw [show (fun k => dev M y k * dev M y k) (e (a, u)) = _ from congrFun hd u]
  rw [hs]

/-- THE PACKING THEOREM: with block-diagonal weights, repeated vectors and a block-constant averaging matrix, the
    packed network's value at feature `v` of logical row `a` is the 32-wide network on that logical row alone. -/
theorem net_packed {W1 W2 W3 M : Fin n → Fin n → EReal} {b1 b2 b3 g h : Fin n → EReal}
    {A1 A2 A3 μ : Fin 32 → Fin 32 → EReal} {c1 c2 c3 g' h' : Fin 32 → EReal}
    (h1 : BlockDiag e W1 A1) (k1 : Repeats e b1 c1) (h2 : BlockDiag e W2 A2) (k2 : Repeats e b2 c2)
    (h3 : BlockDiag e W3 A3) (k3 : Repeats e b3 c3) (hM : BlockDiag e M μ) (hg : Repeats e g g') (hh : Repeats e h h')
    (eps : EReal) (z : Fin n → EReal) (a : Fin S) (v : Fin 32) :
    net W1 b1 W2 b2 W3 b3 M eps g h z (e (a, v)) = net A1 c1 A2 c2 A3 c3 μ eps g' h' (fun u => z (e (a, u))) v := by
  unfold net
  rw [normalise_packed e hM hg hh eps _ a v]
  congr 1
  funext u
  rw [affine_packed e h3 k3 _ a u]
  congr 1
  funext u'
  rw [gate_packed e _ a u']
  congr 1
  funext u''
  rw [affine_packed e h2 k2 _ a u'']
  congr 1
  funext w
  rw [gate_packed e _ a w]
  congr 1
  funext w'
  exact affine_packed e h1 k1 z a w'

end Packed

end Cert.RowNet

end
-- ==== Proof.Lanes.lean ====
/-
  Lanes grouped by 32: the averaging matrix, the two packings as bijections, and the structure hypotheses in the form
  the packing theorem takes.

  A lane `l` of a packed row belongs to logical row `l / 32` and is its feature `l % 32`; `(a, u) ↦ 32·a + u` is a
  bijection from (logical row, feature) to lanes, for four logical rows in 128 lanes and for eight in 256. The matrix
  that averages each logical row's 32 entries has the same constant `μ` at every pair of lanes of one logical row and
  `0` at every other pair, so it is block-constant for either packing.
-/
import proofs.«161702_g2000305235446769_pallaspilot1_107_16_alg».proof.Proof.Packing
import proofs.«161702_g2000305235446769_pallaspilot1_107_16_alg».proof.Proof.RowNet

noncomputable section

namespace Cert.Lanes

open Cert.Packing Cert.RowNet Idealize.ShloMosaic Idealize.ShloMosaic.ValueIdx

/-- The averaging matrix on `n` lanes: `μ` where the two lanes lie in the same group of 32, `0` elsewhere. -/
def segMat (n : ℕ) (μ : EReal) : Fin n → Fin n → EReal := fun k l => if k.val / 32 = l.val / 32 then μ else 0

/-- (logical row, feature) ↦ lane, four logical rows in 128 lanes. -/
def laneEquiv128 : Fin 4 × Fin 32 ≃ Fin 128 where
  toFun q := lane128 q.1 q.2
  invFun l := (⟨l.val / 32, by omega⟩, ⟨l.val % 32, by omega⟩)
  left_inv q := Prod.ext (Fin.ext (by simp only [lane128_val]; omega)) (Fin.ext (by simp only [lane128_val]; omega))
  right_inv l := (eq_lane128 l).symm

/-- (logical row, feature) ↦ lane, eight logical rows in 256 lanes. -/
def laneEquiv256 : Fin 8 × Fin 32 ≃ Fin 256 where
  toFun q := lane256 q.1 q.2
  invFun l := (⟨l.val / 32, by omega⟩, ⟨l.val % 32, by omega⟩)
  left_inv q := Prod.ext (Fin.ext (by simp only [lane256_val]; omega)) (Fin.ext (by simp only [lane256_val]; omega))
  right_inv l := (eq_lane256 l).symm

@[simp] theorem laneEquiv128_apply (a : Fin 4) (u : Fin 32) : laneEquiv128 (a, u) = lane128 a u := rfl
@[simp] theorem laneEquiv256_apply (a : Fin 8) (u : Fin 32) : laneEquiv256 (a, u) = lane256 a u := rfl

/-- The averaging matrix on 128 lanes is the constant `μ` on each diagonal block and zero off the blocks. -/
theorem segMat_blockDiag128 (μ : EReal) : BlockDiag laneEquiv128 (segMat 128 μ) (fun _ _ => μ) := by
  intro a b u v
  show (if (lane128 a u).val / 32 = (lane128 b v).val / 32 then μ else 0) = if a = b then μ else 0
  have h1 : (lane128 a u).val / 32 = a.val := by simp only [lane128_val]; omega
  have h2 : (lane128 b v).val / 32 = b.val := by simp only [lane128_val]; omega
  rw [h1, h2]
  by_cases h : a = b
  · subst h; rw [if_pos rfl, if_pos rfl]
  · rw [if_neg h, if_neg (fun hh => h (Fin.ext hh))]

/-- The averaging matrix on 256 lanes is the constant `μ` on each diagonal block and zero off the blocks. -/
theorem segMat_blockDiag256 (μ : EReal) : BlockDiag laneEquiv256 (segMat 256 μ) (fun _ _ => μ) := by
  intro a b u v
  show (if (lane256 a u).val / 32 = (lane256 b v).val / 32 then μ else 0) = if a = b then μ else 0
  have h1 : (lane256 a u).val / 32 = a.val := by simp only [lane256_val]; omega
  have h2 : (lane256 b v).val / 32 = b.val := by simp only [lane256_val]; omega
  rw [h1, h2]
  by_cases h : a = b
  · subst h; rw [if_pos rfl, if_pos rfl]
  · rw [if_neg h, if_neg (fun hh => h (Fin.ext hh))]

/-- A weight of four equal diagonal blocks is block-diagonal for the packing of four logical rows, its block being
    its own top-left 32×32 corner. -/
theorem blockDiag_of_packedW {w : FVec Ideal (⟨2, ![128, 128]⟩ : Shape) .f32} (h : PackedW w) :
    BlockDiag laneEquiv128 (fun k l => w (ix2 k l)) (fun u v => w (ix2 (lane128 0 u) (lane128 0 v))) :=
  fun a b u v => h a b u v

/-- A vector that repeats its first 32 entries repeats them for the packing of four logical rows. -/
theorem repeats_of_tiledV {v : FVec Ideal (⟨2, ![1, 128]⟩ : Shape) .f32} (h : TiledV v) :
    Repeats laneEquiv128 (fun l => v (ix2 (0 : Fin 1) l)) (fun u => v (ix2 (0 : Fin 1) (lane128 0 u))) :=
  fun a u => h a u

end Cert.Lanes

end
-- ==== Proof.Spec.lean ====
/-
  The function both programs compute: every row of an array of 32-feature rows through one encoder.

  The encoder's parameters are read off the packed arrays the programs are given: a packed 128×128 weight stands for
  its top-left 32×32 block, a packed 1×128 vector for its first 32 entries. The averaging constant and the variance
  offset are the two float words both printed bodies carry (0x3D000000 = 1/32 exactly; 0x3727C5AC, the same word on
  both sides, never evaluated).
-/
import proofs.«161702_g2000305235446769_pallaspilot1_107_16_alg».proof.Proof.Packing
import proofs.«161702_g2000305235446769_pallaspilot1_107_16_alg».proof.Proof.RowNet

noncomputable section

namespace Cert.Spec

open Cert.Packing Cert.RowNet Idealize.ShloMosaic Idealize.ShloMosaic.ValueIdx

/-- The 32×32 matrix a packed weight repeats on its diagonal: its top-left block. -/
def blk (w : FVec Ideal (⟨2, ![128, 128]⟩ : Shape) .f32) : Fin 32 → Fin 32 → EReal :=
  fun u v => w (ix2 (lane128 0 u) (lane128 0 v))

/-- The 32-vector a packed vector repeats: its first 32 entries. -/
def head (v : FVec Ideal (⟨2, ![1, 128]⟩ : Shape) .f32) : Fin 32 → EReal :=
  fun u => v (ix2 (0 : Fin 1) (lane128 0 u))

/-- The averaging constant of the normalisation, as printed. -/
def mu : EReal := Ideal.ofBits .f32 0x3D000000#32

/-- The offset added to the variance, as printed. -/
def eps : EReal := Ideal.ofBits .f32 0x3727C5AC#32

/-- The encoder on one row of 32 features. -/
def enc (w1 : FVec Ideal (⟨2, ![128, 128]⟩ : Shape) .f32) (b1 : FVec Ideal (⟨2, ![1, 128]⟩ : Shape) .f32)
    (w2 : FVec Ideal (⟨2, ![128, 128]⟩ : Shape) .f32) (b2 : FVec Ideal (⟨2, ![1, 128]⟩ : Shape) .f32)
    (w3 : FVec Ideal (⟨2, ![128, 128]⟩ : Shape) .f32) (b3 : FVec Ideal (⟨2, ![1, 128]⟩ : Shape) .f32)
    (g h : FVec Ideal (⟨2, ![1, 128]⟩ : Shape) .f32) (x : Fin 32 → EReal) : Fin 32 → EReal :=
  net (blk w1) (head b1) (blk w2) (head b2) (blk w3) (head b3) (fun _ _ => mu) eps (head g) (head h) x

/-- The encoder on every row of an array of `n` rows of 32 features. -/
def encRows {n : ℕ} (w1 : FVec Ideal (⟨2, ![128, 128]⟩ : Shape) .f32) (b1 : FVec Ideal (⟨2, ![1, 128]⟩ : Shape) .f32)
    (w2 : FVec Ideal (⟨2, ![128, 128]⟩ : Shape) .f32) (b2 : FVec Ideal (⟨2, ![1, 128]⟩ : Shape) .f32)
    (w3 : FVec Ideal (⟨2, ![128, 128]⟩ : Shape) .f32) (b3 : FVec Ideal (⟨2, ![1, 128]⟩ : Shape) .f32)
    (g h : FVec Ideal (⟨2, ![1, 128]⟩ : Shape) .f32) (X : FVec Ideal (⟨2, ![n, 32]⟩ : Shape) .f32) :
    FVec Ideal (⟨2, ![n, 32]⟩ : Shape) .f32 :=
  fun i => enc w1 b1 w2 b2 w3 b3 g h (fun u => X (ix2 (i 0) u)) (i 1)

/-- Read at a row and a feature. -/
theorem encRows_apply {n : ℕ} (w1 : FVec Ideal (⟨2, ![128, 128]⟩ : Shape) .f32) (b1 : FVec Ideal (⟨2, ![1, 128]⟩ : Shape) .f32)
    (w2 : FVec Ideal (⟨2, ![128, 128]⟩ : Shape) .f32) (b2 : FVec Ideal (⟨2, ![1, 128]⟩ : Shape) .f32)
    (w3 : FVec Ideal (⟨2, ![128, 128]⟩ : Shape) .f32) (b3 : FVec Ideal (⟨2, ![1, 128]⟩ : Shape) .f32)
    (g h : FVec Ideal (⟨2, ![1, 128]⟩ : Shape) .f32) (X : FVec Ideal (⟨2, ![n, 32]⟩ : Shape) .f32) (r : Fin n) (f : Fin 32) :
    encRows w1 b1 w2 b2 w3 b3 g h X (ix2 r f) = enc w1 b1 w2 b2 w3 b3 g h (fun u => X (ix2 r u)) f := rfl

end Cert.Spec

end
-- ==== Proof.KernelHost.lean ====
/-
  The sixteen parameter arrays as the kernel's region finds them, read at an index.

  Before its one region the kernel program widens every parameter on the host: a 128×128 weight W becomes the
  Kronecker product of the 2×2 identity with W, a 256×256 array whose entry (128p+i, 128q+j) is W(i, j) when p = q and
  0·W(i, j) = 0 otherwise (at the extended reals 0·x = 0 for every x, infinite ones included); a 1×128 vector v becomes
  v repeated twice, a 1×256 array whose entry 128q+i is v(i). A row of 256 lanes carries eight logical rows of 32
  features (lane 32a+u is feature u of the a-th), a row of 128 lanes four. When W is block diagonal with four equal
  32×32 blocks, the widened weight is block diagonal with eight of them: writing a = 4p+a', b = 4q+b', lane 32a+u of
  256 is lane 32a'+u of 128 in half p, so the entry at (32a+u, 32b+v) is W(32a'+u, 32b'+v) when p = q, which is
  the common block's (u, v) entry when also a' = b', and 0 in every other case; and a = b exactly when p = q and
  a' = b'. When v has period 32 so has the widened vector, with the same first 32 entries.

  Each widened array is first identified, as a whole, with the host's term over the launched parameter (the host
  operations before the region, composed), then that term is read at an index.
-/
import proofs.«161702_g2000305235446769_pallaspilot1_107_16_alg».proof.Proof.Gen.KernelIdeal.Frame
import proofs.«161702_g2000305235446769_pallaspilot1_107_16_alg».proof.Proof.Packing
import Idealize.ShloMosaic.Lib.IdealHost
import Idealize.ShloMosaic.Lib.Pipeline.Value
import Idealize.ShloMosaic.Lib.StableHlo.Run

set_option maxRecDepth 16384

noncomputable section

namespace Cert.KernelIdeal.HostValue

open Cert.KernelIdeal Cert.KernelIdeal.Gen Cert.Packing
open Idealize.ShloMosaic Idealize.ShloMosaic.ValueIdx Idealize.ShloMosaic.TcCoe Idealize.ShloMosaic.StableHlo

/-! ## The two host terms -/

/-- The 2×2 identity as the host builds it: the row coordinate (plus a zero constant) compared with the column
    coordinate, the bit converted to a float. -/
def eye2 : FVec Ideal S2x2 .f32 :=
  uitofp .f32 (cmpi .eq (addi (iotaInDim S2x2 32 0) (broadcastInDim S2x2 ![] bcast_S_S2x2 (constantI S_ 32 0#32)))
    (iotaInDim S2x2 32 1))

/-- The Kronecker product of the 2×2 identity with a 128×128 array as the host computes it: both factors laid out
    over 2×128×2×128, multiplied entry by entry, and the product viewed as 256×256. -/
def kronTwo (W : FVec Ideal S128x128 .f32) : FVec Ideal S256x256 .f32 :=
  shapeCast S256x256
    (mulf
      (broadcastInDim S2x128x2x128 ![0, 1, 2, 3] bcast_S2x1x2x1_S2x128x2x128_0_1_2_3
        (broadcastInDim S2x1x2x1 ![0, 2] bcast_S2x2_S2x1x2x1_0_2 eye2))
      (broadcastInDim S2x128x2x128 ![0, 1, 2, 3] bcast_S1x128x1x128_S2x128x2x128_0_1_2_3
        (broadcastInDim S1x128x1x128 ![1, 3] bcast_S128x128_S1x128x1x128_1_3 W)))
    shapeCasts_S2x128x2x128_S256x256

/-- A 1×128 vector repeated twice along its row as the host computes it: viewed as 1×1×1×128, broadcast to
    1×1×2×128, viewed as 1×256. -/
def tileTwo (v : FVec Ideal S1x128 .f32) : FVec Ideal S1x256 .f32 :=
  shapeCast S1x256
    (broadcastInDim S1x1x2x128 ![0, 1, 2, 3] bcast_S1x1x1x128_S1x1x2x128_0_1_2_3
      (shapeCast S1x1x1x128 v shapeCasts_S1x128_S1x1x1x128))
    shapeCasts_S1x1x2x128_S1x256

/-! ## Read at an index -/

/-- The identity's bit: two coordinates below 2, as 32-bit words, the first plus zero, compare equal exactly when
    they are equal. -/
theorem eyeBit : ∀ p q : Fin 2,
    IntOp.cmpi .eq (IntOp.addi (BitVec.ofNat 32 p.val) 0#32) (BitVec.ofNat 32 q.val) = if p = q then 1#1 else 0#1 := by
  decide

/-- The bit 1 converts to the extended real 1. -/
theorem uitofp_one : (FloatOps.uitofp (F := Ideal) .f32 (1#1 : BitVec 1) : EReal) = 1 := by
  show ((((1#1 : BitVec 1).toNat : ℕ) : ℝ) : EReal) = 1
  simp

/-- The bit 0 converts to the extended real 0. -/
theorem uitofp_zero : (FloatOps.uitofp (F := Ideal) .f32 (0#1 : BitVec 1) : EReal) = 0 := by
  show ((((0#1 : BitVec 1).toNat : ℕ) : ℝ) : EReal) = 0
  simp

/-- The host's 2×2 identity is 1 on the diagonal and 0 off it. -/
theorem eye2_apply (p q : Fin 2) : eye2 (ix2 p q) = if p = q then (1 : EReal) else 0 := by
  show FloatOps.uitofp (F := Ideal) .f32 (IntOp.cmpi .eq (IntOp.addi (BitVec.ofNat 32 p.val) 0#32) (BitVec.ofNat 32 q.val)) = _
  rw [eyeBit]
  by_cases hpq : p = q
  · rw [if_pos hpq, if_pos hpq]; exact uitofp_one
  · rw [if_neg hpq, if_neg hpq]; exact uitofp_zero

/-- The 2×2 factor laid out over 2×128×2×128 reads, at (p, i, q, j), its entry (p, q). -/
theorem layEye_apply (E : FVec Ideal S2x2 .f32) (p : Fin 2) (i : Fin 128) (q : Fin 2) (j : Fin 128) :
    broadcastInDim S2x128x2x128 ![0, 1, 2, 3] bcast_S2x1x2x1_S2x128x2x128_0_1_2_3
        (broadcastInDim S2x1x2x1 ![0, 2] bcast_S2x2_S2x1x2x1_0_2 E) (ix4 p i q j) = E (ix2 p q) := by
  refine (broadcastInDim_apply _ _ _ _ (ix4 p (0 : Fin 1) q (0 : Fin 1)) ?_).trans ?_
  · intro c
    match c with
    | ⟨0, _⟩ => rfl
    | ⟨1, _⟩ => rfl
    | ⟨2, _⟩ => rfl
    | ⟨3, _⟩ => rfl
  refine broadcastInDim_apply _ _ _ _ (ix2 p q) ?_
  intro c
  match c with
  | ⟨0, _⟩ => rfl
  | ⟨1, _⟩ => rfl

/-- The 128×128 factor laid out over 2×128×2×128 reads, at (p, i, q, j), its entry (i, j). -/
theorem layW_apply (W : FVec Ideal S128x128 .f32) (p : Fin 2) (i : Fin 128) (q : Fin 2) (j : Fin 128) :
    broadcastInDim S2x128x2x128 ![0, 1, 2, 3] bcast_S1x128x1x128_S2x128x2x128_0_1_2_3
        (broadcastInDim S1x128x1x128 ![1, 3] bcast_S128x128_S1x128x1x128_1_3 W) (ix4 p i q j) = W (ix2 i j) := by
  refine (broadcastInDim_apply _ _ _ _ (ix4 (0 : Fin 1) i (0 : Fin 1) j) ?_).trans ?_
  · intro c
    match c with
    | ⟨0, _⟩ => rfl
    | ⟨1, _⟩ => rfl
    | ⟨2, _⟩ => rfl
    | ⟨3, _⟩ => rfl
  refine broadcastInDim_apply _ _ _ _ (ix2 i j) ?_
  intro c
  match c with
  | ⟨0, _⟩ => rfl
  | ⟨1, _⟩ => rfl

/-- kron(I₂, W) at row 128p+i, column 128q+j is W(i, j) on the diagonal blocks (p = q) and 0 off them: the identity's
    entry is 1 or 0, and 0 times any extended real is 0. -/
theorem kronTwo_apply (W : FVec Ideal S128x128 .f32) (r s : Fin 256) (p q : Fin 2) (i j : Fin 128)
    (hr : r.val = 128 * p.val + i.val) (hs : s.val = 128 * q.val + j.val) :
    kronTwo W (ix2 r s) = if p = q then W (ix2 i j) else (0 : EReal) := by
  unfold kronTwo
  refine (shapeCast_apply _ _ _ (ix4 p i q j) ?_).trans ?_
  · rw [Shape.rowMajor_val_four, Shape.rowMajor_val_two]
    show ((p.val * 128 + i.val) * 2 + q.val) * 128 + j.val = r.val * 256 + s.val
    omega
  rw [mulf_apply, layEye_apply, layW_apply, eye2_apply]
  by_cases hpq : p = q
  · rw [if_pos hpq, if_pos hpq, one_mul]
  · rw [if_neg hpq, if_neg hpq, zero_mul]

/-- tile(v, (1, 2)) at column 128q+i is v at column i. -/
theorem tileTwo_apply (v : FVec Ideal S1x128 .f32) (s : Fin 256) (q : Fin 2) (i : Fin 128) (hs : s.val = 128 * q.val + i.val) :
    tileTwo v (ix2 (0 : Fin 1) s) = v (ix2 (0 : Fin 1) i) := by
  unfold tileTwo
  refine (shapeCast_apply _ _ _ (ix4 (0 : Fin 1) (0 : Fin 1) q i) ?_).trans ?_
  · rw [Shape.rowMajor_val_four, Shape.rowMajor_val_two]
    show (((0 : ℕ) * 1 + 0) * 2 + q.val) * 128 + i.val = (0 : ℕ) * 256 + s.val
    omega
  refine (broadcastInDim_apply _ _ _ _ (ix4 (0 : Fin 1) (0 : Fin 1) (0 : Fin 1) i) ?_).trans ?_
  · intro c
    match c with
    | ⟨0, _⟩ => rfl
    | ⟨1, _⟩ => rfl
    | ⟨2, _⟩ => rfl
    | ⟨3, _⟩ => rfl
  refine shapeCast_apply _ _ _ (ix2 (0 : Fin 1) i) ?_
  rw [Shape.rowMajor_val_four, Shape.rowMajor_val_two]
  show (0 : ℕ) * 128 + i.val = (((0 : ℕ) * 1 + 0) * 1 + 0) * 128 + i.val
  omega

/-- For a block-diagonal weight with four equal 32×32 blocks, kron(I₂, W) is block diagonal with eight of them. -/
theorem kronTwo_of_packed (W : FVec Ideal S128x128 .f32) (hP : PackedW W) (a b : Fin 8) (u v : Fin 32) :
    kronTwo W (ix2 (lane256 a u) (lane256 b v))
      = if a = b then W (ix2 (lane128 0 u) (lane128 0 v)) else (0 : EReal) := by
  rw [kronTwo_apply W (lane256 a u) (lane256 b v) ⟨a.val / 4, by omega⟩ ⟨b.val / 4, by omega⟩
    (lane128 ⟨a.val % 4, by omega⟩ u) (lane128 ⟨b.val % 4, by omega⟩ v)
    (by show 32 * a.val + u.val = 128 * (a.val / 4) + (32 * (a.val % 4) + u.val); omega)
    (by show 32 * b.val + v.val = 128 * (b.val / 4) + (32 * (b.val % 4) + v.val); omega)]
  rw [hP]
  by_cases hab : a = b
  · subst hab
    rw [if_pos rfl, if_pos rfl, if_pos rfl]
  · rw [if_neg hab]
    by_cases h1 : (⟨a.val / 4, by omega⟩ : Fin 2) = ⟨b.val / 4, by omega⟩
    · rw [if_pos h1, if_neg]
      intro h2
      have e1 : a.val / 4 = b.val / 4 := congrArg Fin.val h1
      have e2 : a.val % 4 = b.val % 4 := congrArg Fin.val h2
      exact hab (Fin.ext (by omega))
    · rw [if_neg h1]

/-- For a vector of period 32, tile(v, (1, 2)) has period 32 too, with the same first 32 entries. -/
theorem tileTwo_of_tiled (x : FVec Ideal S1x128 .f32) (hT : TiledV x) (a : Fin 8) (u : Fin 32) :
    tileTwo x (ix2 (0 : Fin 1) (lane256 a u)) = x (ix2 (0 : Fin 1) (lane128 0 u)) := by
  rw [tileTwo_apply x (lane256 a u) ⟨a.val / 4, by omega⟩ (lane128 ⟨a.val % 4, by omega⟩ u)
    (by show 32 * a.val + u.val = 128 * (a.val / 4) + (32 * (a.val % 4) + u.val); omega)]
  exact hT _ u

/-! ## The region's entry contents: the host operations composed -/

variable (m : (ℓ : Loc nD τ sig) → Buf (Elt Ideal) ℓ)

/-- What the region finds in window 1's array: kron(I₂, ·) of the cell encoder's first weight as launched. -/
theorem host_cw1 (c : Dev nD) : (V m c main_call0_v6 : S256x256.Idx → EReal) = kronTwo (m ((c.tc : Thread nD τ).loc main_arg3)) := by
  dsimp only [Gen.V, Gen.hostOps0]; after_results_simp; rfl

/-- What the region finds in window 2's array: the cell encoder's first bias as launched, repeated twice. -/
theorem host_cb1 (c : Dev nD) : (V m c main_call0_v23 : S1x256.Idx → EReal) = tileTwo (m ((c.tc : Thread nD τ).loc main_arg4)) := by
  dsimp only [Gen.V, Gen.hostOps0]; after_results_simp; rfl

/-- What the region finds in window 3's array: kron(I₂, ·) of the cell encoder's second weight as launched. -/
theorem host_cw2 (c : Dev nD) : (V m c main_call0_v13 : S256x256.Idx → EReal) = kronTwo (m ((c.tc : Thread nD τ).loc main_arg5)) := by
  dsimp only [Gen.V, Gen.hostOps0]; after_results_simp; rfl

/-- What the region finds in window 4's array: the cell encoder's second bias as launched, repeated twice. -/
theorem host_cb2 (c : Dev nD) : (V m c main_call0_v26 : S1x256.Idx → EReal) = tileTwo (m ((c.tc : Thread nD τ).loc main_arg6)) := by
  dsimp only [Gen.V, Gen.hostOps0]; after_results_simp; rfl

/-- What the region finds in window 5's array: kron(I₂, ·) of the cell encoder's third weight as launched. -/
theorem host_cw3 (c : Dev nD) : (V m c main_call0_v20 : S256x256.Idx → EReal) = kronTwo (m ((c.tc : Thread nD τ).loc main_arg7)) := by
  dsimp only [Gen.V, Gen.hostOps0]; after_results_simp; rfl

/-- What the region finds in window 6's array: the cell encoder's third bias as launched, repeated twice. -/
theorem host_cb3 (c : Dev nD) : (V m c main_call0_v29 : S1x256.Idx → EReal) = tileTwo (m ((c.tc : Thread nD τ).loc main_arg8)) := by
  dsimp only [Gen.V, Gen.hostOps0]; after_results_simp; rfl

/-- What the region finds in window 7's array: the cell encoder's normalisation scale as launched, repeated twice. -/
theorem host_cgamma (c : Dev nD) : (V m c main_call0_v32 : S1x256.Idx → EReal) = tileTwo (m ((c.tc : Thread nD τ).loc main_arg9)) := by
  dsimp only [Gen.V, Gen.hostOps0]; after_results_simp; rfl

/-- What the region finds in window 8's array: the cell encoder's normalisation shift as launched, repeated twice. -/
theorem host_cbeta (c : Dev nD) : (V m c main_call0_v35 : S1x256.Idx → EReal) = tileTwo (m ((c.tc : Thread nD τ).loc main_arg10)) := by
  dsimp only [Gen.V, Gen.hostOps0]; after_results_simp; rfl

/-- What the region finds in window 10's array: kron(I₂, ·) of the edge encoder's first weight as launched. -/
theorem host_ew1 (c : Dev nD) : (V m c main_call0_v42 : S256x256.Idx → EReal) = kronTwo (m ((c.tc : Thread nD τ).loc main_arg11)) := by
  dsimp only [Gen.V, Gen.hostOps0]; after_results_simp; rfl

/-- What the region finds in window 11's array: the edge encoder's first bias as launched, repeated twice. -/
theorem host_eb1 (c : Dev nD) : (V m c main_call0_v59 : S1x256.Idx → EReal) = tileTwo (m ((c.tc : Thread nD τ).loc main_arg12)) := by
  dsimp only [Gen.V, Gen.hostOps0]; after_results_simp; rfl

/-- What the region finds in window 12's array: kron(I₂, ·) of the edge encoder's second weight as launched. -/
theorem host_ew2 (c : Dev nD) : (V m c main_call0_v49 : S256x256.Idx → EReal) = kronTwo (m ((c.tc : Thread nD τ).loc main_arg13)) := by
  dsimp only [Gen.V, Gen.hostOps0]; after_results_simp; rfl

/-- What the region finds in window 13's array: the edge encoder's second bias as launched, repeated twice. -/
theorem host_eb2 (c : Dev nD) : (V m c main_call0_v62 : S1x256.Idx → EReal) = tileTwo (m ((c.tc : Thread nD τ).loc main_arg14)) := by
  dsimp only [Gen.V, Gen.hostOps0]; after_results_simp; rfl

/-- What the region finds in window 14's array: kron(I₂, ·) of the edge encoder's third weight as launched. -/
theorem host_ew3 (c : Dev nD) : (V m c main_call0_v56 : S256x256.Idx → EReal) = kronTwo (m ((c.tc : Thread nD τ).loc main_arg15)) := by
  dsimp only [Gen.V, Gen.hostOps0]; after_results_simp; rfl

/-- What the region finds in window 15's array: the edge encoder's third bias as launched, repeated twice. -/
theorem host_eb3 (c : Dev nD) : (V m c main_call0_v65 : S1x256.Idx → EReal) = tileTwo (m ((c.tc : Thread nD τ).loc main_arg16)) := by
  dsimp only [Gen.V, Gen.hostOps0]; after_results_simp; rfl

/-- What the region finds in window 16's array: the edge encoder's normalisation scale as launched, repeated twice. -/
theorem host_egamma (c : Dev nD) : (V m c main_call0_v68 : S1x256.Idx → EReal) = tileTwo (m ((c.tc : Thread nD τ).loc main_arg17)) := by
  dsimp only [Gen.V, Gen.hostOps0]; after_results_simp; rfl

/-- What the region finds in window 17's array: the edge encoder's normalisation shift as launched, repeated twice. -/
theorem host_ebeta (c : Dev nD) : (V m c main_call0_v71 : S1x256.Idx → EReal) = tileTwo (m ((c.tc : Thread nD τ).loc main_arg18)) := by
  dsimp only [Gen.V, Gen.hostOps0]; after_results_simp; rfl

/-! ## The widened parameters at an index -/

/-- Window 1's array (the cell encoder's first weight, widened) at lanes (32a+u, 32b+v). -/
theorem wide_cw1 (c : Dev nD) (hP : PackedW (m ((c.tc : Thread nD τ).loc main_arg3))) (a b : Fin 8) (u v : Fin 32) :
    V m c main_call0_v6 (ix2 (lane256 a u) (lane256 b v))
      = if a = b then m ((c.tc : Thread nD τ).loc main_arg3) (ix2 (lane128 0 u) (lane128 0 v)) else (0 : EReal) :=
  (congrFun (host_cw1 m c) _).trans (kronTwo_of_packed _ hP a b u v)

/-- Window 2's array (the cell encoder's first bias, widened) at lane 32a+u. -/
theorem wide_cb1 (c : Dev nD) (hT : TiledV (m ((c.tc : Thread nD τ).loc main_arg4))) (a : Fin 8) (u : Fin 32) :
    V m c main_call0_v23 (ix2 (0 : Fin 1) (lane256 a u)) = m ((c.tc : Thread nD τ).loc main_arg4) (ix2 (0 : Fin 1) (lane128 0 u)) :=
  (congrFun (host_cb1 m c) _).trans (tileTwo_of_tiled _ hT a u)

/-- Window 3's array (the cell encoder's second weight, widened) at lanes (32a+u, 32b+v). -/
theorem wide_cw2 (c : Dev nD) (hP : PackedW (m ((c.tc : Thread nD τ).loc main_arg5))) (a b : Fin 8) (u v : Fin 32) :
    V m c main_call0_v13 (ix2 (lane256 a u) (lane256 b v))
      = if a = b then m ((c.tc : Thread nD τ).loc main_arg5) (ix2 (lane128 0 u) (lane128 0 v)) else (0 : EReal) :=
  (congrFun (host_cw2 m c) _).trans (kronTwo_of_packed _ hP a b u v)

/-- Window 4's array (the cell encoder's second bias, widened) at lane 32a+u. -/
theorem wide_cb2 (c : Dev nD) (hT : TiledV (m ((c.tc : Thread nD τ).loc main_arg6))) (a : Fin 8) (u : Fin 32) :
    V m c main_call0_v26 (ix2 (0 : Fin 1) (lane256 a u)) = m ((c.tc : Thread nD τ).loc main_arg6) (ix2 (0 : Fin 1) (lane128 0 u)) :=
  (congrFun (host_cb2 m c) _).trans (tileTwo_of_tiled _ hT a u)

/-- Window 5's array (the cell encoder's third weight, widened) at lanes (32a+u, 32b+v). -/
theorem wide_cw3 (c : Dev nD) (hP : PackedW (m ((c.tc : Thread nD τ).loc main_arg7))) (a b : Fin 8) (u v : Fin 32) :
    V m c main_call0_v20 (ix2 (lane256 a u) (lane256 b v))
      = if a = b then m ((c.tc : Thread nD τ).loc main_arg7) (ix2 (lane128 0 u) (lane128 0 v)) else (0 : EReal) :=
  (congrFun (host_cw3 m c) _).trans (kronTwo_of_packed _ hP a b u v)

/-- Window 6's array (the cell encoder's third bias, widened) at lane 32a+u. -/
theorem wide_cb3 (c : Dev nD) (hT : TiledV (m ((c.tc : Thread nD τ).loc main_arg8))) (a : Fin 8) (u : Fin 32) :
    V m c main_call0_v29 (ix2 (0 : Fin 1) (lane256 a u)) = m ((c.tc : Thread nD τ).loc main_arg8) (ix2 (0 : Fin 1) (lane128 0 u)) :=
  (congrFun (host_cb3 m c) _).trans (tileTwo_of_tiled _ hT a u)

/-- Window 7's array (the cell encoder's normalisation scale, widened) at lane 32a+u. -/
theorem wide_cgamma (c : Dev nD) (hT : TiledV (m ((c.tc : Thread nD τ).loc main_arg9))) (a : Fin 8) (u : Fin 32) :
    V m c main_call0_v32 (ix2 (0 : Fin 1) (lane256 a u)) = m ((c.tc : Thread nD τ).loc main_arg9) (ix2 (0 : Fin 1) (lane128 0 u)) :=
  (congrFun (host_cgamma m c) _).trans (tileTwo_of_tiled _ hT a u)

/-- Window 8's array (the cell encoder's normalisation shift, widened) at lane 32a+u. -/
theorem wide_cbeta (c : Dev nD) (hT : TiledV (m ((c.tc : Thread nD τ).loc main_arg10))) (a : Fin 8) (u : Fin 32) :
    V m c main_call0_v35 (ix2 (0 : Fin 1) (lane256 a u)) = m ((c.tc : Thread nD τ).loc main_arg10) (ix2 (0 : Fin 1) (lane128 0 u)) :=
  (congrFun (host_cbeta m c) _).trans (tileTwo_of_tiled _ hT a u)

/-- Window 10's array (the edge encoder's first weight, widened) at lanes (32a+u, 32b+v). -/
theorem wide_ew1 (c : Dev nD) (hP : PackedW (m ((c.tc : Thread nD τ).loc main_arg11))) (a b : Fin 8) (u v : Fin 32) :
    V m c main_call0_v42 (ix2 (lane256 a u) (lane256 b v))
      = if a = b then m ((c.tc : Thread nD τ).loc main_arg11) (ix2 (lane128 0 u) (lane128 0 v)) else (0 : EReal) :=
  (congrFun (host_ew1 m c) _).trans (kronTwo_of_packed _ hP a b u v)

/-- Window 11's array (the edge encoder's first bias, widened) at lane 32a+u. -/
theorem wide_eb1 (c : Dev nD) (hT : TiledV (m ((c.tc : Thread nD τ).loc main_arg12))) (a : Fin 8) (u : Fin 32) :
    V m c main_call0_v59 (ix2 (0 : Fin 1) (lane256 a u)) = m ((c.tc : Thread nD τ).loc main_arg12) (ix2 (0 : Fin 1) (lane128 0 u)) :=
  (congrFun (host_eb1 m c) _).trans (tileTwo_of_tiled _ hT a u)

/-- Window 12's array (the edge encoder's second weight, widened) at lanes (32a+u, 32b+v). -/
theorem wide_ew2 (c : Dev nD) (hP : PackedW (m ((c.tc : Thread nD τ).loc main_arg13))) (a b : Fin 8) (u v : Fin 32) :
    V m c main_call0_v49 (ix2 (lane256 a u) (lane256 b v))
      = if a = b then m ((c.tc : Thread nD τ).loc main_arg13) (ix2 (lane128 0 u) (lane128 0 v)) else (0 : EReal) :=
  (congrFun (host_ew2 m c) _).trans (kronTwo_of_packed _ hP a b u v)

/-- Window 13's array (the edge encoder's second bias, widened) at lane 32a+u. -/
theorem wide_eb2 (c : Dev nD) (hT : TiledV (m ((c.tc : Thread nD τ).loc main_arg14))) (a : Fin 8) (u : Fin 32) :
    V m c main_call0_v62 (ix2 (0 : Fin 1) (lane256 a u)) = m ((c.tc : Thread nD τ).loc main_arg14) (ix2 (0 : Fin 1) (lane128 0 u)) :=
  (congrFun (host_eb2 m c) _).trans (tileTwo_of_tiled _ hT a u)

/-- Window 14's array (the edge encoder's third weight, widened) at lanes (32a+u, 32b+v). -/
theorem wide_ew3 (c : Dev nD) (hP : PackedW (m ((c.tc : Thread nD τ).loc main_arg15))) (a b : Fin 8) (u v : Fin 32) :
    V m c main_call0_v56 (ix2 (lane256 a u) (lane256 b v))
      = if a = b then m ((c.tc : Thread nD τ).loc main_arg15) (ix2 (lane128 0 u) (lane128 0 v)) else (0 : EReal) :=
  (congrFun (host_ew3 m c) _).trans (kronTwo_of_packed _ hP a b u v)

/-- Window 15's array (the edge encoder's third bias, widened) at lane 32a+u. -/
theorem wide_eb3 (c : Dev nD) (hT : TiledV (m ((c.tc : Thread nD τ).loc main_arg16))) (a : Fin 8) (u : Fin 32) :
    V m c main_call0_v65 (ix2 (0 : Fin 1) (lane256 a u)) = m ((c.tc : Thread nD τ).loc main_arg16) (ix2 (0 : Fin 1) (lane128 0 u)) :=
  (congrFun (host_eb3 m c) _).trans (tileTwo_of_tiled _ hT a u)

/-- Window 16's array (the edge encoder's normalisation scale, widened) at lane 32a+u. -/
theorem wide_egamma (c : Dev nD) (hT : TiledV (m ((c.tc : Thread nD τ).loc main_arg17))) (a : Fin 8) (u : Fin 32) :
    V m c main_call0_v68 (ix2 (0 : Fin 1) (lane256 a u)) = m ((c.tc : Thread nD τ).loc main_arg17) (ix2 (0 : Fin 1) (lane128 0 u)) :=
  (congrFun (host_egamma m c) _).trans (tileTwo_of_tiled _ hT a u)

/-- Window 17's array (the edge encoder's normalisation shift, widened) at lane 32a+u. -/
theorem wide_ebeta (c : Dev nD) (hT : TiledV (m ((c.tc : Thread nD τ).loc main_arg18))) (a : Fin 8) (u : Fin 32) :
    V m c main_call0_v71 (ix2 (0 : Fin 1) (lane256 a u)) = m ((c.tc : Thread nD τ).loc main_arg18) (ix2 (0 : Fin 1) (lane128 0 u)) :=
  (congrFun (host_ebeta m c) _).trans (tileTwo_of_tiled _ hT a u)

/-! ## Which array each input window stages -/

theorem arrRef_0 : Pipeline.arrRef spec0 (0 : Fin 20) = main_arg0 := rfl
theorem arrRef_1 : Pipeline.arrRef spec0 (1 : Fin 20) = main_call0_v6 := rfl
theorem arrRef_2 : Pipeline.arrRef spec0 (2 : Fin 20) = main_call0_v23 := rfl
theorem arrRef_3 : Pipeline.arrRef spec0 (3 : Fin 20) = main_call0_v13 := rfl
theorem arrRef_4 : Pipeline.arrRef spec0 (4 : Fin 20) = main_call0_v26 := rfl
theorem arrRef_5 : Pipeline.arrRef spec0 (5 : Fin 20) = main_call0_v20 := rfl
theorem arrRef_6 : Pipeline.arrRef spec0 (6 : Fin 20) = main_call0_v29 := rfl
theorem arrRef_7 : Pipeline.arrRef spec0 (7 : Fin 20) = main_call0_v32 := rfl
theorem arrRef_8 : Pipeline.arrRef spec0 (8 : Fin 20) = main_call0_v35 := rfl
theorem arrRef_9 : Pipeline.arrRef spec0 (9 : Fin 20) = main_arg2 := rfl
theorem arrRef_10 : Pipeline.arrRef spec0 (10 : Fin 20) = main_call0_v42 := rfl
theorem arrRef_11 : Pipeline.arrRef spec0 (11 : Fin 20) = main_call0_v59 := rfl
theorem arrRef_12 : Pipeline.arrRef spec0 (12 : Fin 20) = main_call0_v49 := rfl
theorem arrRef_13 : Pipeline.arrRef spec0 (13 : Fin 20) = main_call0_v62 := rfl
theorem arrRef_14 : Pipeline.arrRef spec0 (14 : Fin 20) = main_call0_v56 := rfl
theorem arrRef_15 : Pipeline.arrRef spec0 (15 : Fin 20) = main_call0_v65 := rfl
theorem arrRef_16 : Pipeline.arrRef spec0 (16 : Fin 20) = main_call0_v68 := rfl
theorem arrRef_17 : Pipeline.arrRef spec0 (17 : Fin 20) = main_call0_v71 := rfl

end Cert.KernelIdeal.HostValue

end
-- ==== Proof.KernelPayload.lean ====
/-
  What the kernel's body leaves in its two output blocks, row by row.

  At a grid point the body holds a block of 8192 cell rows and a block of 16384 edge rows, 32 features each. For either
  block it cuts the rows into eight chunks (1024 or 2048 rows), lays the chunks side by side along the lanes — packed
  row `p` carries block rows `p`, `R + p`, …, `7R + p` in lane groups 0 … 7 of 32 lanes —, runs three affine layers with
  the gate `x·σ(x)` between them on the 256-lane rows, normalises through an averaging matrix built from two lane counters
  floor-divided by 32 (equal segment numbers give the averaging constant, unequal ones zero), and stores lane group `g`
  back as row chunk `g`.

  Read at an index, every step is a statement about ONE packed row: a product with a 256×256 matrix is a sum over the
  row's 256 lanes, a bias is added lane by lane, the gate and the normalisation act lane by lane on sums over the row.
  So the packed block's row `p` goes through the row network of the shared module on 256 lanes; when the weights are
  block-diagonal and the vectors repeated (the hypotheses, in the shared module's words), the packing theorem turns
  lane `32·g + u` of that into the 32-wide network on block row `R·g + p` alone, and the store of chunk `g` puts it
  back at block row `R·g + p`. Hence row `q` of the output block is the 32-wide network of row `q` of the input block.
-/
import proofs.«161702_g2000305235446769_pallaspilot1_107_16_alg».proof.Proof.Gen.KernelIdeal.Frame
import proofs.«161702_g2000305235446769_pallaspilot1_107_16_alg».proof.Proof.RowNet
import proofs.«161702_g2000305235446769_pallaspilot1_107_16_alg».proof.Proof.Packing
import proofs.«161702_g2000305235446769_pallaspilot1_107_16_alg».proof.Proof.Lanes
import proofs.«161702_g2000305235446769_pallaspilot1_107_16_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.Packing Cert.RowNet Cert.Lanes Idealize.ShloMosaic Idealize.ShloMosaic.ValueIdx

variable [Cert.KernelIdeal.Facts]

/-! ## Lane numbers as 32-bit words -/

/-- The body's floor division by 32 of a lane number held in a 32-bit word: the truncated quotient, lowered by one where
    the signs of dividend and divisor differ and the remainder is not zero. -/
def floorDiv32 (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 32#32 0#32)) (Scalar.extui (Scalar.cmpi .slt 32#32 0#32))))
      (IntOp.cmpi .ne (IntOp.remsi .vector w 32#32) 0#32))
    (IntOp.subi (IntOp.divsi .vector w 32#32) 1#32)
    (IntOp.divsi .vector w 32#32)

/-- On the 256 lane numbers it is the quotient by 32. -/
theorem floorDiv32_ofNat : ∀ k : Fin 256, floorDiv32 (BitVec.ofNat 32 k.val) = BitVec.ofNat 32 (k.val / 32) := by
  decide +kernel

/-- Two segment numbers below 8, as 32-bit words, compare equal exactly when they are equal. -/
theorem cmpi_eq_seg : ∀ a b : Fin 8,
    IntOp.cmpi .eq (BitVec.ofNat 32 a.val) (BitVec.ofNat 32 b.val) = if a.val = b.val then 1#1 else 0#1 := by
  decide

/-! ## The cell encoder's half of the body: blocks of 8192 rows, packed 1024 rows at a time -/

/-- A product of a 1024×256 block by a 256×256 matrix into a zero accumulator, read at row `p`, lane `l`: the sum over
    the 256 lanes of the row's entries times the matrix's column. -/
theorem matmul_row (X : FVec Ideal S1024x256 .f32) (W : FVec Ideal S256x256 .f32) (p : Fin 1024) (l : Fin 256) :
    matmul dot_S1024x256_S256x256_S1024x256_1_0_0_1_n_n none X W (constant (F := Ideal) S1024x256 .f32 0x00000000#32) (ix2 p l)
      = ∑ k : Fin 256, X (ix2 p k) * W (ix2 k l) := by
  show FloatOps.matmul _ none X W _ (ix2 p l) = _
  rw [Ideal.matmul_constant_zero_apply,
    ← Equiv.sum_comp (contrEquiv1 dot_S1024x256_S256x256_S1024x256_1_0_0_1_n_n 256 rfl rfl).symm]
  refine Finset.sum_congr rfl fun k _ => ?_
  have c2 := contrEquiv1_symm_val dot_S1024x256_S256x256_S1024x256_1_0_0_1_n_n 256 rfl rfl k
  have l2 : dot_S1024x256_S256x256_S1024x256_1_0_0_1_n_n.lhsIdx (ix2 p l)
      ((contrEquiv1 dot_S1024x256_S256x256_S1024x256_1_0_0_1_n_n 256 rfl rfl).symm k) = ix2 p k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact c2
  have r2 : dot_S1024x256_S256x256_S1024x256_1_0_0_1_n_n.rhsIdx (ix2 p l)
      ((contrEquiv1 dot_S1024x256_S256x256_S1024x256_1_0_0_1_n_n 256 rfl rfl).symm k) = ix2 k l := by
    funext ax; apply Fin.ext
    match ax with
    | ⟨0, _⟩ => simp [DotDims.rhsIdx, dot_S1024x256_S256x256_S1024x256_1_0_0_1_n_n]; exact c2
    | ⟨1, _⟩ => simp [DotDims.rhsIdx, dot_S1024x256_S256x256_S1024x256_1_0_0_1_n_n]; rfl
  rw [l2, r2]

/-- The body's row segment number: the row lane's quotient by 32. -/
theorem rowSeg_apply (k l : Fin 256) :
    k0_pay3 (iota .tc S256x256 32 [0] iota_S256x256_d0_w32) 32#32 k0_pay2 (ix2 k l) = BitVec.ofNat 32 (k.val / 32) := by
  rw [← floorDiv32_ofNat k]
  unfold k0_pay3 k0_pay2
  show Scalar.select _ _ _ = _
  simp only [andi, cmpi, subi, extui, remsi, divsi, broadcast]
  rw [iota_single_apply .tc S256x256 32 (0 : Fin 2) iota_S256x256_d0_w32 (ix2 k l)]
  rfl

/-- The body's column segment number: the column lane's quotient by 32. -/
theorem colSeg_apply (k l : Fin 256) :
    k0_pay4 (ix2 k l) = BitVec.ofNat 32 (l.val / 32) := by
  rw [← floorDiv32_ofNat l]
  unfold k0_pay4
  show Scalar.select _ _ _ = _
  simp only [andi, cmpi, subi, extui, remsi, divsi, broadcast]
  rw [iota_single_apply .tc S256x256 32 (1 : Fin 2) iota_S256x256_d1_w32 (ix2 k l)]
  rfl

/-- The body's averaging matrix — the averaging constant where row lane and column lane have the same segment number,
    the zero word elsewhere — is `segMat`. -/
theorem segSelect_apply (k l : Fin 256) :
    select (cmpi .eq (k0_pay3 (iota .tc S256x256 32 [0] iota_S256x256_d0_w32) 32#32 k0_pay2) k0_pay4)
        (broadcast S256x256 (Scalar.ofBits (F := Ideal) .f32 0x3D000000#32))
        (broadcast S256x256 (Scalar.ofBits (F := Ideal) .f32 0x00000000#32)) (ix2 k l)
      = segMat 256 Cert.Spec.mu k l := by
  show Scalar.select (IntOp.cmpi .eq (k0_pay3 _ 32#32 k0_pay2 (ix2 k l)) (k0_pay4 (ix2 k l))) _ _ = _
  rw [rowSeg_apply, colSeg_apply, cmpi_eq_seg ⟨k.val / 32, by omega⟩ ⟨l.val / 32, by omega⟩]
  unfold segMat Scalar.select
  by_cases h : k.val / 32 = l.val / 32
  · simp only [h, if_true]
    rfl
  · simp only [h, if_false]
    exact Ideal.ofBits_zero_f32

/-- The deviation of a row's entry from the row's weighted mean, as the body computes it. -/
theorem dev_row (Y : FVec Ideal S1024x256 .f32) (M : FVec Ideal S256x256 .f32)
    (hM : ∀ k l : Fin 256, M (ix2 k l) = segMat 256 Cert.Spec.mu k l) (p : Fin 1024) (l : Fin 256) :
    subf Y (matmul dot_S1024x256_S256x256_S1024x256_1_0_0_1_n_n none Y M (constant (F := Ideal) S1024x256 .f32 0x00000000#32)) (ix2 p l) = dev (segMat 256 Cert.Spec.mu) (fun k => Y (ix2 p k)) l := by
  rw [subf_apply, matmul_row]
  unfold dev
  congr 1
  exact Finset.sum_congr rfl fun k _ => by rw [hM]

/-- The body's normalisation over an averaging matrix known index by index. -/
theorem norm_core (g h : FVec Ideal S1x256 .f32) (Y : FVec Ideal S1024x256 .f32) (M : FVec Ideal S256x256 .f32)
    (hM : ∀ k l : Fin 256, M (ix2 k l) = segMat 256 Cert.Spec.mu k l) (p : Fin 1024) (l : Fin 256) :
    addf (mulf (mulf (subf Y (matmul dot_S1024x256_S256x256_S1024x256_1_0_0_1_n_n none Y M (constant (F := Ideal) S1024x256 .f32 0x00000000#32)))
        (rsqrt (addf (matmul dot_S1024x256_S256x256_S1024x256_1_0_0_1_n_n none
            (mulf (subf Y (matmul dot_S1024x256_S256x256_S1024x256_1_0_0_1_n_n none Y M (constant (F := Ideal) S1024x256 .f32 0x00000000#32))) (subf Y (matmul dot_S1024x256_S256x256_S1024x256_1_0_0_1_n_n none Y M (constant (F := Ideal) S1024x256 .f32 0x00000000#32)))) M (constant (F := Ideal) S1024x256 .f32 0x00000000#32))
          (broadcast S1024x256 (Scalar.ofBits (F := Ideal) .f32 0x3727C5AC#32)))))
        (broadcastTo S1024x256 g broadcasts_S1x256_S1024x256)) (broadcastTo S1024x256 h broadcasts_S1x256_S1024x256) (ix2 p l)
      = normalise (segMat 256 Cert.Spec.mu) Cert.Spec.eps (fun l' => g (ix2 (0 : Fin 1) l')) (fun l' => h (ix2 (0 : Fin 1) l'))
          (fun k => Y (ix2 p k)) l := by
  unfold normalise
  rw [addf_apply, mulf_apply, mulf_apply, broadcastTo_1b_ab_apply, broadcastTo_1b_ab_apply, dev_row Y M hM p l]
  congr 3
  show Ideal.rsqrt (matmul dot_S1024x256_S256x256_S1024x256_1_0_0_1_n_n none _ M (constant (F := Ideal) S1024x256 .f32 0x00000000#32) (ix2 p l) + Cert.Spec.eps) = _
  rw [matmul_row]
  congr 2
  exact Finset.sum_congr rfl fun k _ => by rw [mulf_apply, dev_row Y M hM p k, hM]

/-- The body's normalisation of the packed block, read at row `p`, lane `l`. -/
theorem pay5_row (g h : FVec Ideal S1x256 .f32) (Y : FVec Ideal S1024x256 .f32) (p : Fin 1024) (l : Fin 256) :
    k0_pay5 (F := Ideal) g h Y (k0_pay3 (iota .tc S256x256 32 [0] iota_S256x256_d0_w32) 32#32 k0_pay2) k0_pay4 (ix2 p l)
      = normalise (segMat 256 Cert.Spec.mu) Cert.Spec.eps (fun l' => g (ix2 (0 : Fin 1) l')) (fun l' => h (ix2 (0 : Fin 1) l'))
          (fun k => Y (ix2 p k)) l := by
  unfold k0_pay5
  exact norm_core g h Y _ segSelect_apply p l

/-- Eight blocks of 32 lanes side by side, read at a lane of block 0. -/
theorem concat8_at0 (y0 y1 y2 y3 y4 y5 y6 y7 : FVec Ideal S1024x32 .f32) (p : Fin 1024) (l : Fin 256) (u : Fin 32)
    (hl : l.val = 0 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y0 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    0 (Nat.lt_of_sub_eq_succ rfl) S1024x32 y0 rfl rfl 0 rfl (ix2 p u)
    (fun b hb => by
      match b with
      | ⟨0, _⟩ => rfl
      | ⟨1, _⟩ => exact absurd rfl hb)
    hl.symm

/-- Eight blocks of 32 lanes side by side, read at a lane of block 1. -/
theorem concat8_at1 (y0 y1 y2 y3 y4 y5 y6 y7 : FVec Ideal S1024x32 .f32) (p : Fin 1024) (l : Fin 256) (u : Fin 32)
    (hl : l.val = 32 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y1 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    1 (Nat.lt_of_sub_eq_succ rfl) S1024x32 y1 rfl rfl 32 rfl (ix2 p u)
    (fun b hb => by
      match b with
      | ⟨0, _⟩ => rfl
      | ⟨1, _⟩ => exact absurd rfl hb)
    hl.symm

/-- Eight blocks of 32 lanes side by side, read at a lane of block 2. -/
theorem concat8_at2 (y0 y1 y2 y3 y4 y5 y6 y7 : FVec Ideal S1024x32 .f32) (p : Fin 1024) (l : Fin 256) (u : Fin 32)
    (hl : l.val = 64 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y2 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    2 (Nat.lt_of_sub_eq_succ rfl) S1024x32 y2 rfl rfl 64 rfl (ix2 p u)
    (fun b hb => by
      match b with
      | ⟨0, _⟩ => rfl
      | ⟨1, _⟩ => exact absurd rfl hb)
    hl.symm

/-- Eight blocks of 32 lanes side by side, read at a lane of block 3. -/
theorem concat8_at3 (y0 y1 y2 y3 y4 y5 y6 y7 : FVec Ideal S1024x32 .f32) (p : Fin 1024) (l : Fin 256) (u : Fin 32)
    (hl : l.val = 96 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y3 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    3 (Nat.lt_of_sub_eq_succ rfl) S1024x32 y3 rfl rfl 96 rfl (ix2 p u)
    (fun b hb => by
      match b with
      | ⟨0, _⟩ => rfl
      | ⟨1, _⟩ => exact absurd rfl hb)
    hl.symm

/-- Eight blocks of 32 lanes side by side, read at a lane of block 4. -/
theorem concat8_at4 (y0 y1 y2 y3 y4 y5 y6 y7 : FVec Ideal S1024x32 .f32) (p : Fin 1024) (l : Fin 256) (u : Fin 32)
    (hl : l.val = 128 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y4 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    4 (Nat.lt_of_sub_eq_succ rfl) S1024x32 y4 rfl rfl 128 rfl (ix2 p u)
    (fun b hb => by
      match b with
      | ⟨0, _⟩ => rfl
      | ⟨1, _⟩ => exact absurd rfl hb)
    hl.symm

/-- Eight blocks of 32 lanes side by side, read at a lane of block 5. -/
theorem concat8_at5 (y0 y1 y2 y3 y4 y5 y6 y7 : FVec Ideal S1024x32 .f32) (p : Fin 1024) (l : Fin 256) (u : Fin 32)
    (hl : l.val = 160 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y5 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    5 (Nat.lt_of_sub_eq_succ rfl) S1024x32 y5 rfl rfl 160 rfl (ix2 p u)
    (fun b hb => by
      match b with
      | ⟨0, _⟩ => rfl
      | ⟨1, _⟩ => exact absurd rfl hb)
    hl.symm

/-- Eight blocks of 32 lanes side by side, read at a lane of block 6. -/
theorem concat8_at6 (y0 y1 y2 y3 y4 y5 y6 y7 : FVec Ideal S1024x32 .f32) (p : Fin 1024) (l : Fin 256) (u : Fin 32)
    (hl : l.val = 192 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y6 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    6 (Nat.lt_of_sub_eq_succ rfl) S1024x32 y6 rfl rfl 192 rfl (ix2 p u)
    (fun b hb => by
      match b with
      | ⟨0, _⟩ => rfl
      | ⟨1, _⟩ => exact absurd rfl hb)
    hl.symm

/-- Eight blocks of 32 lanes side by side, read at a lane of block 7. -/
theorem concat8_at7 (y0 y1 y2 y3 y4 y5 y6 y7 : FVec Ideal S1024x32 .f32) (p : Fin 1024) (l : Fin 256) (u : Fin 32)
    (hl : l.val = 224 + u.val) :
    concatenate S1024x256 1 [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l) = y7 (ix2 p u) :=
  concatenate_apply_piece (t := S1024x256) (1 : Fin 2) [⟨S1024x32, y0⟩, ⟨S1024x32, y1⟩, ⟨S1024x32, y2⟩, ⟨S1024x32, y3⟩, ⟨S1024x32, y4⟩, ⟨S1024x32, y5⟩, ⟨S1024x32, y6⟩, ⟨S1024x32, y7⟩] concatenates_S1024x32_S1024x32_S1024x32_S1024x32_S1024x32_S1024x32_S1024x32_S1024x32_S1024x256_d1 (ix2 p l)
    7 (Nat.lt_of_sub_eq_succ rfl) S1024x32 y7 rfl rfl 224 rfl (ix2 p u)
    (fun b hb => by
      match b with
      | ⟨0, _⟩ => rfl
      | ⟨1, _⟩ => exact absurd rfl hb)
    hl.symm

/-- The block of 8192 rows with its eight chunks of 1024 rows laid side by side along the lanes. -/
def packed (x : FVec Ideal S8192x32 .f32) : FVec Ideal S1024x256 .f32 :=
  concatenate S1024x256 1 [⟨S1024x32, extractStridedSlice S1024x32 ![0, 0] x slices_S8192x32_o0_0_S1024x32⟩, ⟨S1024x32, extractStridedSlice S1024x32 ![1024, 0] x slices_S8192x32_o1024_0_S1024x32⟩, ⟨S1024x32, extractStridedSlice S1024x32 ![2048, 0] x slices_S8192x32_o2048_0_S1024x32⟩, ⟨S1024x32, extractStridedSlice S1024x32 ![3072, 0] x slices_S8192x32_o3072_0_S1024x32⟩, ⟨S1024x32, extractStridedSlice S1024x32 ![4096, 0] x slices_S8192x32_o4096_0_S1024x32⟩, ⟨S1024x32, extractStridedSlice S1024x32 ![5120, 0] x slices_S8192x32_o5120_0_S1024x32⟩, ⟨S1024x32, extractStridedSlice S1024x32 ![6144, 0] x slices_S8192x32_o6144_0_S1024x32⟩, ⟨S1024x32, extractStridedSlice S1024x32 ![7168, 0] x slices_S8192x32_o7168_0_S1024x32⟩] concatenates_S1024x32_S1024x32_S1024x32_S1024x32_S1024x32_S1024x32_S1024x32_S1024x32_S1024x256_d1

/-- One affine layer of the body on the packed block, read at row `p`, lane `l`. -/
theorem layer_row (X : FVec Ideal S1024x256 .f32) (W : FVec Ideal S256x256 .f32) (b : FVec Ideal S1x256 .f32)
    (p : Fin 1024) (l : Fin 256) :
    addf (matmul dot_S1024x256_S256x256_S1024x256_1_0_0_1_n_n none X (shapeCast S256x256 W shapeCasts_S256x256_S256x256)
        (constant (F := Ideal) S1024x256 .f32 0x00000000#32)) (broadcastTo S1024x256 b broadcasts_S1x256_S1024x256) (ix2 p l)
      = affine (fun k l' => W (ix2 k l')) (fun l' => b (ix2 (0 : Fin 1) l')) (fun k => X (ix2 p k)) l := by
  rw [addf_apply, shapeCast_self, matmul_row, broadcastTo_1b_ab_apply]
  rfl

/-- The gate of the body, read at an index. -/
theorem gate_row (X : FVec Ideal S1024x256 .f32) (p : Fin 1024) (l : Fin 256) :
    mulf X (logistic X) (ix2 p l) = gate (fun k => X (ix2 p k)) l := rfl

/-- The three affine layers with the gate between them, on the packed block, read at row `p`, lane `l`. -/
theorem pay1_row (v0 : FVec Ideal S256x256 .f32) (v2 : FVec Ideal S1x256 .f32) (v3 : FVec Ideal S256x256 .f32)
    (v5 : FVec Ideal S1x256 .f32) (v6 : FVec Ideal S256x256 .f32) (v8 : FVec Ideal S1x256 .f32)
    (x : FVec Ideal S8192x32 .f32) (p : Fin 1024) (l : Fin 256) :
    k0_pay1 (F := Ideal) v0 v2 v3 v5 v6 v8 x (ix2 p l)
      = affine (fun k l' => v6 (ix2 k l')) (fun l' => v8 (ix2 (0 : Fin 1) l'))
          (gate (affine (fun k l' => v3 (ix2 k l')) (fun l' => v5 (ix2 (0 : Fin 1) l'))
            (gate (affine (fun k l' => v0 (ix2 k l')) (fun l' => v2 (ix2 (0 : Fin 1) l'))
              (fun k => packed x (ix2 p k)))))) l := by
  unfold k0_pay1
  refine (layer_row _ v6 v8 p l).trans ?_
  congr 1
  funext k
  refine (gate_row _ p k).trans ?_
  congr 1
  funext k'
  refine (layer_row _ v3 v5 p k').trans ?_
  congr 1
  funext k''
  refine (gate_row _ p k'').trans ?_
  congr 1
  funext k'''
  exact layer_row (packed x) v0 v2 p k'''

theorem packed_at0 (x : FVec Ideal S8192x32 .f32) (p : Fin 1024) (l : Fin 256) (u : Fin 32) (q : Fin 8192)
    (hl : l.val = 0 + u.val) (hq : q.val = 0 + p.val) : packed x (ix2 p l) = x (ix2 q u) := by
  unfold packed
  rw [concat8_at0 _ _ _ _ _ _ _ _ p l u hl]
  exact slice2_axis0_apply 0 x slices_S8192x32_o0_0_S1024x32 p u q hq

theorem packed_at1 (x : FVec Ideal S8192x32 .f32) (p : Fin 1024) (l : Fin 256) (u : Fin 32) (q : Fin 8192)
    (hl : l.val = 32 + u.val) (hq : q.val = 1024 + p.val) : packed x (ix2 p l) = x (ix2 q u) := by
  unfold packed
  rw [concat8_at1 _ _ _ _ _ _ _ _ p l u hl]
  exact slice2_axis0_apply 1024 x slices_S8192x32_o1024_0_S1024x32 p u q hq

theorem packed_at2 (x : FVec Ideal S8192x32 .f32) (p : Fin 1024) (l : Fin 256) (u : Fin 32) (q : Fin 8192)
    (hl : l.val = 64 + u.val) (hq : q.val = 2048 + p.val) : packed x (ix2 p l) = x (ix2 q u) := by
  unfold packed
  rw [concat8_at2 _ _ _ _ _ _ _ _ p l u hl]
  exact slice2_axis0_apply 2048 x slices_S8192x32_o2048_0_S1024x32 p u q hq

theorem packed_at3 (x : FVec Ideal S8192x32 .f32) (p : Fin 1024) (l : Fin 256) (u : Fin 32) (q : Fin 8192)
    (hl : l.val = 96 + u.val) (hq : q.val = 3072 + p.val) : packed x (ix2 p l) = x (ix2 q u) := by
  unfold packed
  rw [concat8_at3 _ _ _ _ _ _ _ _ p l u hl]
  exact slice2_axis0_apply 3072 x slices_S8192x32_o3072_0_S1024x32 p u q hq

theorem packed_at4 (x : FVec Ideal S8192x32 .f32) (p : Fin 1024) (l : Fin 256) (u : Fin 32) (q : Fin 8192)
    (hl : l.val = 128 + u.val) (hq : q.val = 4096 + p.val) : packed x (ix2 p l) = x (ix2 q u) := by
  unfold packed
  rw [concat8_at4 _ _ _ _ _ _ _ _ p l u hl]
  exact slice2_axis0_apply 4096 x slices_S8192x32_o4096_0_S1024x32 p u q hq

theorem packed_at5 (x : FVec Ideal S8192x32 .f32) (p : Fin 1024) (l : Fin 256) (u : Fin 32) (q : Fin 8192)
    (hl : l.val = 160 + u.val) (hq : q.val = 5120 + p.val) : packed x (ix2 p l) = x (ix2 q u) := by
  unfold packed
  rw [concat8_at5 _ _ _ _ _ _ _ _ p l u hl]
  exact slice2_axis0_apply 5120 x slices_S8192x32_o5120_0_S1024x32 p u q hq

theorem packed_at6 (x : FVec Ideal S8192x32 .f32) (p : Fin 1024) (l : Fin 256) (u : Fin 32) (q : Fin 8192)
    (hl : l.val = 192 + u.val) (hq : q.val = 6144 + p.val) : packed x (ix2 p l) = x (ix2 q u) := by
  unfold packed
  rw [concat8_at6 _ _ _ _ _ _ _ _ p l u hl]
  exact slice2_axis0_apply 6144 x slices_S8192x32_o6144_0_S1024x32 p u q hq

theorem packed_at7 (x : FVec Ideal S8192x32 .f32) (p : Fin 1024) (l : Fin 256) (u : Fin 32) (q : Fin 8192)
    (hl : l.val = 224 + u.val) (hq : q.val = 7168 + p.val) : packed x (ix2 p l) = x (ix2 q u) := by
  unfold packed
  rw [concat8_at7 _ _ _ _ _ _ _ _ p l u hl]
  exact slice2_axis0_apply 7168 x slices_S8192x32_o7168_0_S1024x32 p u q hq

/-- Lane `32·g + u` of packed row `p` is feature `u` of block row `1024·g + p`. -/
theorem packed_apply (x : FVec Ideal S8192x32 .f32) (p : Fin 1024) (g : Fin 8) (u : Fin 32) (q : Fin 8192)
    (hq : q.val = 1024 * g.val + p.val) : packed x (ix2 p (lane256 g u)) = x (ix2 q u) := by
  match g, hq with
  | ⟨0, _⟩, hq => exact packed_at0 x p _ u q rfl hq
  | ⟨1, _⟩, hq => exact packed_at1 x p _ u q rfl hq
  | ⟨2, _⟩, hq => exact packed_at2 x p _ u q rfl hq
  | ⟨3, _⟩, hq => exact packed_at3 x p _ u q rfl hq
  | ⟨4, _⟩, hq => exact packed_at4 x p _ u q rfl hq
  | ⟨5, _⟩, hq => exact packed_at5 x p _ u q rfl hq
  | ⟨6, _⟩, hq => exact packed_at6 x p _ u q rfl hq
  | ⟨7, _⟩, hq => exact packed_at7 x p _ u q rfl hq

/-- Lane group 0 cut out of the normalised block. -/
theorem pay6_apply (g h : FVec Ideal S1x256 .f32) (Y : FVec Ideal S1024x256 .f32) (sr sc : IVec S256x256 32)
    (p : Fin 1024) (u : Fin 32) :
    k0_pay6 (F := Ideal) g h Y sr sc (ix2 p u) = k0_pay5 (F := Ideal) g h Y sr sc (ix2 p (lane256 ⟨0, by omega⟩ u)) := by
  unfold k0_pay6
  exact slice2_axis1_apply 0 _ slices_S1024x256_o0_0_S1024x32 p u (lane256 ⟨0, by omega⟩ u) rfl

/-- Lane group 1 cut out of the normalised block. -/
theorem pay7_apply (g h : FVec Ideal S1x256 .f32) (Y : FVec Ideal S1024x256 .f32) (sr sc : IVec S256x256 32)
    (p : Fin 1024) (u : Fin 32) :
    k0_pay7 (F := Ideal) g h Y sr sc (ix2 p u) = k0_pay5 (F := Ideal) g h Y sr sc (ix2 p (lane256 ⟨1, by omega⟩ u)) := by
  unfold k0_pay7
  exact slice2_axis1_apply 32 _ slices_S1024x256_o0_32_S1024x32 p u (lane256 ⟨1, by omega⟩ u) rfl

/-- Lane group 2 cut out of the normalised block. -/
theorem pay8_apply (g h : FVec Ideal S1x256 .f32) (Y : FVec Ideal S1024x256 .f32) (sr sc : IVec S256x256 32)
    (p : Fin 1024) (u : Fin 32) :
    k0_pay8 (F := Ideal) g h Y sr sc (ix2 p u) = k0_pay5 (F := Ideal) g h Y sr sc (ix2 p (lane256 ⟨2, by omega⟩ u)) := by
  unfold k0_pay8
  exact slice2_axis1_apply 64 _ slices_S1024x256_o0_64_S1024x32 p u (lane256 ⟨2, by omega⟩ u) rfl

/-- Lane group 3 cut out of the normalised block. -/
theorem pay9_apply (g h : FVec Ideal S1x256 .f32) (Y : FVec Ideal S1024x256 .f32) (sr sc : IVec S256x256 32)
    (p : Fin 1024) (u : Fin 32) :
    k0_pay9 (F := Ideal) g h Y sr sc (ix2 p u) = k0_pay5 (F := Ideal) g h Y sr sc (ix2 p (lane256 ⟨3, by omega⟩ u)) := by
  unfold k0_pay9
  exact slice2_axis1_apply 96 _ slices_S1024x256_o0_96_S1024x32 p u (lane256 ⟨3, by omega⟩ u) rfl

/-- Lane group 4 cut out of the normalised block. -/
theorem pay10_apply (g h : FVec Ideal S1x256 .f32) (Y : FVec Ideal S1024x256 .f32) (sr sc : IVec S256x256 32)
    (p : Fin 1024) (u : Fin 32) :
    k0_pay10 (F := Ideal) g h Y sr sc (ix2 p u) = k0_pay5 (F := Ideal) g h Y sr sc (ix2 p (lane256 ⟨4, by omega⟩ u)) := by
  unfold k0_pay10
  exact slice2_axis1_apply 128 _ slices_S1024x256_o0_128_S1024x32 p u (lane256 ⟨4, by omega⟩ u) rfl

/-- Lane group 5 cut out of the normalised block. -/
theorem pay11_apply (g h : FVec Ideal S1x256 .f32) (Y : FVec Ideal S1024x256 .f32) (sr sc : IVec S256x256 32)
    (p : Fin 1024) (u : Fin 32) :
    k0_pay11 (F := Ideal) g h Y sr sc (ix2 p u) = k0_pay5 (F := Ideal) g h Y sr sc (ix2 p (lane256 ⟨5, by omega⟩ u)) := by
  unfold k0_pay11
  exact slice2_axis1_apply 160 _ slices_S1024x256_o0_160_S1024x32 p u (lane256 ⟨5, by omega⟩ u) rfl

/-- Lane group 6 cut out of the normalised block. -/
theorem pay12_apply (g h : FVec Ideal S1x256 .f32) (Y : FVec Ideal S1024x256 .f32) (sr sc : IVec S256x256 32)
    (p : Fin 1024) (u : Fin 32) :
    k0_pay12 (F := Ideal) g h Y sr sc (ix2 p u) = k0_pay5 (F := Ideal) g h Y sr sc (ix2 p (lane256 ⟨6, by omega⟩ u)) := by
  unfold k0_pay12
  exact slice2_axis1_apply 192 _ slices_S1024x256_o0_192_S1024x32 p u (lane256 ⟨6, by omega⟩ u) rfl

/-- Lane group 7 cut out of the normalised block. -/
theorem pay13_apply (g h : FVec Ideal S1x256 .f32) (Y : FVec Ideal S1024x256 .f32) (sr sc : IVec S256x256 32)
    (p : Fin 1024) (u : Fin 32) :
    k0_pay13 (F := Ideal) g h Y sr sc (ix2 p u) = k0_pay5 (F := Ideal) g h Y sr sc (ix2 p (lane256 ⟨7, by omega⟩ u)) := by
  unfold k0_pay13
  exact slice2_axis1_apply 224 _ slices_S1024x256_o0_224_S1024x32 p u (lane256 ⟨7, by omega⟩ u) rfl

/-- Where the store of row chunk 0 puts its local row `p`: block row `0 + p`. -/
theorem emb_piece0 (p : Fin 1024) (u : Fin 32) :
    r0_3.emb (ix2 p u) = ix2 (⟨0 + p.val, by omega⟩ : Fin 8192) u := by
  funext a
  apply Fin.ext
  rw [Rect.emb_apply]
  match a with
  | ⟨0, _⟩ => simp [ix2]
  | ⟨1, _⟩ => simp [ix2]

/-- Where the store of row chunk 1 puts its local row `p`: block row `1024 + p`. -/
theorem emb_piece1 (p : Fin 1024) (u : Fin 32) :
    r0_4.emb (ix2 p u) = ix2 (⟨1024 + p.val, by omega⟩ : Fin 8192) u := by
  funext a
  apply Fin.ext
  rw [Rect.emb_apply]
  match a with
  | ⟨0, _⟩ => simp [ix2]
  | ⟨1, _⟩ => simp [ix2]

/-- Where the store of row chunk 2 puts its local row `p`: block row `2048 + p`. -/
theorem emb_piece2 (p : Fin 1024) (u : Fin 32) :
    r0_5.emb (ix2 p u) = ix2 (⟨2048 + p.val, by omega⟩ : Fin 8192) u := by
  funext a
  apply Fin.ext
  rw [Rect.emb_apply]
  match a with
  | ⟨0, _⟩ => simp [ix2]
  | ⟨1, _⟩ => simp [ix2]

/-- Where the store of row chunk 3 puts its local row `p`: block row `3072 + p`. -/
theorem emb_piece3 (p : Fin 1024) (u : Fin 32) :
    r0_6.emb (ix2 p u) = ix2 (⟨3072 + p.val, by omega⟩ : Fin 8192) u := by
  funext a
  apply Fin.ext
  rw [Rect.emb_apply]
  match a with
  | ⟨0, _⟩ => simp [ix2]
  | ⟨1, _⟩ => simp [ix2]

/-- Where the store of row chunk 4 puts its local row `p`: block row `4096 + p`. -/
theorem emb_piece4 (p : Fin 1024) (u : Fin 32) :
    r0_7.emb (ix2 p u) = ix2 (⟨4096 + p.val, by omega⟩ : Fin 8192) u := by
  funext a
  apply Fin.ext
  rw [Rect.emb_apply]
  match a with
  | ⟨0, _⟩ => simp [ix2]
  | ⟨1, _⟩ => simp [ix2]

/-- Where the store of row chunk 5 puts its local row `p`: block row `5120 + p`. -/
theorem emb_piece5 (p : Fin 1024) (u : Fin 32) :
    r0_8.emb (ix2 p u) = ix2 (⟨5120 + p.val, by omega⟩ : Fin 8192) u := by
  funext a
  apply Fin.ext
  rw [Rect.emb_apply]
  match a with
  | ⟨0, _⟩ => simp [ix2]
  | ⟨1, _⟩ => simp [ix2]

/-- Where the store of row chunk 6 puts its local row `p`: block row `6144 + p`. -/
theorem emb_piece6 (p : Fin 1024) (u : Fin 32) :
    r0_9.emb (ix2 p u) = ix2 (⟨6144 + p.val, by omega⟩ : Fin 8192) u := by
  funext a
  apply Fin.ext
  rw [Rect.emb_apply]
  match a with
  | ⟨0, _⟩ => simp [ix2]
  | ⟨1, _⟩ => simp [ix2]

/-- Where the store of row chunk 7 puts its local row `p`: block row `7168 + p`. -/
theorem emb_piece7 (p : Fin 1024) (u : Fin 32) :
    r0_10.emb (ix2 p u) = ix2 (⟨7168 + p.val, by omega⟩ : Fin 8192) u := by
  funext a
  apply Fin.ext
  rw [Rect.emb_apply]
  match a with
  | ⟨0, _⟩ => simp [ix2]
  | ⟨1, _⟩ => simp [ix2]

section RowValue

variable (xd : FVec Ideal S8192x32 .f32) (w1 : FVec Ideal S256x256 .f32) (b1 : FVec Ideal S1x256 .f32)
  (w2 : FVec Ideal S256x256 .f32) (b2 : FVec Ideal S1x256 .f32) (w3 : FVec Ideal S256x256 .f32)
  (b3 sc sh : FVec Ideal S1x256 .f32)
  {A1 A2 A3 : Fin 32 → Fin 32 → EReal} {c1 c2 c3 g' h' : Fin 32 → EReal}
  (h1 : BlockDiag laneEquiv256 (fun k l => w1 (ix2 k l)) A1) (k1 : Repeats laneEquiv256 (fun l => b1 (ix2 (0 : Fin 1) l)) c1)
  (h2 : BlockDiag laneEquiv256 (fun k l => w2 (ix2 k l)) A2) (k2 : Repeats laneEquiv256 (fun l => b2 (ix2 (0 : Fin 1) l)) c2)
  (h3 : BlockDiag laneEquiv256 (fun k l => w3 (ix2 k l)) A3) (k3 : Repeats laneEquiv256 (fun l => b3 (ix2 (0 : Fin 1) l)) c3)
  (hg : Repeats laneEquiv256 (fun l => sc (ix2 (0 : Fin 1) l)) g') (hh : Repeats laneEquiv256 (fun l => sh (ix2 (0 : Fin 1) l)) h')

include h1 k1 h2 k2 h3 k3 hg hh in
/-- The body's normalised result at lane `32·g + u` of packed row `p` is the 32-wide network on block row `1024·g + p`:
    the packing theorem at eight logical rows per packed row, then the packed row read back as block rows. -/
theorem row_value (p : Fin 1024) (g : Fin 8) (u : Fin 32) (q : Fin 8192) (hq : q.val = 1024 * g.val + p.val) :
    k0_pay5 (F := Ideal) sc sh (k0_pay1 (F := Ideal) w1 b1 w2 b2 w3 b3 xd)
        (k0_pay3 (iota .tc S256x256 32 [0] iota_S256x256_d0_w32) 32#32 k0_pay2) k0_pay4 (ix2 p (lane256 g u))
      = net A1 c1 A2 c2 A3 c3 (fun _ _ => Cert.Spec.mu) Cert.Spec.eps g' h' (fun u' => xd (ix2 q u')) u := by
  rw [pay5_row]
  have hY : (fun k => k0_pay1 (F := Ideal) w1 b1 w2 b2 w3 b3 xd (ix2 p k))
      = affine (fun k l' => w3 (ix2 k l')) (fun l' => b3 (ix2 (0 : Fin 1) l'))
          (gate (affine (fun k l' => w2 (ix2 k l')) (fun l' => b2 (ix2 (0 : Fin 1) l'))
            (gate (affine (fun k l' => w1 (ix2 k l')) (fun l' => b1 (ix2 (0 : Fin 1) l'))
              (fun k => packed xd (ix2 p k)))))) := funext fun k => pay1_row w1 b1 w2 b2 w3 b3 xd p k
  rw [hY]
  have hnet := net_packed laneEquiv256 h1 k1 h2 k2 h3 k3 (segMat_blockDiag256 Cert.Spec.mu) hg hh Cert.Spec.eps
    (fun k => packed xd (ix2 p k)) g u
  rw [laneEquiv256_apply] at hnet
  refine (show _ = _ from hnet).trans ?_
  congr 1
  funext u'
  exact packed_apply xd p g u' q hq

include h1 k1 h2 k2 h3 k3 hg hh in
/-- What the store of row chunk 0 writes at its local row `p`. -/
theorem piece0_value (p : Fin 1024) (u : Fin 32) :
    k0_pay6 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨0 + p.val, by omega⟩ : Fin 8192) u')) u := by
  rw [pay6_apply]
  exact row_value xd w1 b1 w2 b2 w3 b3 sc sh h1 k1 h2 k2 h3 k3 hg hh p ⟨0, by omega⟩ u ⟨0 + p.val, by omega⟩ rfl

include h1 k1 h2 k2 h3 k3 hg hh in
/-- What the store of row chunk 1 writes at its local row `p`. -/
theorem piece1_value (p : Fin 1024) (u : Fin 32) :
    k0_pay7 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨1024 + p.val, by omega⟩ : Fin 8192) u')) u := by
  rw [pay7_apply]
  exact row_value xd w1 b1 w2 b2 w3 b3 sc sh h1 k1 h2 k2 h3 k3 hg hh p ⟨1, by omega⟩ u ⟨1024 + p.val, by omega⟩ rfl

include h1 k1 h2 k2 h3 k3 hg hh in
/-- What the store of row chunk 2 writes at its local row `p`. -/
theorem piece2_value (p : Fin 1024) (u : Fin 32) :
    k0_pay8 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨2048 + p.val, by omega⟩ : Fin 8192) u')) u := by
  rw [pay8_apply]
  exact row_value xd w1 b1 w2 b2 w3 b3 sc sh h1 k1 h2 k2 h3 k3 hg hh p ⟨2, by omega⟩ u ⟨2048 + p.val, by omega⟩ rfl

include h1 k1 h2 k2 h3 k3 hg hh in
/-- What the store of row chunk 3 writes at its local row `p`. -/
theorem piece3_value (p : Fin 1024) (u : Fin 32) :
    k0_pay9 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨3072 + p.val, by omega⟩ : Fin 8192) u')) u := by
  rw [pay9_apply]
  exact row_value xd w1 b1 w2 b2 w3 b3 sc sh h1 k1 h2 k2 h3 k3 hg hh p ⟨3, by omega⟩ u ⟨3072 + p.val, by omega⟩ rfl

include h1 k1 h2 k2 h3 k3 hg hh in
/-- What the store of row chunk 4 writes at its local row `p`. -/
theorem piece4_value (p : Fin 1024) (u : Fin 32) :
    k0_pay10 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨4096 + p.val, by omega⟩ : Fin 8192) u')) u := by
  rw [pay10_apply]
  exact row_value xd w1 b1 w2 b2 w3 b3 sc sh h1 k1 h2 k2 h3 k3 hg hh p ⟨4, by omega⟩ u ⟨4096 + p.val, by omega⟩ rfl

include h1 k1 h2 k2 h3 k3 hg hh in
/-- What the store of row chunk 5 writes at its local row `p`. -/
theorem piece5_value (p : Fin 1024) (u : Fin 32) :
    k0_pay11 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨5120 + p.val, by omega⟩ : Fin 8192) u')) u := by
  rw [pay11_apply]
  exact row_value xd w1 b1 w2 b2 w3 b3 sc sh h1 k1 h2 k2 h3 k3 hg hh p ⟨5, by omega⟩ u ⟨5120 + p.val, by omega⟩ rfl

include h1 k1 h2 k2 h3 k3 hg hh in
/-- What the store of row chunk 6 writes at its local row `p`. -/
theorem piece6_value (p : Fin 1024) (u : Fin 32) :
    k0_pay12 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨6144 + p.val, by omega⟩ : Fin 8192) u')) u := by
  rw [pay12_apply]
  exact row_value xd w1 b1 w2 b2 w3 b3 sc sh h1 k1 h2 k2 h3 k3 hg hh p ⟨6, by omega⟩ u ⟨6144 + p.val, by omega⟩ rfl

include h1 k1 h2 k2 h3 k3 hg hh in
/-- What the store of row chunk 7 writes at its local row `p`. -/
theorem piece7_value (p : Fin 1024) (u : Fin 32) :
    k0_pay13 (F := Ideal) sc sh (k0_pay1 (F := Ideal) w1 b1 w2 b2 w3 b3 xd) (k0_pay3 (iota .tc S256x256 32 [0] iota_S256x256_d0_w32) 32#32 k0_pay2) k0_pay4 (ix2 p u)
      = net A1 c1 A2 c2 A3 c3 (fun _ _ => Cert.Spec.mu) Cert.Spec.eps g' h'
          (fun u' => xd (ix2 (⟨7168 + p.val, by omega⟩ : Fin 8192) u')) u := by
  rw [pay13_apply]
  exact row_value xd w1 b1 w2 b2 w3 b3 sc sh h1 k1 h2 k2 h3 k3 hg hh p ⟨7, by omega⟩ u ⟨7168 + p.val, by omega⟩ rfl

end RowValue

/-! ## The edge encoder's half of the body: blocks of 16384 rows, packed 2048 rows at a time -/

/-- A product of a 2048×256 block by a 256×256 matrix into a zero accumulator, read at row `p`, lane `l`: the sum over
    the 256 lanes of the row's entries times the matrix's column. -/
theorem matmul_rowE (X : FVec Ideal S2048x256 .f32) (W : FVec Ideal S256x256 .f32) (p : Fin 2048) (l : Fin 256) :
    matmul dot_S2048x256_S256x256_S2048x256_1_0_0_1_n_n none X W (constant (F := Ideal) S2048x256 .f32 0x00000000#32) (ix2 p l)
      = ∑ k : Fin 256, X (ix2 p k) * W (ix2 k l) := by
  show FloatOps.matmul _ none X W _ (ix2 p l) = _
  rw [Ideal.matmul_constant_zero_apply,
    ← Equiv.sum_comp (contrEquiv1 dot_S2048x256_S256x256_S2048x256_1_0_0_1_n_n 256 rfl rfl).symm]
  refine Finset.sum_congr rfl fun k _ => ?_
  have c2 := contrEquiv1_symm_val dot_S2048x256_S256x256_S2048x256_1_0_0_1_n_n 256 rfl rfl k
  have l2 : dot_S2048x256_S256x256_S2048x256_1_0_0_1_n_n.lhsIdx (ix2 p l)
      ((contrEquiv1 dot_S2048x256_S256x256_S2048x256_1_0_0_1_n_n 256 rfl rfl).symm k) = ix2 p k := by
    funext ax; apply Fin.ext
    match ax with
    | ⟨0, _⟩ => simp [DotDims.lhsIdx, dot_S2048x256_S256x256_S2048x256_1_0_0_1_n_n]; rfl
    | ⟨1, _⟩ => simp [DotDims.lhsIdx, dot_S2048x256_S256x256_S2048x256_1_0_0_1_n_n]; exact c2
  have r2 : dot_S2048x256_S256x256_S2048x256_1_0_0_1_n_n.rhsIdx (ix2 p l)
      ((contrEquiv1 dot_S2048x256_S256x256_S2048x256_1_0_0_1_n_n 256 rfl rfl).symm k) = ix2 k l := by
    funext ax; apply Fin.ext
    match ax with
    | ⟨0, _⟩ => simp [DotDims.rhsIdx, dot_S2048x256_S256x256_S2048x256_1_0_0_1_n_n]; exact c2
    | ⟨1, _⟩ => simp [DotDims.rhsIdx, dot_S2048x256_S256x256_S2048x256_1_0_0_1_n_n]; rfl
  rw [l2, r2]

/-- The body's row segment number: the row lane's quotient by 32. -/
theorem rowSeg_applyE (k l : Fin 256) :
    k0_pay16 (iota .tc S256x256 32 [0] iota_S256x256_d0_w32) 32#32 k0_pay15 (ix2 k l) = BitVec.ofNat 32 (k.val / 32) := by
  rw [← floorDiv32_ofNat k]
  unfold k0_pay16 k0_pay15
  show Scalar.select _ _ _ = _
  simp only [andi, cmpi, subi, extui, remsi, divsi, broadcast]
  rw [iota_single_apply .tc S256x256 32 (0 : Fin 2) iota_S256x256_d0_w32 (ix2 k l)]
  rfl

/-- The body's column segment number: the column lane's quotient by 32. -/
theorem colSeg_applyE (k l : Fin 256) :
    k0_pay17 (ix2 k l) = BitVec.ofNat 32 (l.val / 32) := by
  rw [← floorDiv32_ofNat l]
  unfold k0_pay17
  show Scalar.select _ _ _ = _
  simp only [andi, cmpi, subi, extui, remsi, divsi, broadcast]
  rw [iota_single_apply .tc S256x256 32 (1 : Fin 2) iota_S256x256_d1_w32 (ix2 k l)]
  rfl

/-- The body's averaging matrix — the averaging constant where row lane and column lane have the same segment number,
    the zero word elsewhere — is `segMat`. -/
theorem segSelect_applyE (k l : Fin 256) :
    select (cmpi .eq (k0_pay16 (iota .tc S256x256 32 [0] iota_S256x256_d0_w32) 32#32 k0_pay15) k0_pay17)
        (broadcast S256x256 (Scalar.ofBits (F := Ideal) .f32 0x3D000000#32))
        (broadcast S256x256 (Scalar.ofBits (F := Ideal) .f32 0x00000000#32)) (ix2 k l)
      = segMat 256 Cert.Spec.mu k l := by
  show Scalar.select (IntOp.cmpi .eq (k0_pay16 _ 32#32 k0_pay15 (ix2 k l)) (k0_pay17 (ix2 k l))) _ _ = _
  rw [rowSeg_applyE, colSeg_applyE, cmpi_eq_seg ⟨k.val / 32, by omega⟩ ⟨l.val / 32, by omega⟩]
  unfold segMat Scalar.select
  by_cases h : k.val / 32 = l.val / 32
  · simp only [h, if_true]
    rfl
  · simp only [h, if_false]
    exact Ideal.ofBits_zero_f32

/-- The deviation of a row's entry from the row's weighted mean, as the body computes it. -/
theorem dev_rowE (Y : FVec Ideal S2048x256 .f32) (M : FVec Ideal S256x256 .f32)
    (hM : ∀ k l : Fin 256, M (ix2 k l) = segMat 256 Cert.Spec.mu k l) (p : Fin 2048) (l : Fin 256) :
    subf Y (matmul dot_S2048x256_S256x256_S2048x256_1_0_0_1_n_n none Y M (constant (F := Ideal) S2048x256 .f32 0x00000000#32)) (ix2 p l) = dev (segMat 256 Cert.Spec.mu) (fun k => Y (ix2 p k)) l := by
  rw [subf_apply, matmul_rowE]
  unfold dev
  congr 1
  exact Finset.sum_congr rfl fun k _ => by rw [hM]

/-- The body's normalisation over an averaging matrix known index by index. -/
theorem norm_coreE (g h : FVec Ideal S1x256 .f32) (Y : FVec Ideal S2048x256 .f32) (M : FVec Ideal S256x256 .f32)
    (hM : ∀ k l : Fin 256, M (ix2 k l) = segMat 256 Cert.Spec.mu k l) (p : Fin 2048) (l : Fin 256) :
    addf (mulf (mulf (subf Y (matmul dot_S2048x256_S256x256_S2048x256_1_0_0_1_n_n none Y M (constant (F := Ideal) S2048x256 .f32 0x00000000#32)))
        (rsqrt (addf (matmul dot_S2048x256_S256x256_S2048x256_1_0_0_1_n_n none
            (mulf (subf Y (matmul dot_S2048x256_S256x256_S2048x256_1_0_0_1_n_n none Y M (constant (F := Ideal) S2048x256 .f32 0x00000000#32))) (subf Y (matmul dot_S2048x256_S256x256_S2048x256_1_0_0_1_n_n none Y M (constant (F := Ideal) S2048x256 .f32 0x00000000#32)))) M (constant (F := Ideal) S2048x256 .f32 0x00000000#32))
          (broadcast S2048x256 (Scalar.ofBits (F := Ideal) .f32 0x3727C5AC#32)))))
        (broadcastTo S2048x256 g broadcasts_S1x256_S2048x256)) (broadcastTo S2048x256 h broadcasts_S1x256_S2048x256) (ix2 p l)
      = normalise (segMat 256 Cert.Spec.mu) Cert.Spec.eps (fun l' => g (ix2 (0 : Fin 1) l')) (fun l' => h (ix2 (0 : Fin 1) l'))
          (fun k => Y (ix2 p k)) l := by
  unfold normalise
  rw [addf_apply, mulf_apply, mulf_apply, broadcastTo_1b_ab_apply, broadcastTo_1b_ab_apply, dev_rowE Y M hM p l]
  congr 3
  show Ideal.rsqrt (matmul dot_S2048x256_S256x256_S2048x256_1_0_0_1_n_n none _ M (constant (F := Ideal) S2048x256 .f32 0x00000000#32) (ix2 p l) + Cert.Spec.eps) = _
  rw [matmul_rowE]
  congr 2
  exact Finset.sum_congr rfl fun k _ => by rw [mulf_apply, dev_rowE Y M hM p k, hM]

/-- The body's normalisation of the packed block, read at row `p`, lane `l`. -/
theorem pay5_rowE (g h : FVec Ideal S1x256 .f32) (Y : FVec Ideal S2048x256 .f32) (p : Fin 2048) (l : Fin 256) :
    k0_pay18 (F := Ideal) g h Y (k0_pay16 (iota .tc S256x256 32 [0] iota_S256x256_d0_w32) 32#32 k0_pay15) k0_pay17 (ix2 p l)
      = normalise (segMat 256 Cert.Spec.mu) Cert.Spec.eps (fun l' => g (ix2 (0 : Fin 1) l')) (fun l' => h (ix2 (0 : Fin 1) l'))
          (fun k => Y (ix2 p k)) l := by
  unfold k0_pay18
  exact norm_coreE g h Y _ segSelect_applyE p l

/-- Eight blocks of 32 lanes side by side, read at a lane of block 0. -/
theorem concat8_at0E (y0 y1 y2 y3 y4 y5 y6 y7 : FVec Ideal S2048x32 .f32) (p : Fin 2048) (l : Fin 256) (u : Fin 32)
    (hl : l.val = 0 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y0 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    0 (Nat.lt_of_sub_eq_succ rfl) S2048x32 y0 rfl rfl 0 rfl (ix2 p u)
    (fun b hb => by
      match b with
      | ⟨0, _⟩ => rfl
      | ⟨1, _⟩ => exact absurd rfl hb)
    hl.symm

/-- Eight blocks of 32 lanes side by side, read at a lane of block 1. -/
theorem concat8_at1E (y0 y1 y2 y3 y4 y5 y6 y7 : FVec Ideal S2048x32 .f32) (p : Fin 2048) (l : Fin 256) (u : Fin 32)
    (hl : l.val = 32 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y1 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    1 (Nat.lt_of_sub_eq_succ rfl) S2048x32 y1 rfl rfl 32 rfl (ix2 p u)
    (fun b hb => by
      match b with
      | ⟨0, _⟩ => rfl
      | ⟨1, _⟩ => exact absurd rfl hb)
    hl.symm

/-- Eight blocks of 32 lanes side by side, read at a lane of block 2. -/
theorem concat8_at2E (y0 y1 y2 y3 y4 y5 y6 y7 : FVec Ideal S2048x32 .f32) (p : Fin 2048) (l : Fin 256) (u : Fin 32)
    (hl : l.val = 64 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y2 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    2 (Nat.lt_of_sub_eq_succ rfl) S2048x32 y2 rfl rfl 64 rfl (ix2 p u)
    (fun b hb => by
      match b with
      | ⟨0, _⟩ => rfl
      | ⟨1, _⟩ => exact absurd rfl hb)
    hl.symm

/-- Eight blocks of 32 lanes side by side, read at a lane of block 3. -/
theorem concat8_at3E (y0 y1 y2 y3 y4 y5 y6 y7 : FVec Ideal S2048x32 .f32) (p : Fin 2048) (l : Fin 256) (u : Fin 32)
    (hl : l.val = 96 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y3 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    3 (Nat.lt_of_sub_eq_succ rfl) S2048x32 y3 rfl rfl 96 rfl (ix2 p u)
    (fun b hb => by
      match b with
      | ⟨0, _⟩ => rfl
      | ⟨1, _⟩ => exact absurd rfl hb)
    hl.symm

/-- Eight blocks of 32 lanes side by side, read at a lane of block 4. -/
theorem concat8_at4E (y0 y1 y2 y3 y4 y5 y6 y7 : FVec Ideal S2048x32 .f32) (p : Fin 2048) (l : Fin 256) (u : Fin 32)
    (hl : l.val = 128 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y4 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    4 (Nat.lt_of_sub_eq_succ rfl) S2048x32 y4 rfl rfl 128 rfl (ix2 p u)
    (fun b hb => by
      match b with
      | ⟨0, _⟩ => rfl
      | ⟨1, _⟩ => exact absurd rfl hb)
    hl.symm

/-- Eight blocks of 32 lanes side by side, read at a lane of block 5. -/
theorem concat8_at5E (y0 y1 y2 y3 y4 y5 y6 y7 : FVec Ideal S2048x32 .f32) (p : Fin 2048) (l : Fin 256) (u : Fin 32)
    (hl : l.val = 160 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y5 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    5 (Nat.lt_of_sub_eq_succ rfl) S2048x32 y5 rfl rfl 160 rfl (ix2 p u)
    (fun b hb => by
      match b with
      | ⟨0, _⟩ => rfl
      | ⟨1, _⟩ => exact absurd rfl hb)
    hl.symm

/-- Eight blocks of 32 lanes side by side, read at a lane of block 6. -/
theorem concat8_at6E (y0 y1 y2 y3 y4 y5 y6 y7 : FVec Ideal S2048x32 .f32) (p : Fin 2048) (l : Fin 256) (u : Fin 32)
    (hl : l.val = 192 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y6 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    6 (Nat.lt_of_sub_eq_succ rfl) S2048x32 y6 rfl rfl 192 rfl (ix2 p u)
    (fun b hb => by
      match b with
      | ⟨0, _⟩ => rfl
      | ⟨1, _⟩ => exact absurd rfl hb)
    hl.symm

/-- Eight blocks of 32 lanes side by side, read at a lane of block 7. -/
theorem concat8_at7E (y0 y1 y2 y3 y4 y5 y6 y7 : FVec Ideal S2048x32 .f32) (p : Fin 2048) (l : Fin 256) (u : Fin 32)
    (hl : l.val = 224 + u.val) :
    concatenate S2048x256 1 [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l) = y7 (ix2 p u) :=
  concatenate_apply_piece (t := S2048x256) (1 : Fin 2) [⟨S2048x32, y0⟩, ⟨S2048x32, y1⟩, ⟨S2048x32, y2⟩, ⟨S2048x32, y3⟩, ⟨S2048x32, y4⟩, ⟨S2048x32, y5⟩, ⟨S2048x32, y6⟩, ⟨S2048x32, y7⟩] concatenates_S2048x32_S2048x32_S2048x32_S2048x32_S2048x32_S2048x32_S2048x32_S2048x32_S2048x256_d1 (ix2 p l)
    7 (Nat.lt_of_sub_eq_succ rfl) S2048x32 y7 rfl rfl 224 rfl (ix2 p u)
    (fun b hb => by
      match b with
      | ⟨0, _⟩ => rfl
      | ⟨1, _⟩ => exact absurd rfl hb)
    hl.symm

/-- The block of 16384 rows with its eight chunks of 2048 rows laid side by side along the lanes. -/
def packedE (x : FVec Ideal S16384x32 .f32) : FVec Ideal S2048x256 .f32 :=
  concatenate S2048x256 1 [⟨S2048x32, extractStridedSlice S2048x32 ![0, 0] x slices_S16384x32_o0_0_S2048x32⟩, ⟨S2048x32, extractStridedSlice S2048x32 ![2048, 0] x slices_S16384x32_o2048_0_S2048x32⟩, ⟨S2048x32, extractStridedSlice S2048x32 ![4096, 0] x slices_S16384x32_o4096_0_S2048x32⟩, ⟨S2048x32, extractStridedSlice S2048x32 ![6144, 0] x slices_S16384x32_o6144_0_S2048x32⟩, ⟨S2048x32, extractStridedSlice S2048x32 ![8192, 0] x slices_S16384x32_o8192_0_S2048x32⟩, ⟨S2048x32, extractStridedSlice S2048x32 ![10240, 0] x slices_S16384x32_o10240_0_S2048x32⟩, ⟨S2048x32, extractStridedSlice S2048x32 ![12288, 0] x slices_S16384x32_o12288_0_S2048x32⟩, ⟨S2048x32, extractStridedSlice S2048x32 ![14336, 0] x slices_S16384x32_o14336_0_S2048x32⟩] concatenates_S2048x32_S2048x32_S2048x32_S2048x32_S2048x32_S2048x32_S2048x32_S2048x32_S2048x256_d1

/-- One affine layer of the body on the packed block, read at row `p`, lane `l`. -/
theorem layer_rowE (X : FVec Ideal S2048x256 .f32) (W : FVec Ideal S256x256 .f32) (b : FVec Ideal S1x256 .f32)
    (p : Fin 2048) (l : Fin 256) :
    addf (matmul dot_S2048x256_S256x256_S2048x256_1_0_0_1_n_n none X (shapeCast S256x256 W shapeCasts_S256x256_S256x256)
        (constant (F := Ideal) S2048x256 .f32 0x00000000#32)) (broadcastTo S2048x256 b broadcasts_S1x256_S2048x256) (ix2 p l)
      = affine (fun k l' => W (ix2 k l')) (fun l' => b (ix2 (0 : Fin 1) l')) (fun k => X (ix2 p k)) l := by
  rw [addf_apply, shapeCast_self, matmul_rowE, broadcastTo_1b_ab_apply]
  rfl

/-- The gate of the body, read at an index. -/
theorem gate_rowE (X : FVec Ideal S2048x256 .f32) (p : Fin 2048) (l : Fin 256) :
    mulf X (logistic X) (ix2 p l) = gate (fun k => X (ix2 p k)) l := rfl

/-- The three affine layers with the gate between them, on the packed block, read at row `p`, lane `l`. -/
theorem pay1_rowE (v0 : FVec Ideal S256x256 .f32) (v2 : FVec Ideal S1x256 .f32) (v3 : FVec Ideal S256x256 .f32)
    (v5 : FVec Ideal S1x256 .f32) (v6 : FVec Ideal S256x256 .f32) (v8 : FVec Ideal S1x256 .f32)
    (x : FVec Ideal S16384x32 .f32) (p : Fin 2048) (l : Fin 256) :
    k0_pay14 (F := Ideal) v0 v2 v3 v5 v6 v8 x (ix2 p l)
      = affine (fun k l' => v6 (ix2 k l')) (fun l' => v8 (ix2 (0 : Fin 1) l'))
          (gate (affine (fun k l' => v3 (ix2 k l')) (fun l' => v5 (ix2 (0 : Fin 1) l'))
            (gate (affine (fun k l' => v0 (ix2 k l')) (fun l' => v2 (ix2 (0 : Fin 1) l'))
              (fun k => packedE x (ix2 p k)))))) l := by
  unfold k0_pay14
  refine (layer_rowE _ v6 v8 p l).trans ?_
  congr 1
  funext k
  refine (gate_rowE _ p k).trans ?_
  congr 1
  funext k'
  refine (layer_rowE _ v3 v5 p k').trans ?_
  congr 1
  funext k''
  refine (gate_rowE _ p k'').trans ?_
  congr 1
  funext k'''
  exact layer_rowE (packedE x) v0 v2 p k'''

theorem packed_at0E (x : FVec Ideal S16384x32 .f32) (p : Fin 2048) (l : Fin 256) (u : Fin 32) (q : Fin 16384)
    (hl : l.val = 0 + u.val) (hq : q.val = 0 + p.val) : packedE x (ix2 p l) = x (ix2 q u) := by
  unfold packedE
  rw [concat8_at0E _ _ _ _ _ _ _ _ p l u hl]
  exact slice2_axis0_apply 0 x slices_S16384x32_o0_0_S2048x32 p u q hq

theorem packed_at1E (x : FVec Ideal S16384x32 .f32) (p : Fin 2048) (l : Fin 256) (u : Fin 32) (q : Fin 16384)
    (hl : l.val = 32 + u.val) (hq : q.val = 2048 + p.val) : packedE x (ix2 p l) = x (ix2 q u) := by
  unfold packedE
  rw [concat8_at1E _ _ _ _ _ _ _ _ p l u hl]
  exact slice2_axis0_apply 2048 x slices_S16384x32_o2048_0_S2048x32 p u q hq

theorem packed_at2E (x : FVec Ideal S16384x32 .f32) (p : Fin 2048) (l : Fin 256) (u : Fin 32) (q : Fin 16384)
    (hl : l.val = 64 + u.val) (hq : q.val = 4096 + p.val) : packedE x (ix2 p l) = x (ix2 q u) := by
  unfold packedE
  rw [concat8_at2E _ _ _ _ _ _ _ _ p l u hl]
  exact slice2_axis0_apply 4096 x slices_S16384x32_o4096_0_S2048x32 p u q hq

theorem packed_at3E (x : FVec Ideal S16384x32 .f32) (p : Fin 2048) (l : Fin 256) (u : Fin 32) (q : Fin 16384)
    (hl : l.val = 96 + u.val) (hq : q.val = 6144 + p.val) : packedE x (ix2 p l) = x (ix2 q u) := by
  unfold packedE
  rw [concat8_at3E _ _ _ _ _ _ _ _ p l u hl]
  exact slice2_axis0_apply 6144 x slices_S16384x32_o6144_0_S2048x32 p u q hq

theorem packed_at4E (x : FVec Ideal S16384x32 .f32) (p : Fin 2048) (l : Fin 256) (u : Fin 32) (q : Fin 16384)
    (hl : l.val = 128 + u.val) (hq : q.val = 8192 + p.val) : packedE x (ix2 p l) = x (ix2 q u) := by
  unfold packedE
  rw [concat8_at4E _ _ _ _ _ _ _ _ p l u hl]
  exact slice2_axis0_apply 8192 x slices_S16384x32_o8192_0_S2048x32 p u q hq

theorem packed_at5E (x : FVec Ideal S16384x32 .f32) (p : Fin 2048) (l : Fin 256) (u : Fin 32) (q : Fin 16384)
    (hl : l.val = 160 + u.val) (hq : q.val = 10240 + p.val) : packedE x (ix2 p l) = x (ix2 q u) := by
  unfold packedE
  rw [concat8_at5E _ _ _ _ _ _ _ _ p l u hl]
  exact slice2_axis0_apply 10240 x slices_S16384x32_o10240_0_S2048x32 p u q hq

theorem packed_at6E (x : FVec Ideal S16384x32 .f32) (p : Fin 2048) (l : Fin 256) (u : Fin 32) (q : Fin 16384)
    (hl : l.val = 192 + u.val) (hq : q.val = 12288 + p.val) : packedE x (ix2 p l) = x (ix2 q u) := by
  unfold packedE
  rw [concat8_at6E _ _ _ _ _ _ _ _ p l u hl]
  exact slice2_axis0_apply 12288 x slices_S16384x32_o12288_0_S2048x32 p u q hq

theorem packed_at7E (x : FVec Ideal S16384x32 .f32) (p : Fin 2048) (l : Fin 256) (u : Fin 32) (q : Fin 16384)
    (hl : l.val = 224 + u.val) (hq : q.val = 14336 + p.val) : packedE x (ix2 p l) = x (ix2 q u) := by
  unfold packedE
  rw [concat8_at7E _ _ _ _ _ _ _ _ p l u hl]
  exact slice2_axis0_apply 14336 x slices_S16384x32_o14336_0_S2048x32 p u q hq

/-- Lane `32·g + u` of packed row `p` is feature `u` of block row `2048·g + p`. -/
theorem packed_applyE (x : FVec Ideal S16384x32 .f32) (p : Fin 2048) (g : Fin 8) (u : Fin 32) (q : Fin 16384)
    (hq : q.val = 2048 * g.val + p.val) : packedE x (ix2 p (lane256 g u)) = x (ix2 q u) := by
  match g, hq with
  | ⟨0, _⟩, hq => exact packed_at0E x p _ u q rfl hq
  | ⟨1, _⟩, hq => exact packed_at1E x p _ u q rfl hq
  | ⟨2, _⟩, hq => exact packed_at2E x p _ u q rfl hq
  | ⟨3, _⟩, hq => exact packed_at3E x p _ u q rfl hq
  | ⟨4, _⟩, hq => exact packed_at4E x p _ u q rfl hq
  | ⟨5, _⟩, hq => exact packed_at5E x p _ u q rfl hq
  | ⟨6, _⟩, hq => exact packed_at6E x p _ u q rfl hq
  | ⟨7, _⟩, hq => exact packed_at7E x p _ u q rfl hq

/-- Lane group 0 cut out of the normalised block. -/
theorem pay6_applyE (g h : FVec Ideal S1x256 .f32) (Y : FVec Ideal S2048x256 .f32) (sr sc : IVec S256x256 32)
    (p : Fin 2048) (u : Fin 32) :
    k0_pay19 (F := Ideal) g h Y sr sc (ix2 p u) = k0_pay18 (F := Ideal) g h Y sr sc (ix2 p (lane256 ⟨0, by omega⟩ u)) := by
  unfold k0_pay19
  exact slice2_axis1_apply 0 _ slices_S2048x256_o0_0_S2048x32 p u (lane256 ⟨0, by omega⟩ u) rfl

/-- Lane group 1 cut out of the normalised block. -/
theorem pay7_applyE (g h : FVec Ideal S1x256 .f32) (Y : FVec Ideal S2048x256 .f32) (sr sc : IVec S256x256 32)
    (p : Fin 2048) (u : Fin 32) :
    k0_pay20 (F := Ideal) g h Y sr sc (ix2 p u) = k0_pay18 (F := Ideal) g h Y sr sc (ix2 p (lane256 ⟨1, by omega⟩ u)) := by
  unfold k0_pay20
  exact slice2_axis1_apply 32 _ slices_S2048x256_o0_32_S2048x32 p u (lane256 ⟨1, by omega⟩ u) rfl

/-- Lane group 2 cut out of the normalised block. -/
theorem pay8_applyE (g h : FVec Ideal S1x256 .f32) (Y : FVec Ideal S2048x256 .f32) (sr sc : IVec S256x256 32)
    (p : Fin 2048) (u : Fin 32) :
    k0_pay21 (F := Ideal) g h Y sr sc (ix2 p u) = k0_pay18 (F := Ideal) g h Y sr sc (ix2 p (lane256 ⟨2, by omega⟩ u)) := by
  unfold k0_pay21
  exact slice2_axis1_apply 64 _ slices_S2048x256_o0_64_S2048x32 p u (lane256 ⟨2, by omega⟩ u) rfl

/-- Lane group 3 cut out of the normalised block. -/
theorem pay9_applyE (g h : FVec Ideal S1x256 .f32) (Y : FVec Ideal S2048x256 .f32) (sr sc : IVec S256x256 32)
    (p : Fin 2048) (u : Fin 32) :
    k0_pay22 (F := Ideal) g h Y sr sc (ix2 p u) = k0_pay18 (F := Ideal) g h Y sr sc (ix2 p (lane256 ⟨3, by omega⟩ u)) := by
  unfold k0_pay22
  exact slice2_axis1_apply 96 _ slices_S2048x256_o0_96_S2048x32 p u (lane256 ⟨3, by omega⟩ u) rfl

/-- Lane group 4 cut out of the normalised block. -/
theorem pay10_applyE (g h : FVec Ideal S1x256 .f32) (Y : FVec Ideal S2048x256 .f32) (sr sc : IVec S256x256 32)
    (p : Fin 2048) (u : Fin 32) :
    k0_pay23 (F := Ideal) g h Y sr sc (ix2 p u) = k0_pay18 (F := Ideal) g h Y sr sc (ix2 p (lane256 ⟨4, by omega⟩ u)) := by
  unfold k0_pay23
  exact slice2_axis1_apply 128 _ slices_S2048x256_o0_128_S2048x32 p u (lane256 ⟨4, by omega⟩ u) rfl

/-- Lane group 5 cut out of the normalised block. -/
theorem pay11_applyE (g h : FVec Ideal S1x256 .f32) (Y : FVec Ideal S2048x256 .f32) (sr sc : IVec S256x256 32)
    (p : Fin 2048) (u : Fin 32) :
    k0_pay24 (F := Ideal) g h Y sr sc (ix2 p u) = k0_pay18 (F := Ideal) g h Y sr sc (ix2 p (lane256 ⟨5, by omega⟩ u)) := by
  unfold k0_pay24
  exact slice2_axis1_apply 160 _ slices_S2048x256_o0_160_S2048x32 p u (lane256 ⟨5, by omega⟩ u) rfl

/-- Lane group 6 cut out of the normalised block. -/
theorem pay12_applyE (g h : FVec Ideal S1x256 .f32) (Y : FVec Ideal S2048x256 .f32) (sr sc : IVec S256x256 32)
    (p : Fin 2048) (u : Fin 32) :
    k0_pay25 (F := Ideal) g h Y sr sc (ix2 p u) = k0_pay18 (F := Ideal) g h Y sr sc (ix2 p (lane256 ⟨6, by omega⟩ u)) := by
  unfold k0_pay25
  exact slice2_axis1_apply 192 _ slices_S2048x256_o0_192_S2048x32 p u (lane256 ⟨6, by omega⟩ u) rfl

/-- Lane group 7 cut out of the normalised block. -/
theorem pay13_applyE (g h : FVec Ideal S1x256 .f32) (Y : FVec Ideal S2048x256 .f32) (sr sc : IVec S256x256 32)
    (p : Fin 2048) (u : Fin 32) :
    k0_pay26 (F := Ideal) g h Y sr sc (ix2 p u) = k0_pay18 (F := Ideal) g h Y sr sc (ix2 p (lane256 ⟨7, by omega⟩ u)) := by
  unfold k0_pay26
  exact slice2_axis1_apply 224 _ slices_S2048x256_o0_224_S2048x32 p u (lane256 ⟨7, by omega⟩ u) rfl

/-- Where the store of row chunk 0 puts its local row `p`: block row `0 + p`. -/
theorem emb_piece0E (p : Fin 2048) (u : Fin 32) :
    r0_12.emb (ix2 p u) = ix2 (⟨0 + p.val, by omega⟩ : Fin 16384) u := by
  funext a
  apply Fin.ext
  rw [Rect.emb_apply]
  match a with
  | ⟨0, _⟩ => simp [ix2]
  | ⟨1, _⟩ => simp [ix2]

/-- Where the store of row chunk 1 puts its local row `p`: block row `2048 + p`. -/
theorem emb_piece1E (p : Fin 2048) (u : Fin 32) :
    r0_13.emb (ix2 p u) = ix2 (⟨2048 + p.val, by omega⟩ : Fin 16384) u := by
  funext a
  apply Fin.ext
  rw [Rect.emb_apply]
  match a with
  | ⟨0, _⟩ => simp [ix2]
  | ⟨1, _⟩ => simp [ix2]

/-- Where the store of row chunk 2 puts its local row `p`: block row `4096 + p`. -/
theorem emb_piece2E (p : Fin 2048) (u : Fin 32) :
    r0_14.emb (ix2 p u) = ix2 (⟨4096 + p.val, by omega⟩ : Fin 16384) u := by
  funext a
  apply Fin.ext
  rw [Rect.emb_apply]
  match a with
  | ⟨0, _⟩ => simp [ix2]
  | ⟨1, _⟩ => simp [ix2]

/-- Where the store of row chunk 3 puts its local row `p`: block row `6144 + p`. -/
theorem emb_piece3E (p : Fin 2048) (u : Fin 32) :
    r0_15.emb (ix2 p u) = ix2 (⟨6144 + p.val, by omega⟩ : Fin 16384) u := by
  funext a
  apply Fin.ext
  rw [Rect.emb_apply]
  match a with
  | ⟨0, _⟩ => simp [ix2]
  | ⟨1, _⟩ => simp [ix2]

/-- Where the store of row chunk 4 puts its local row `p`: block row `8192 + p`. -/
theorem emb_piece4E (p : Fin 2048) (u : Fin 32) :
    r0_16.emb (ix2 p u) = ix2 (⟨8192 + p.val, by omega⟩ : Fin 16384) u := by
  funext a
  apply Fin.ext
  rw [Rect.emb_apply]
  match a with
  | ⟨0, _⟩ => simp [ix2]
  | ⟨1, _⟩ => simp [ix2]

/-- Where the store of row chunk 5 puts its local row `p`: block row `10240 + p`. -/
theorem emb_piece5E (p : Fin 2048) (u : Fin 32) :
    r0_17.emb (ix2 p u) = ix2 (⟨10240 + p.val, by omega⟩ : Fin 16384) u := by
  funext a
  apply Fin.ext
  rw [Rect.emb_apply]
  match a with
  | ⟨0, _⟩ => simp [ix2]
  | ⟨1, _⟩ => simp [ix2]

/-- Where the store of row chunk 6 puts its local row `p`: block row `12288 + p`. -/
theorem emb_piece6E (p : Fin 2048) (u : Fin 32) :
    r0_18.emb (ix2 p u) = ix2 (⟨12288 + p.val, by omega⟩ : Fin 16384) u := by
  funext a
  apply Fin.ext
  rw [Rect.emb_apply]
  match a with
  | ⟨0, _⟩ => simp [ix2]
  | ⟨1, _⟩ => simp [ix2]

/-- Where the store of row chunk 7 puts its local row `p`: block row `14336 + p`. -/
theorem emb_piece7E (p : Fin 2048) (u : Fin 32) :
    r0_19.emb (ix2 p u) = ix2 (⟨14336 + p.val, by omega⟩ : Fin 16384) u := by
  funext a
  apply Fin.ext
  rw [Rect.emb_apply]
  match a with
  | ⟨0, _⟩ => simp [ix2]
  | ⟨1, _⟩ => simp [ix2]

section RowValueE

variable (xd : FVec Ideal S16384x32 .f32) (w1 : FVec Ideal S256x256 .f32) (b1 : FVec Ideal S1x256 .f32)
  (w2 : FVec Ideal S256x256 .f32) (b2 : FVec Ideal S1x256 .f32) (w3 : FVec Ideal S256x256 .f32)
  (b3 sc sh : FVec Ideal S1x256 .f32)
  {A1 A2 A3 : Fin 32 → Fin 32 → EReal} {c1 c2 c3 g' h' : Fin 32 → EReal}
  (h1 : BlockDiag laneEquiv256 (fun k l => w1 (ix2 k l)) A1) (k1 : Repeats laneEquiv256 (fun l => b1 (ix2 (0 : Fin 1) l)) c1)
  (h2 : BlockDiag laneEquiv256 (fun k l => w2 (ix2 k l)) A2) (k2 : Repeats laneEquiv256 (fun l => b2 (ix2 (0 : Fin 1) l)) c2)
  (h3 : BlockDiag laneEquiv256 (fun k l => w3 (ix2 k l)) A3) (k3 : Repeats laneEquiv256 (fun l => b3 (ix2 (0 : Fin 1) l)) c3)
  (hg : Repeats laneEquiv256 (fun l => sc (ix2 (0 : Fin 1) l)) g') (hh : Repeats laneEquiv256 (fun l => sh (ix2 (0 : Fin 1) l)) h')

include h1 k1 h2 k2 h3 k3 hg hh in
/-- The body's normalised result at lane `32·g + u` of packed row `p` is the 32-wide network on block row `2048·g + p`:
    the packing theorem at eight logical rows per packed row, then the packed row read back as block rows. -/
theorem row_valueE (p : Fin 2048) (g : Fin 8) (u : Fin 32) (q : Fin 16384) (hq : q.val = 2048 * g.val + p.val) :
    k0_pay18 (F := Ideal) sc sh (k0_pay14 (F := Ideal) w1 b1 w2 b2 w3 b3 xd)
        (k0_pay16 (iota .tc S256x256 32 [0] iota_S256x256_d0_w32) 32#32 k0_pay15) k0_pay17 (ix2 p (lane256 g u))
      = net A1 c1 A2 c2 A3 c3 (fun _ _ => Cert.Spec.mu) Cert.Spec.eps g' h' (fun u' => xd (ix2 q u')) u := by
  rw [pay5_rowE]
  have hY : (fun k => k0_pay14 (F := Ideal) w1 b1 w2 b2 w3 b3 xd (ix2 p k))
      = affine (fun k l' => w3 (ix2 k l')) (fun l' => b3 (ix2 (0 : Fin 1) l'))
          (gate (affine (fun k l' => w2 (ix2 k l')) (fun l' => b2 (ix2 (0 : Fin 1) l'))
            (gate (affine (fun k l' => w1 (ix2 k l')) (fun l' => b1 (ix2 (0 : Fin 1) l'))
              (fun k => packedE xd (ix2 p k)))))) := funext fun k => pay1_rowE w1 b1 w2 b2 w3 b3 xd p k
  rw [hY]
  have hnet := net_packed laneEquiv256 h1 k1 h2 k2 h3 k3 (segMat_blockDiag256 Cert.Spec.mu) hg hh Cert.Spec.eps
    (fun k => packedE xd (ix2 p k)) g u
  rw [laneEquiv256_apply] at hnet
  refine (show _ = _ from hnet).trans ?_
  congr 1
  funext u'
  exact packed_applyE xd p g u' q hq

include h1 k1 h2 k2 h3 k3 hg hh in
/-- What the store of row chunk 0 writes at its local row `p`. -/
theorem piece0_valueE (p : Fin 2048) (u : Fin 32) :
    k0_pay19 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨0 + p.val, by omega⟩ : Fin 16384) u')) u := by
  rw [pay6_applyE]
  exact row_valueE xd w1 b1 w2 b2 w3 b3 sc sh h1 k1 h2 k2 h3 k3 hg hh p ⟨0, by omega⟩ u ⟨0 + p.val, by omega⟩ rfl

include h1 k1 h2 k2 h3 k3 hg hh in
/-- What the store of row chunk 1 writes at its local row `p`. -/
theorem piece1_valueE (p : Fin 2048) (u : Fin 32) :
    k0_pay20 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨2048 + p.val, by omega⟩ : Fin 16384) u')) u := by
  rw [pay7_applyE]
  exact row_valueE xd w1 b1 w2 b2 w3 b3 sc sh h1 k1 h2 k2 h3 k3 hg hh p ⟨1, by omega⟩ u ⟨2048 + p.val, by omega⟩ rfl

include h1 k1 h2 k2 h3 k3 hg hh in
/-- What the store of row chunk 2 writes at its local row `p`. -/
theorem piece2_valueE (p : Fin 2048) (u : Fin 32) :
    k0_pay21 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨4096 + p.val, by omega⟩ : Fin 16384) u')) u := by
  rw [pay8_applyE]
  exact row_valueE xd w1 b1 w2 b2 w3 b3 sc sh h1 k1 h2 k2 h3 k3 hg hh p ⟨2, by omega⟩ u ⟨4096 + p.val, by omega⟩ rfl

include h1 k1 h2 k2 h3 k3 hg hh in
/-- What the store of row chunk 3 writes at its local row `p`. -/
theorem piece3_valueE (p : Fin 2048) (u : Fin 32) :
    k0_pay22 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨6144 + p.val, by omega⟩ : Fin 16384) u')) u := by
  rw [pay9_applyE]
  exact row_valueE xd w1 b1 w2 b2 w3 b3 sc sh h1 k1 h2 k2 h3 k3 hg hh p ⟨3, by omega⟩ u ⟨6144 + p.val, by omega⟩ rfl

include h1 k1 h2 k2 h3 k3 hg hh in
/-- What the store of row chunk 4 writes at its local row `p`. -/
theorem piece4_valueE (p : Fin 2048) (u : Fin 32) :
    k0_pay23 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨8192 + p.val, by omega⟩ : Fin 16384) u')) u := by
  rw [pay10_applyE]
  exact row_valueE xd w1 b1 w2 b2 w3 b3 sc sh h1 k1 h2 k2 h3 k3 hg hh p ⟨4, by omega⟩ u ⟨8192 + p.val, by omega⟩ rfl

include h1 k1 h2 k2 h3 k3 hg hh in
/-- What the store of row chunk 5 writes at its local row `p`. -/
theorem piece5_valueE (p : Fin 2048) (u : Fin 32) :
    k0_pay24 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨10240 + p.val, by omega⟩ : Fin 16384) u')) u := by
  rw [pay11_applyE]
  exact row_valueE xd w1 b1 w2 b2 w3 b3 sc sh h1 k1 h2 k2 h3 k3 hg hh p ⟨5, by omega⟩ u ⟨10240 + p.val, by omega⟩ rfl

include h1 k1 h2 k2 h3 k3 hg hh in
/-- What the store of row chunk 6 writes at its local row `p`. -/
theorem piece6_valueE (p : Fin 2048) (u : Fin 32) :
    k0_pay25 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨12288 + p.val, by omega⟩ : Fin 16384) u')) u := by
  rw [pay12_applyE]
  exact row_valueE xd w1 b1 w2 b2 w3 b3 sc sh h1 k1 h2 k2 h3 k3 hg hh p ⟨6, by omega⟩ u ⟨12288 + p.val, by omega⟩ rfl

include h1 k1 h2 k2 h3 k3 hg hh in
/-- What the store of row chunk 7 writes at its local row `p`. -/
theorem piece7_valueE (p : Fin 2048) (u : Fin 32) :
    k0_pay26 (F := Ideal) sc sh (k0_pay14 (F := Ideal) w1 b1 w2 b2 w3 b3 xd) (k0_pay16 (iota .tc S256x256 32 [0] iota_S256x256_d0_w32) 32#32 k0_pay15) k0_pay17 (ix2 p u)
      = net A1 c1 A2 c2 A3 c3 (fun _ _ => Cert.Spec.mu) Cert.Spec.eps g' h'
          (fun u' => xd (ix2 (⟨14336 + p.val, by omega⟩ : Fin 16384) u')) u := by
  rw [pay13_applyE]
  exact row_valueE xd w1 b1 w2 b2 w3 b3 sc sh h1 k1 h2 k2 h3 k3 hg hh p ⟨7, by omega⟩ u ⟨14336 + p.val, by omega⟩ rfl

end RowValueE

/-- Row `q` of what the body leaves in the cell output block is the 32-wide network on row `q` of the cell
    input block alone: the eight stores tile the block, and each writes, at every local row, that network's value on the
    block row it lands on. -/
theorem out18_apply (x0 : FVec Ideal S8192x32 .f32) (x1 : FVec Ideal S256x256 .f32) (x2 : FVec Ideal S1x256 .f32)
    (x3 : FVec Ideal S256x256 .f32) (x4 : FVec Ideal S1x256 .f32) (x5 : FVec Ideal S256x256 .f32) (x6 x7 x8 : FVec Ideal S1x256 .f32)
    (x9 : FVec Ideal S16384x32 .f32) (x10 : FVec Ideal S256x256 .f32) (x11 : FVec Ideal S1x256 .f32)
    (x12 : FVec Ideal S256x256 .f32) (x13 : FVec Ideal S1x256 .f32) (x14 : FVec Ideal S256x256 .f32)
    (x15 x16 x17 : FVec Ideal S1x256 .f32)
    {A1 A2 A3 : Fin 32 → Fin 32 → EReal} {c1 c2 c3 g' h' : Fin 32 → EReal}
    (h1 : BlockDiag laneEquiv256 (fun k l => x1 (ix2 k l)) A1) (k1 : Repeats laneEquiv256 (fun l => x2 (ix2 (0 : Fin 1) l)) c1)
    (h2 : BlockDiag laneEquiv256 (fun k l => x3 (ix2 k l)) A2) (k2 : Repeats laneEquiv256 (fun l => x4 (ix2 (0 : Fin 1) l)) c2)
    (h3 : BlockDiag laneEquiv256 (fun k l => x5 (ix2 k l)) A3) (k3 : Repeats laneEquiv256 (fun l => x6 (ix2 (0 : Fin 1) l)) c3)
    (hg : Repeats laneEquiv256 (fun l => x7 (ix2 (0 : Fin 1) l)) g') (hh : Repeats laneEquiv256 (fun l => x8 (ix2 (0 : Fin 1) l)) h')
    (q : Fin 8192) (f : Fin 32) :
    out0_18 (F := Ideal) x0 x1 x2 x3 x4 x5 x6 x7 x8 x9 x10 x11 x12 x13 x14 x15 x16 x17 (ix2 q f)
      = net A1 c1 A2 c2 A3 c3 (fun _ _ => Cert.Spec.mu) Cert.Spec.eps g' h' (fun u => x0 (ix2 q u)) f := by
  have hz2 : (![0, 0] : Fin 2 → ℕ) = fun _ => 0 := by funext a; fin_cases a <;> rfl
  unfold out0_18
  simp only [View.ld_unit_zero (S := S256x256) hz2, View.ld_unit_zero (S := S1x256) hz2, View.ld_unit_zero (S := S8192x32) hz2]
  refine View.canon_apply_of_pieces (Val := Elt Ideal)
    (fun y : S8192x32.Idx => net A1 c1 A2 c2 A3 c3 (fun _ _ => Cert.Spec.mu) Cert.Spec.eps g' h' (fun u => x0 (ix2 (y 0) u)) (y 1))
    _ (fun pc hpc y => ?_) (ix2 q f) (cover0_18 _ _ _ _ _ _ _ _ (ix2 q f))
  simp only [List.mem_cons, List.not_mem_nil, or_false] at hpc
  rcases hpc with rfl | rfl | rfl | rfl | rfl | rfl | rfl | rfl
  · obtain ⟨p, u, rfl⟩ : ∃ (p : Fin 1024) (u : Fin 32), y = ix2 p u := ⟨y 0, y 1, eq_ix2 y⟩
    rw [emb_piece7 p u]
    exact piece7_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece6 p u]
    exact piece6_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece5 p u]
    exact piece5_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece4 p u]
    exact piece4_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece3 p u]
    exact piece3_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece2 p u]
    exact piece2_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece1 p u]
    exact piece1_value x0 x1 x2 x3 x4 x5 x6 x7 x8 h1 k1 h2 k2 h3 k3 hg hh p u
  · obtain ⟨p, u, rfl⟩ : ∃ (p : Fin 1024) (u : Fin 32), y = ix2 p u := ⟨y 0, y 1, eq_ix2 y⟩
    rw [emb_piece0 p u]
    exact piece0_value x0 x1 x2 x3 x4 x5 x6 x7 x8 h1 k1 h2 k2 h3 k3 hg hh p u

/-- Row `q` of what the body leaves in the edge output block is the 32-wide network on row `q` of the edge
    input block alone: the eight stores tile the block, and each writes, at every local row, that network's value on the
    block row it lands on. -/
theorem out19_apply (x0 : FVec Ideal S8192x32 .f32) (x1 : FVec Ideal S256x256 .f32) (x2 : FVec Ideal S1x256 .f32)
    (x3 : FVec Ideal S256x256 .f32) (x4 : FVec Ideal S1x256 .f32) (x5 : FVec Ideal S256x256 .f32) (x6 x7 x8 : FVec Ideal S1x256 .f32)
    (x9 : FVec Ideal S16384x32 .f32) (x10 : FVec Ideal S256x256 .f32) (x11 : FVec Ideal S1x256 .f32)
    (x12 : FVec Ideal S256x256 .f32) (x13 : FVec Ideal S1x256 .f32) (x14 : FVec Ideal S256x256 .f32)
    (x15 x16 x17 : FVec Ideal S1x256 .f32)
    {A1 A2 A3 : Fin 32 → Fin 32 → EReal} {c1 c2 c3 g' h' : Fin 32 → EReal}
    (h1 : BlockDiag laneEquiv256 (fun k l => x10 (ix2 k l)) A1) (k1 : Repeats laneEquiv256 (fun l => x11 (ix2 (0 : Fin 1) l)) c1)
    (h2 : BlockDiag laneEquiv256 (fun k l => x12 (ix2 k l)) A2) (k2 : Repeats laneEquiv256 (fun l => x13 (ix2 (0 : Fin 1) l)) c2)
    (h3 : BlockDiag laneEquiv256 (fun k l => x14 (ix2 k l)) A3) (k3 : Repeats laneEquiv256 (fun l => x15 (ix2 (0 : Fin 1) l)) c3)
    (hg : Repeats laneEquiv256 (fun l => x16 (ix2 (0 : Fin 1) l)) g') (hh : Repeats laneEquiv256 (fun l => x17 (ix2 (0 : Fin 1) l)) h')
    (q : Fin 16384) (f : Fin 32) :
    out0_19 (F := Ideal) x0 x1 x2 x3 x4 x5 x6 x7 x8 x9 x10 x11 x12 x13 x14 x15 x16 x17 (ix2 q f)
      = net A1 c1 A2 c2 A3 c3 (fun _ _ => Cert.Spec.mu) Cert.Spec.eps g' h' (fun u => x9 (ix2 q u)) f := by
  have hz2 : (![0, 0] : Fin 2 → ℕ) = fun _ => 0 := by funext a; fin_cases a <;> rfl
  unfold out0_19
  simp only [View.ld_unit_zero (S := S256x256) hz2, View.ld_unit_zero (S := S1x256) hz2, View.ld_unit_zero (S := S16384x32) hz2]
  refine View.canon_apply_of_pieces (Val := Elt Ideal)
    (fun y : S16384x32.Idx => net A1 c1 A2 c2 A3 c3 (fun _ _ => Cert.Spec.mu) Cert.Spec.eps g' h' (fun u => x9 (ix2 (y 0) u)) (y 1))
    _ (fun pc hpc y => ?_) (ix2 q f) (cover0_19 _ _ _ _ _ _ _ _ (ix2 q f))
  simp only [List.mem_cons, List.not_mem_nil, or_false] at hpc
  rcases hpc with rfl | rfl | rfl | rfl | rfl | rfl | rfl | rfl
  · obtain ⟨p, u, rfl⟩ : ∃ (p : Fin 2048) (u : Fin 32), y = ix2 p u := ⟨y 0, y 1, eq_ix2 y⟩
    rw [emb_piece7E p u]
    exact piece7_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece6E p u]
    exact piece6_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece5E p u]
    exact piece5_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece4E p u]
    exact piece4_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece3E p u]
    exact piece3_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece2E p u]
    exact piece2_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece1E p u]
    exact piece1_valueE x9 x10 x11 x12 x13 x14 x15 x16 x17 h1 k1 h2 k2 h3 k3 hg hh p u
  · obtain ⟨p, u, rfl⟩ : ∃ (p : Fin 2048) (u : Fin 32), y = ix2 p u := ⟨y 0, y 1, eq_ix2 y⟩
    rw [emb_piece0E p u]
    exact piece0_valueE x9 x10 x11 x12 x13 x14 x15 x16 x17 h1 k1 h2 k2 h3 k3 hg hh p u

end Cert.KernelIdeal.Payload

end
-- ==== Proof.KernelValue.lean ====
/-
  From what each grid point writes to the kernel's two whole result arrays.

  The kernel's region runs over 32 grid points. Point t stages rows 8192·t … 8192·t + 8191 of the cell rows and rows
  16384·t … 16384·t + 16383 of the edge rows, together with the sixteen widened parameter arrays whole (their index
  maps are constant), and writes back the same row ranges of the two results. Row q of a block's result is the
  32-feature encoder applied to row q of the block's input alone — eight logical rows travel side by side in one packed
  row of 256 lanes, and the widened weights being block diagonal with equal blocks and the widened vectors periodic,
  the logical rows do not mix. So what point t writes back is block t of ONE function of the launched arrays, the
  encoder applied to every row; the 32 blocks tile each result (row R lies in the block of point R / 8192, resp.
  R / 16384), and each result array therefore ends holding that function everywhere.

  The steps: the printed index maps decided once over the grid; each parameter window's block is its whole array; a
  block entry of the result, over variables, is the encoder on the matching row; what a point writes back, at a
  symbolic point; membership in a block as coordinate ranges; the cover by arithmetic; the whole-array statement; and
  the run re-posted with its two results named.
-/
import proofs.«161702_g2000305235446769_pallaspilot1_107_16_alg».proof.Proof.Gen.KernelIdeal.Value
import proofs.«161702_g2000305235446769_pallaspilot1_107_16_alg».proof.Proof.Packing
import proofs.«161702_g2000305235446769_pallaspilot1_107_16_alg».proof.Proof.RowNet
import proofs.«161702_g2000305235446769_pallaspilot1_107_16_alg».proof.Proof.Lanes
import proofs.«161702_g2000305235446769_pallaspilot1_107_16_alg».proof.Proof.Spec
import proofs.«161702_g2000305235446769_pallaspilot1_107_16_alg».proof.Proof.KernelHost
import proofs.«161702_g2000305235446769_pallaspilot1_107_16_alg».proof.Proof.KernelPayload

set_option maxRecDepth 16384

noncomputable section

namespace Cert.KernelIdeal.FinalValue

open Cert.KernelIdeal Cert.KernelIdeal.Gen Cert.Packing Cert.RowNet Cert.Lanes
open Idealize.ShloMosaic Idealize.ShloMosaic.ValueIdx Idealize.ShloMosaic.TcCoe Idealize.SL.Sem
open Idealize.ShloMosaic.Pipeline (Dat)

/-! ## One row of a block's result -/

/-- Row `y 0` of the first result block is the encoder on row `y 0` of the block's input; when that input row is row
    `i 0` of an array `X` and the feature coordinates agree, the block's entry at `y` is the encoder on the rows of `X`
    at `i`. -/
theorem rows18 (w1 : FVec Ideal (⟨2, ![128, 128]⟩ : Shape) .f32) (b1 : FVec Ideal (⟨2, ![1, 128]⟩ : Shape) .f32) (w2 : FVec Ideal (⟨2, ![128, 128]⟩ : Shape) .f32) (b2 : FVec Ideal (⟨2, ![1, 128]⟩ : Shape) .f32) (w3 : FVec Ideal (⟨2, ![128, 128]⟩ : Shape) .f32) (b3 : FVec Ideal (⟨2, ![1, 128]⟩ : Shape) .f32) (g h : FVec Ideal (⟨2, ![1, 128]⟩ : Shape) .f32)
    (X : FVec Ideal S262144x32 .f32) (x0 : FVec Ideal S8192x32 .f32) (x1 : FVec Ideal S256x256 .f32) (x2 : FVec Ideal S1x256 .f32) (x3 : FVec Ideal S256x256 .f32) (x4 : FVec Ideal S1x256 .f32) (x5 : FVec Ideal S256x256 .f32) (x6 x7 x8 : FVec Ideal S1x256 .f32) (x9 : FVec Ideal S16384x32 .f32) (x10 : FVec Ideal S256x256 .f32) (x11 : FVec Ideal S1x256 .f32) (x12 : FVec Ideal S256x256 .f32) (x13 : FVec Ideal S1x256 .f32) (x14 : FVec Ideal S256x256 .f32) (x15 x16 x17 : FVec Ideal S1x256 .f32)
    (h1 : BlockDiag laneEquiv256 (fun k l => x1 (ix2 k l)) (Cert.Spec.blk w1)) (k1 : Repeats laneEquiv256 (fun l => x2 (ix2 (0 : Fin 1) l)) (Cert.Spec.head b1))
    (h2 : BlockDiag laneEquiv256 (fun k l => x3 (ix2 k l)) (Cert.Spec.blk w2)) (k2 : Repeats laneEquiv256 (fun l => x4 (ix2 (0 : Fin 1) l)) (Cert.Spec.head b2))
    (h3 : BlockDiag laneEquiv256 (fun k l => x5 (ix2 k l)) (Cert.Spec.blk w3)) (k3 : Repeats laneEquiv256 (fun l => x6 (ix2 (0 : Fin 1) l)) (Cert.Spec.head b3))
    (hg : Repeats laneEquiv256 (fun l => x7 (ix2 (0 : Fin 1) l)) (Cert.Spec.head g)) (hh : Repeats laneEquiv256 (fun l => x8 (ix2 (0 : Fin 1) l)) (Cert.Spec.head h))
    (y : S8192x32.Idx) (i : S262144x32.Idx) (hrow : ∀ u : Fin 32, x0 (ix2 (y 0) u) = X (ix2 (i 0) u)) (hcol : (i 1).val = (y 1).val) :
    out0_18 (F := Ideal) x0 x1 x2 x3 x4 x5 x6 x7 x8 x9 x10 x11 x12 x13 x14 x15 x16 x17 y = Cert.Spec.encRows w1 b1 w2 b2 w3 b3 g h X i := by
  have hi1 : (y 1 : Fin 32) = i 1 := Fin.ext hcol.symm
  refine (congrArg (out0_18 (F := Ideal) x0 x1 x2 x3 x4 x5 x6 x7 x8 x9 x10 x11 x12 x13 x14 x15 x16 x17) (eq_ix2 y)).trans ?_
  refine (Payload.out18_apply x0 x1 x2 x3 x4 x5 x6 x7 x8 x9 x10 x11 x12 x13 x14 x15 x16 x17 h1 k1 h2 k2 h3 k3 hg hh (y 0) (y 1)).trans ?_
  refine (congrArg₂ (net (Cert.Spec.blk w1) (Cert.Spec.head b1) (Cert.Spec.blk w2) (Cert.Spec.head b2) (Cert.Spec.blk w3) (Cert.Spec.head b3) (fun _ _ => Cert.Spec.mu) Cert.Spec.eps (Cert.Spec.head g) (Cert.Spec.head h)) (funext hrow) hi1).trans ?_
  rfl

/-- The same for the second result block, 16384 rows at a time. -/
theorem rows19 (w1 : FVec Ideal (⟨2, ![128, 128]⟩ : Shape) .f32) (b1 : FVec Ideal (⟨2, ![1, 128]⟩ : Shape) .f32) (w2 : FVec Ideal (⟨2, ![128, 128]⟩ : Shape) .f32) (b2 : FVec Ideal (⟨2, ![1, 128]⟩ : Shape) .f32) (w3 : FVec Ideal (⟨2, ![128, 128]⟩ : Shape) .f32) (b3 : FVec Ideal (⟨2, ![1, 128]⟩ : Shape) .f32) (g h : FVec Ideal (⟨2, ![1, 128]⟩ : Shape) .f32)
    (X : FVec Ideal S524288x32 .f32) (x0 : FVec Ideal S8192x32 .f32) (x1 : FVec Ideal S256x256 .f32) (x2 : FVec Ideal S1x256 .f32) (x3 : FVec Ideal S256x256 .f32) (x4 : FVec Ideal S1x256 .f32) (x5 : FVec Ideal S256x256 .f32) (x6 x7 x8 : FVec Ideal S1x256 .f32) (x9 : FVec Ideal S16384x32 .f32) (x10 : FVec Ideal S256x256 .f32) (x11 : FVec Ideal S1x256 .f32) (x12 : FVec Ideal S256x256 .f32) (x13 : FVec Ideal S1x256 .f32) (x14 : FVec Ideal S256x256 .f32) (x15 x16 x17 : FVec Ideal S1x256 .f32)
    (h1 : BlockDiag laneEquiv256 (fun k l => x10 (ix2 k l)) (Cert.Spec.blk w1)) (k1 : Repeats laneEquiv256 (fun l => x11 (ix2 (0 : Fin 1) l)) (Cert.Spec.head b1))
    (h2 : BlockDiag laneEquiv256 (fun k l => x12 (ix2 k l)) (Cert.Spec.blk w2)) (k2 : Repeats laneEquiv256 (fun l => x13 (ix2 (0 : Fin 1) l)) (Cert.Spec.head b2))
    (h3 : BlockDiag laneEquiv256 (fun k l => x14 (ix2 k l)) (Cert.Spec.blk w3)) (k3 : Repeats laneEquiv256 (fun l => x15 (ix2 (0 : Fin 1) l)) (Cert.Spec.head b3))
    (hg : Repeats laneEquiv256 (fun l => x16 (ix2 (0 : Fin 1) l)) (Cert.Spec.head g)) (hh : Repeats laneEquiv256 (fun l => x17 (ix2 (0 : Fin 1) l)) (Cert.Spec.head h))
    (y : S16384x32.Idx) (i : S524288x32.Idx) (hrow : ∀ u : Fin 32, x9 (ix2 (y 0) u) = X (ix2 (i 0) u)) (hcol : (i 1).val = (y 1).val) :
    out0_19 (F := Ideal) x0 x1 x2 x3 x4 x5 x6 x7 x8 x9 x10 x11 x12 x13 x14 x15 x16 x17 y = Cert.Spec.encRows w1 b1 w2 b2 w3 b3 g h X i := by
  have hi1 : (y 1 : Fin 32) = i 1 := Fin.ext hcol.symm
  refine (congrArg (out0_19 (F := Ideal) x0 x1 x2 x3 x4 x5 x6 x7 x8 x9 x10 x11 x12 x13 x14 x15 x16 x17) (eq_ix2 y)).trans ?_
  refine (Payload.out19_apply x0 x1 x2 x3 x4 x5 x6 x7 x8 x9 x10 x11 x12 x13 x14 x15 x16 x17 h1 k1 h2 k2 h3 k3 hg hh (y 0) (y 1)).trans ?_
  refine (congrArg₂ (net (Cert.Spec.blk w1) (Cert.Spec.head b1) (Cert.Spec.blk w2) (Cert.Spec.head b2) (Cert.Spec.blk w3) (Cert.Spec.head b3) (fun _ _ => Cert.Spec.mu) Cert.Spec.eps (Cert.Spec.head g) (Cert.Spec.head h)) (funext hrow) hi1).trans ?_
  rfl

/-! ## The printed index maps, decided over the grid -/

variable (m : (ℓ : Loc nD τ sig) → Buf (Elt Ideal) ℓ) (ρ : Dev nD → PrngReg)

/-- The row windows move with the point: block `t` of the rows, the whole 32 features. -/
theorem idx_rows : ∀ t : Fin cfg0.N,
    win0_0.index t (0 : Fin 2) = t.val ∧ win0_0.index t (1 : Fin 2) = 0
    ∧ win0_18.index t (0 : Fin 2) = t.val ∧ win0_18.index t (1 : Fin 2) = 0
    ∧ win0_9.index t (0 : Fin 2) = t.val ∧ win0_9.index t (1 : Fin 2) = 0
    ∧ win0_19.index t (0 : Fin 2) = t.val ∧ win0_19.index t (1 : Fin 2) = 0 :=
  (by decide +kernel : ∀ t : Fin grid0.N, _)

/-- The parameter windows stay at block (0, 0). -/
theorem idx_const1 : ∀ t : Fin cfg0.N, win0_1.index t (0 : Fin 2) = 0 ∧ win0_1.index t (1 : Fin 2) = 0 :=
  (by decide +kernel : ∀ t : Fin grid0.N, _)
theorem idx_const2 : ∀ t : Fin cfg0.N, win0_2.index t (0 : Fin 2) = 0 ∧ win0_2.index t (1 : Fin 2) = 0 :=
  (by decide +kernel : ∀ t : Fin grid0.N, _)
theorem idx_const3 : ∀ t : Fin cfg0.N, win0_3.index t (0 : Fin 2) = 0 ∧ win0_3.index t (1 : Fin 2) = 0 :=
  (by decide +kernel : ∀ t : Fin grid0.N, _)
theorem idx_const4 : ∀ t : Fin cfg0.N, win0_4.index t (0 : Fin 2) = 0 ∧ win0_4.index t (1 : Fin 2) = 0 :=
  (by decide +kernel : ∀ t : Fin grid0.N, _)
theorem idx_const5 : ∀ t : Fin cfg0.N, win0_5.index t (0 : Fin 2) = 0 ∧ win0_5.index t (1 : Fin 2) = 0 :=
  (by decide +kernel : ∀ t : Fin grid0.N, _)
theorem idx_const6 : ∀ t : Fin cfg0.N, win0_6.index t (0 : Fin 2) = 0 ∧ win0_6.index t (1 : Fin 2) = 0 :=
  (by decide +kernel : ∀ t : Fin grid0.N, _)
theorem idx_const7 : ∀ t : Fin cfg0.N, win0_7.index t (0 : Fin 2) = 0 ∧ win0_7.index t (1 : Fin 2) = 0 :=
  (by decide +kernel : ∀ t : Fin grid0.N, _)
theorem idx_const8 : ∀ t : Fin cfg0.N, win0_8.index t (0 : Fin 2) = 0 ∧ win0_8.index t (1 : Fin 2) = 0 :=
  (by decide +kernel : ∀ t : Fin grid0.N, _)
theorem idx_const10 : ∀ t : Fin cfg0.N, win0_10.index t (0 : Fin 2) = 0 ∧ win0_10.index t (1 : Fin 2) = 0 :=
  (by decide +kernel : ∀ t : Fin grid0.N, _)
theorem idx_const11 : ∀ t : Fin cfg0.N, win0_11.index t (0 : Fin 2) = 0 ∧ win0_11.index t (1 : Fin 2) = 0 :=
  (by decide +kernel : ∀ t : Fin grid0.N, _)
theorem idx_const12 : ∀ t : Fin cfg0.N, win0_12.index t (0 : Fin 2) = 0 ∧ win0_12.index t (1 : Fin 2) = 0 :=
  (by decide +kernel : ∀ t : Fin grid0.N, _)
theorem idx_const13 : ∀ t : Fin cfg0.N, win0_13.index t (0 : Fin 2) = 0 ∧ win0_13.index t (1 : Fin 2) = 0 :=
  (by decide +kernel : ∀ t : Fin grid0.N, _)
theorem idx_const14 : ∀ t : Fin cfg0.N, win0_14.index t (0 : Fin 2) = 0 ∧ win0_14.index t (1 : Fin 2) = 0 :=
  (by decide +kernel : ∀ t : Fin grid0.N, _)
theorem idx_const15 : ∀ t : Fin cfg0.N, win0_15.index t (0 : Fin 2) = 0 ∧ win0_15.index t (1 : Fin 2) = 0 :=
  (by decide +kernel : ∀ t : Fin grid0.N, _)
theorem idx_const16 : ∀ t : Fin cfg0.N, win0_16.index t (0 : Fin 2) = 0 ∧ win0_16.index t (1 : Fin 2) = 0 :=
  (by decide +kernel : ∀ t : Fin grid0.N, _)
theorem idx_const17 : ∀ t : Fin cfg0.N, win0_17.index t (0 : Fin 2) = 0 ∧ win0_17.index t (1 : Fin 2) = 0 :=
  (by decide +kernel : ∀ t : Fin grid0.N, _)

/-! ## The parameter windows' blocks are their whole arrays -/

/-- Window 1 stages its whole 256×256 array at every point. -/
theorem whole1 (c : Dev nD) (t : Fin cfg0.N) (k l : Fin 256) : iblk m c 1 t (ix2 k l) = V m c main_call0_v6 (ix2 k l) := by
  obtain ⟨e0, e1⟩ := idx_const1 t
  show V m c main_call0_v6 (((cfg0.win 1).blk t).view.emb (ix2 k l)) = _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * l.val = l.val; omega

/-- Window 2 stages its whole 1×256 array at every point. -/
theorem whole2 (c : Dev nD) (t : Fin cfg0.N) (l : Fin 256) : iblk m c 2 t (ix2 (0 : Fin 1) l) = V m c main_call0_v23 (ix2 (0 : Fin 1) l) := by
  obtain ⟨e0, e1⟩ := idx_const2 t
  show V m c main_call0_v23 (((cfg0.win 2).blk t).view.emb (ix2 (0 : Fin 1) l)) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * l.val = l.val; omega

/-- Window 3 stages its whole 256×256 array at every point. -/
theorem whole3 (c : Dev nD) (t : Fin cfg0.N) (k l : Fin 256) : iblk m c 3 t (ix2 k l) = V m c main_call0_v13 (ix2 k l) := by
  obtain ⟨e0, e1⟩ := idx_const3 t
  show V m c main_call0_v13 (((cfg0.win 3).blk t).view.emb (ix2 k l)) = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * l.val = l.val; omega

/-- Window 4 stages its whole 1×256 array at every point. -/
theorem whole4 (c : Dev nD) (t : Fin cfg0.N) (l : Fin 256) : iblk m c 4 t (ix2 (0 : Fin 1) l) = V m c main_call0_v26 (ix2 (0 : Fin 1) l) := by
  obtain ⟨e0, e1⟩ := idx_const4 t
  show V m c main_call0_v26 (((cfg0.win 4).blk t).view.emb (ix2 (0 : Fin 1) l)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * l.val = l.val; omega

/-- Window 5 stages its whole 256×256 array at every point. -/
theorem whole5 (c : Dev nD) (t : Fin cfg0.N) (k l : Fin 256) : iblk m c 5 t (ix2 k l) = V m c main_call0_v20 (ix2 k l) := by
  obtain ⟨e0, e1⟩ := idx_const5 t
  show V m c main_call0_v20 (((cfg0.win 5).blk t).view.emb (ix2 k l)) = _
  refine congrArg _ (funext fun a => Fin.ext ?_)
  match a with
  | ⟨0, _⟩ => show win0_5.index t (0 : Fin 2) * 256 + 1 * k.val = k.val; omega
  | ⟨1, _⟩ => show win0_5.index t (1 : Fin 2) * 256 + 1 * l.val = l.val; omega

/-- Window 6 stages its whole 1×256 array at every point. -/
theorem whole6 (c : Dev nD) (t : Fin cfg0.N) (l : Fin 256) : iblk m c 6 t (ix2 (0 : Fin 1) l) = V m c main_call0_v29 (ix2 (0 : Fin 1) l) := by
  obtain ⟨e0, e1⟩ := idx_const6 t
  show V m c main_call0_v29 (((cfg0.win 6).blk t).view.emb (ix2 (0 : Fin 1) l)) = _
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * l.val = l.val; omega

/-- Window 7 stages its whole 1×256 array at every point. -/
theorem whole7 (c : Dev nD) (t : Fin cfg0.N) (l : Fin 256) : iblk m c 7 t (ix2 (0 : Fin 1) l) = V m c main_call0_v32 (ix2 (0 : Fin 1) l) := by
  obtain ⟨e0, e1⟩ := idx_const7 t
  show V m c main_call0_v32 (((cfg0.win 7).blk t).view.emb (ix2 (0 : Fin 1) l)) = _
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * l.val = l.val; omega

/-- Window 8 stages its whole 1×256 array at every point. -/
theorem whole8 (c : Dev nD) (t : Fin cfg0.N) (l : Fin 256) : iblk m c 8 t (ix2 (0 : Fin 1) l) = V m c main_call0_v35 (ix2 (0 : Fin 1) l) := by
  obtain ⟨e0, e1⟩ := idx_const8 t
  show V m c main_call0_v35 (((cfg0.win 8).blk t).view.emb (ix2 (0 : Fin 1) l)) = _
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * l.val = l.val; omega

/-- Window 10 stages its whole 256×256 array at every point. -/
theorem whole10 (c : Dev nD) (t : Fin cfg0.N) (k l : Fin 256) : iblk m c 10 t (ix2 k l) = V m c main_call0_v42 (ix2 k l) := by
  obtain ⟨e0, e1⟩ := idx_const10 t
  show V m c main_call0_v42 (((cfg0.win 10).blk t).view.emb (ix2 k l)) = _
  refine congrArg _ (funext fun a => Fin.ext ?_)
  match a with
  | ⟨0, _⟩ => show win0_10.index t (0 : Fin 2) * 256 + 1 * k.val = k.val; omega
  | ⟨1, _⟩ => show win0_10.index t (1 : Fin 2) * 256 + 1 * l.val = l.val; omega

/-- Window 11 stages its whole 1×256 array at every point. -/
theorem whole11 (c : Dev nD) (t : Fin cfg0.N) (l : Fin 256) : iblk m c 11 t (ix2 (0 : Fin 1) l) = V m c main_call0_v59 (ix2 (0 : Fin 1) l) := by
  obtain ⟨e0, e1⟩ := idx_const11 t
  show V m c main_call0_v59 (((cfg0.win 11).blk t).view.emb (ix2 (0 : Fin 1) l)) = _
  refine congrArg _ (funext fun a => Fin.ext ?_)
  match a with
  | ⟨0, _⟩ => show win0_11.index t (0 : Fin 2) * 1 + 1 * 0 = 0; omega
  | ⟨1, _⟩ => show win0_11.index t (1 : Fin 2) * 256 + 1 * l.val = l.val; omega

/-- Window 12 stages its whole 256×256 array at every point. -/
theorem whole12 (c : Dev nD) (t : Fin cfg0.N) (k l : Fin 256) : iblk m c 12 t (ix2 k l) = V m c main_call0_v49 (ix2 k l) := by
  obtain ⟨e0, e1⟩ := idx_const12 t
  show V m c main_call0_v49 (((cfg0.win 12).blk t).view.emb (ix2 k l)) = _
  refine congrArg _ (funext fun a => Fin.ext ?_)
  match a with
  | ⟨0, _⟩ => show win0_12.index t (0 : Fin 2) * 256 + 1 * k.val = k.val; omega
  | ⟨1, _⟩ => show win0_12.index t (1 : Fin 2) * 256 + 1 * l.val = l.val; omega

/-- Window 13 stages its whole 1×256 array at every point. -/
theorem whole13 (c : Dev nD) (t : Fin cfg0.N) (l : Fin 256) : iblk m c 13 t (ix2 (0 : Fin 1) l) = V m c main_call0_v62 (ix2 (0 : Fin 1) l) := by
  obtain ⟨e0, e1⟩ := idx_const13 t
  show V m c main_call0_v62 (((cfg0.win 13).blk t).view.emb (ix2 (0 : Fin 1) l)) = _
  refine congrArg _ (funext fun a => Fin.ext ?_)
  match a with
  | ⟨0, _⟩ => show win0_13.index t (0 : Fin 2) * 1 + 1 * 0 = 0; omega
  | ⟨1, _⟩ => show win0_13.index t (1 : Fin 2) * 256 + 1 * l.val = l.val; omega

/-- Window 14 stages its whole 256×256 array at every point. -/
theorem whole14 (c : Dev nD) (t : Fin cfg0.N) (k l : Fin 256) : iblk m c 14 t (ix2 k l) = V m c main_call0_v56 (ix2 k l) := by
  obtain ⟨e0, e1⟩ := idx_const14 t
  show V m c main_call0_v56 (((cfg0.win 14).blk t).view.emb (ix2 k l)) = _
  refine congrArg _ (funext fun a => Fin.ext ?_)
  match a with
  | ⟨0, _⟩ => show win0_14.index t (0 : Fin 2) * 256 + 1 * k.val = k.val; omega
  | ⟨1, _⟩ => show win0_14.index t (1 : Fin 2) * 256 + 1 * l.val = l.val; omega

/-- Window 15 stages its whole 1×256 array at every point. -/
theorem whole15 (c : Dev nD) (t : Fin cfg0.N) (l : Fin 256) : iblk m c 15 t (ix2 (0 : Fin 1) l) = V m c main_call0_v65 (ix2 (0 : Fin 1) l) := by
  obtain ⟨e0, e1⟩ := idx_const15 t
  show V m c main_call0_v65 (((cfg0.win 15).blk t).view.emb (ix2 (0 : Fin 1) l)) = _
  refine congrArg _ (funext fun a => Fin.ext ?_)
  match a with
  | ⟨0, _⟩ => show win0_15.index t (0 : Fin 2) * 1 + 1 * 0 = 0; omega
  | ⟨1, _⟩ => show win0_15.index t (1 : Fin 2) * 256 + 1 * l.val = l.val; omega

/-- Window 16 stages its whole 1×256 array at every point. -/
theorem whole16 (c : Dev nD) (t : Fin cfg0.N) (l : Fin 256) : iblk m c 16 t (ix2 (0 : Fin 1) l) = V m c main_call0_v68 (ix2 (0 : Fin 1) l) := by
  obtain ⟨e0, e1⟩ := idx_const16 t
  show V m c main_call0_v68 (((cfg0.win 16).blk t).view.emb (ix2 (0 : Fin 1) l)) = _
  refine congrArg _ (funext fun a => Fin.ext ?_)
  match a with
  | ⟨0, _⟩ => show win0_16.index t (0 : Fin 2) * 1 + 1 * 0 = 0; omega
  | ⟨1, _⟩ => show win0_16.index t (1 : Fin 2) * 256 + 1 * l.val = l.val; omega

/-- Window 17 stages its whole 1×256 array at every point. -/
theorem whole17 (c : Dev nD) (t : Fin cfg0.N) (l : Fin 256) : iblk m c 17 t (ix2 (0 : Fin 1) l) = V m c main_call0_v71 (ix2 (0 : Fin 1) l) := by
  obtain ⟨e0, e1⟩ := idx_const17 t
  show V m c main_call0_v71 (((cfg0.win 17).blk t).view.emb (ix2 (0 : Fin 1) l)) = _
  refine congrArg _ (funext fun a => Fin.ext ?_)
  match a with
  | ⟨0, _⟩ => show win0_17.index t (0 : Fin 2) * 1 + 1 * 0 = 0; omega
  | ⟨1, _⟩ => show win0_17.index t (1 : Fin 2) * 256 + 1 * l.val = l.val; omega

/-! ## The cell result -/

/-- What point `t` writes back to the cell result is block `t` of the encoder applied to every cell row. -/
theorem flushed18_eq (c : Dev nD) (t : Fin cfg0.N)
    (hw1 : PackedW (m ((c.tc : Thread nD τ).loc main_arg3))) (hb1 : TiledV (m ((c.tc : Thread nD τ).loc main_arg4))) (hw2 : PackedW (m ((c.tc : Thread nD τ).loc main_arg5))) (hb2 : TiledV (m ((c.tc : Thread nD τ).loc main_arg6)))
    (hw3 : PackedW (m ((c.tc : Thread nD τ).loc main_arg7))) (hb3 : TiledV (m ((c.tc : Thread nD τ).loc main_arg8))) (hg : TiledV (m ((c.tc : Thread nD τ).loc main_arg9))) (hh : TiledV (m ((c.tc : Thread nD τ).loc main_arg10))) :
    (dats m 0 c).flushed 18 t = ((cfg0.win 18).blk t).view.read (Elt Ideal)
      (Cert.Spec.encRows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0))) := by
  rw [Value.flushed18]
  obtain ⟨e0, e1, e2, e3, -, -, -, -⟩ := idx_rows t
  funext y
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = Cert.Spec.encRows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) (((cfg0.win 18).blk t).view.emb y)
  refine rows18 (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (fun a b u v => (whole1 m c t _ _).trans (HostValue.wide_cw1 m c hw1 a b u v))
    (fun a u => (whole2 m c t _).trans (HostValue.wide_cb1 m c hb1 a u))
    (fun a b u v => (whole3 m c t _ _).trans (HostValue.wide_cw2 m c hw2 a b u v))
    (fun a u => (whole4 m c t _).trans (HostValue.wide_cb2 m c hb2 a u))
    (fun a b u v => (whole5 m c t _ _).trans (HostValue.wide_cw3 m c hw3 a b u v))
    (fun a u => (whole6 m c t _).trans (HostValue.wide_cb3 m c hb3 a u))
    (fun a u => (whole7 m c t _).trans (HostValue.wide_cgamma m c hg a u))
    (fun a u => (whole8 m c t _).trans (HostValue.wide_cbeta m c hh a u))
    y _ ?_ ?_
  · intro u
    show V m c main_arg0 (((cfg0.win 0).blk t).view.emb (ix2 (y 0) u)) = m ((c.tc : Thread nD τ).loc main_arg0) (ix2 ((((cfg0.win 18).blk t).view.emb y) 0) u)
    rw [V_main_arg0]
    refine congrArg _ (funext fun a => Fin.ext ?_)
    match a with
    | ⟨0, _⟩ => show win0_0.index t (0 : Fin 2) * 8192 + 1 * (y 0).val = win0_18.index t (0 : Fin 2) * 8192 + 1 * (y 0).val; omega
    | ⟨1, _⟩ => show win0_0.index t (1 : Fin 2) * 32 + 1 * u.val = u.val; omega
  · show win0_18.index t (1 : Fin 2) * 32 + 1 * (y 1).val = (y 1).val
    omega

/-- An index of the cell result is in point `t`'s block iff each coordinate is in the block's range on its axis. -/
theorem mem_blk18 (t : Fin cfg0.N) (i : S262144x32.Idx) :
    i ∈ ((cfg0.win 18).blk t).view.set ↔ ∀ a : Fin 2, win0_18.index t a * S8192x32.size a ≤ (i a).val ∧ (i a).val < win0_18.index t a * S8192x32.size a + S8192x32.size a := by
  show i ∈ ((View.whole main_v0_2).slice (win0_18.rect t)).set ↔ _
  rw [View.set_slice_whole, Rect.mem_set_unit]
  exact Iff.rfl

/-- Every index of the cell result lies in some point's block: row `R` in the block of point `R / 8192`. -/
theorem cover18 (i : S262144x32.Idx) : ∃ t : Fin cfg0.N, (cfg0.win 18).flush t = true ∧ i ∈ ((cfg0.win 18).blk t).view.set := by
  have hi0 : (i 0).val < 262144 := (i 0).isLt
  have hi1 : (i 1).val < 32 := (i 1).isLt
  have hN : cfg0.N = 32 := N_0
  obtain ⟨t, ht⟩ : ∃ t : Fin cfg0.N, t.val = (i 0).val / 8192 := ⟨⟨(i 0).val / 8192, by omega⟩, rfl⟩
  obtain ⟨-, -, e2, e3, -, -, -, -⟩ := idx_rows t
  refine ⟨t, flush0_18 t, ?_⟩
  rw [mem_blk18]
  intro a
  match a with
  | ⟨0, _⟩ => show win0_18.index t (0 : Fin 2) * 8192 ≤ (i 0).val ∧ (i 0).val < win0_18.index t (0 : Fin 2) * 8192 + 8192; omega
  | ⟨1, _⟩ => show win0_18.index t (1 : Fin 2) * 32 ≤ (i 1).val ∧ (i 1).val < win0_18.index t (1 : Fin 2) * 32 + 32; omega

/-- THE CELL RESULT after the run: the encoder applied to every cell row. -/
theorem cell_final (c : Dev nD)
    (hw1 : PackedW (m ((c.tc : Thread nD τ).loc main_arg3))) (hb1 : TiledV (m ((c.tc : Thread nD τ).loc main_arg4))) (hw2 : PackedW (m ((c.tc : Thread nD τ).loc main_arg5))) (hb2 : TiledV (m ((c.tc : Thread nD τ).loc main_arg6)))
    (hw3 : PackedW (m ((c.tc : Thread nD τ).loc main_arg7))) (hb3 : TiledV (m ((c.tc : Thread nD τ).loc main_arg8))) (hg : TiledV (m ((c.tc : Thread nD τ).loc main_arg9))) (hh : TiledV (m ((c.tc : Thread nD τ).loc main_arg10))) :
    ((dats m 0 c).arrAt 18 cfg0.N : S262144x32.Idx → EReal)
      = Cert.Spec.encRows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) :=
  (dats m 0 c).arrAt_eq_of_cover 18 _ (fun t _ => flushed18_eq m c t hw1 hb1 hw2 hb2 hw3 hb3 hg hh) cover18

/-! ## The edge result -/

/-- What point `t` writes back to the edge result is block `t` of the encoder applied to every edge row. -/
theorem flushed19_eq (c : Dev nD) (t : Fin cfg0.N)
    (hw1 : PackedW (m ((c.tc : Thread nD τ).loc main_arg11))) (hb1 : TiledV (m ((c.tc : Thread nD τ).loc main_arg12))) (hw2 : PackedW (m ((c.tc : Thread nD τ).loc main_arg13))) (hb2 : TiledV (m ((c.tc : Thread nD τ).loc main_arg14)))
    (hw3 : PackedW (m ((c.tc : Thread nD τ).loc main_arg15))) (hb3 : TiledV (m ((c.tc : Thread nD τ).loc main_arg16))) (hg : TiledV (m ((c.tc : Thread nD τ).loc main_arg17))) (hh : TiledV (m ((c.tc : Thread nD τ).loc main_arg18))) :
    (dats m 0 c).flushed 19 t = ((cfg0.win 19).blk t).view.read (Elt Ideal)
      (Cert.Spec.encRows (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2))) := by
  rw [Value.flushed19]
  obtain ⟨-, -, -, -, e0, e1, e2, e3⟩ := idx_rows t
  funext y
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = Cert.Spec.encRows (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2)) (((cfg0.win 19).blk t).view.emb y)
  refine rows19 (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (fun a b u v => (whole10 m c t _ _).trans (HostValue.wide_ew1 m c hw1 a b u v))
    (fun a u => (whole11 m c t _).trans (HostValue.wide_eb1 m c hb1 a u))
    (fun a b u v => (whole12 m c t _ _).trans (HostValue.wide_ew2 m c hw2 a b u v))
    (fun a u => (whole13 m c t _).trans (HostValue.wide_eb2 m c hb2 a u))
    (fun a b u v => (whole14 m c t _ _).trans (HostValue.wide_ew3 m c hw3 a b u v))
    (fun a u => (whole15 m c t _).trans (HostValue.wide_eb3 m c hb3 a u))
    (fun a u => (whole16 m c t _).trans (HostValue.wide_egamma m c hg a u))
    (fun a u => (whole17 m c t _).trans (HostValue.wide_ebeta m c hh a u))
    y _ ?_ ?_
  · intro u
    show V m c main_arg2 (((cfg0.win 9).blk t).view.emb (ix2 (y 0) u)) = m ((c.tc : Thread nD τ).loc main_arg2) (ix2 ((((cfg0.win 19).blk t).view.emb y) 0) u)
    rw [V_main_arg2]
    refine congrArg _ (funext fun a => Fin.ext ?_)
    match a with
    | ⟨0, _⟩ => show win0_9.index t (0 : Fin 2) * 16384 + 1 * (y 0).val = win0_19.index t (0 : Fin 2) * 16384 + 1 * (y 0).val; omega
    | ⟨1, _⟩ => show win0_9.index t (1 : Fin 2) * 32 + 1 * u.val = u.val; omega
  · show win0_19.index t (1 : Fin 2) * 32 + 1 * (y 1).val = (y 1).val
    omega

/-- An index of the edge result is in point `t`'s block iff each coordinate is in the block's range on its axis. -/
theorem mem_blk19 (t : Fin cfg0.N) (i : S524288x32.Idx) :
    i ∈ ((cfg0.win 19).blk t).view.set ↔ ∀ a : Fin 2, win0_19.index t a * S16384x32.size a ≤ (i a).val ∧ (i a).val < win0_19.index t a * S16384x32.size a + S16384x32.size a := by
  show i ∈ ((View.whole main_v0_0).slice (win0_19.rect t)).set ↔ _
  rw [View.set_slice_whole, Rect.mem_set_unit]
  exact Iff.rfl

/-- Every index of the edge result lies in some point's block: row `R` in the block of point `R / 16384`. -/
theorem cover19 (i : S524288x32.Idx) : ∃ t : Fin cfg0.N, (cfg0.win 19).flush t = true ∧ i ∈ ((cfg0.win 19).blk t).view.set := by
  have hi0 : (i 0).val < 524288 := (i 0).isLt
  have hi1 : (i 1).val < 32 := (i 1).isLt
  have hN : cfg0.N = 32 := N_0
  obtain ⟨t, ht⟩ : ∃ t : Fin cfg0.N, t.val = (i 0).val / 16384 := ⟨⟨(i 0).val / 16384, by omega⟩, rfl⟩
  obtain ⟨-, -, -, -, -, -, e2, e3⟩ := idx_rows t
  refine ⟨t, flush0_19 t, ?_⟩
  rw [mem_blk19]
  intro a
  match a with
  | ⟨0, _⟩ => show win0_19.index t (0 : Fin 2) * 16384 ≤ (i 0).val ∧ (i 0).val < win0_19.index t (0 : Fin 2) * 16384 + 16384; omega
  | ⟨1, _⟩ => show win0_19.index t (1 : Fin 2) * 32 ≤ (i 1).val ∧ (i 1).val < win0_19.index t (1 : Fin 2) * 32 + 32; omega

/-- THE EDGE RESULT after the run: the encoder applied to every edge row. -/
theorem edge_final (c : Dev nD)
    (hw1 : PackedW (m ((c.tc : Thread nD τ).loc main_arg11))) (hb1 : TiledV (m ((c.tc : Thread nD τ).loc main_arg12))) (hw2 : PackedW (m ((c.tc : Thread nD τ).loc main_arg13))) (hb2 : TiledV (m ((c.tc : Thread nD τ).loc main_arg14)))
    (hw3 : PackedW (m ((c.tc : Thread nD τ).loc main_arg15))) (hb3 : TiledV (m ((c.tc : Thread nD τ).loc main_arg16))) (hg : TiledV (m ((c.tc : Thread nD τ).loc main_arg17))) (hh : TiledV (m ((c.tc : Thread nD τ).loc main_arg18))) :
    ((dats m 0 c).arrAt 19 cfg0.N : S524288x32.Idx → EReal)
      = Cert.Spec.encRows (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2)) :=
  (dats m 0 c).arrAt_eq_of_cover 19 _ (fun t _ => flushed19_eq m c t hw1 hb1 hw2 hb2 hw3 hb3 hg hh) cover19

/-! ## The run, with its two results named -/

/-- Every weakly fair execution of the kernel program terminates with the cell result the encoder on every cell row,
    the edge result the encoder on every edge row, and the nineteen arguments as launched — when the six weights are
    block diagonal with equal blocks and the ten vectors periodic. -/
theorem run_final
    (hs : ∀ c : Dev nD, PackedW (m ((c.tc : Thread nD τ).loc main_arg3)) ∧
      TiledV (m ((c.tc : Thread nD τ).loc main_arg4)) ∧
      PackedW (m ((c.tc : Thread nD τ).loc main_arg5)) ∧
      TiledV (m ((c.tc : Thread nD τ).loc main_arg6)) ∧
      PackedW (m ((c.tc : Thread nD τ).loc main_arg7)) ∧
      TiledV (m ((c.tc : Thread nD τ).loc main_arg8)) ∧
      TiledV (m ((c.tc : Thread nD τ).loc main_arg9)) ∧
      TiledV (m ((c.tc : Thread nD τ).loc main_arg10)) ∧
      PackedW (m ((c.tc : Thread nD τ).loc main_arg11)) ∧
      TiledV (m ((c.tc : Thread nD τ).loc main_arg12)) ∧
      PackedW (m ((c.tc : Thread nD τ).loc main_arg13)) ∧
      TiledV (m ((c.tc : Thread nD τ).loc main_arg14)) ∧
      PackedW (m ((c.tc : Thread nD τ).loc main_arg15)) ∧
      TiledV (m ((c.tc : Thread nD τ).loc main_arg16)) ∧
      TiledV (m ((c.tc : Thread nD τ).loc main_arg17)) ∧
      TiledV (m ((c.tc : Thread nD τ).loc main_arg18))) :
    θ_run defs (onTc (τ := τ) (main (F := Ideal))) ⟨m, fun _ => 0, ρ⟩ (fun r => ∀ c : Dev nD,
      r.2.mem ((c.tc : Thread nD τ).loc main_v0_2)
          = Cert.Spec.encRows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0))
      ∧ r.2.mem ((c.tc : Thread nD τ).loc main_v0_0)
          = Cert.Spec.encRows (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
      obtain ⟨p3, p4, p5, p6, p7, p8, p9, p10, p11, p12, p13, p14, p15, p16, p17, p18⟩ := hs c
      exact ⟨(h c).1.trans (cell_final m c p3 p4 p5 p6 p7 p8 p9 p10),
        (h c).2.1.trans (edge_final m c p11 p12 p13 p14 p15 p16 p17 p18), (h c).2.2⟩)
    (Value.run_blocks m ρ)

end Cert.KernelIdeal.FinalValue

end
-- ==== Proof.RefRun.lean ====
/-
  The reference program's run with its two result arrays named, and those arrays read back to the launches.

  The reference is two launches of one row network among four regroupings: the 262144 cell rows of 32 features are
  regrouped into 65536 packed rows of 128 lanes, the network runs on the packed rows, and its output is regrouped back
  into the cell result; the 524288 edge rows likewise through 131072 packed rows. This module states (1) that every
  weakly fair run ends with the two results at the last boundary's contents and the arguments unchanged, (2) each
  result, index by index, as an element of its launch's output array, and (3) what each launch is entered with: its
  packed input as an element of the argument rows, and each of its eight parameter arrays as the argument it is.
-/
import proofs.«161702_g2000305235446769_pallaspilot1_107_16_alg».proof.Proof.Gen.ReferenceIdeal.Frame
import proofs.«161702_g2000305235446769_pallaspilot1_107_16_alg».proof.Proof.Packing
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.Packing Idealize.ShloMosaic.ValueIdx

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair run of the program ends, nothing faulting, with the edge result and the cell result at the last
    boundary's contents and the nineteen arguments as launched. -/
theorem run_named : θ_run defs (onTc (τ := τ) (main (F := F))) ⟨m, fun _ => 0, ρ⟩ (fun r => ∀ c : Dev nD,
      r.2.mem ((c.tc : Thread nD τ).loc main_v1) = W6 m ρ c (Proc.devRef .tc main_v1)
      ∧ r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v1 (by decide)),
       h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Run

/-! ## The two result arrays and the launches' inputs, index by index

Each side of the program is: regroup the rows four to a packed row of 128 lanes, run the row network on the packed
rows, and regroup back. A regrouping keeps row-major order, so logical row `4·r + j`, feature `f` and packed row
`r`, lane `32·j + f` are the same element: `(4r + j)·32 + f = r·128 + (32j + f)`. -/

section Values

variable (m : (ℓ : Loc nD τ sig) → Buf (Elt Ideal) ℓ) (ρ : Dev nD → PrngReg)

/-- A single regrouping leaves every buffer other than its result as it was. -/
theorem host_kept (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (V : Valuation τ sig (Elt Ideal)) {b : Ref sig .tc} (h : b ≠ y) :
    StableHlo.after [StableHlo.reshape (τ := τ) (Val := Elt Ideal) x y he hn hx hy] V (Proc.devRef .tc b)
      = V (Proc.devRef .tc b) := by
  show (StableHlo.reshape (τ := τ) (Val := Elt Ideal) x y he hn hx hy).result V (Proc.devRef .tc b) = _
  rw [StableHlo.reshape_result_ne]; exact h

/-- Before the first launch only the packed cell rows have been written. -/
theorem host0_kept (c : Dev nD) (b : Ref sig .tc) (h : b ≠ main_call0_v0) :
    V1 m ρ c b = m ((c.tc : Thread nD τ).loc b) :=
  host_kept _ _ _ _ _ _ (W0 m ρ c) h

/-- A buffer that is neither an array of the first launch nor a result of a regrouping up to the second launch's
    packed input still holds its launch contents after the cell result is unpacked. -/
theorem W3_kept (c : Dev nD) (b : Ref sig .tc) (h2 : b ≠ main_v0) (h3 : ∀ w, Pipeline.arrRef spec0 w ≠ b)
    (h4 : b ≠ main_call0_v0) : W3 m ρ c (Proc.devRef .tc b) = m ((c.tc : Thread nD τ).loc b) :=
  calc W3 m ρ c (Proc.devRef .tc b)
    _ = W2 m ρ c (Proc.devRef .tc b) := host_kept _ _ _ _ _ _ (W2 m ρ c) h2
    _ = W1 m ρ c (Proc.devRef .tc b) := W2_of_ne m ρ c b h3
    _ = m ((c.tc : Thread nD τ).loc b) := host0_kept m ρ c b h4

/-- The same at the second launch's entry, for a buffer other than its packed input. -/
theorem W4_kept (c : Dev nD) (b : Ref sig .tc) (h1 : b ≠ main_call1_v0) (h2 : b ≠ main_v0)
    (h3 : ∀ w, Pipeline.arrRef spec0 w ≠ b) (h4 : b ≠ main_call0_v0) :
    V4 m ρ c b = m ((c.tc : Thread nD τ).loc b) :=
  (host_kept _ _ _ _ _ _ (W3 m ρ c) h1).trans (W3_kept m ρ c b h2 h3 h4)

/-! ### The cell side -/

theorem cell_arr_in : Pipeline.arrRef spec0 0 = main_call0_v0 := rfl
theorem cell_arr_out : Pipeline.arrRef spec0 9 = main_call0_v1 := rfl

/-- The first launch's packed input is the cell rows regrouped. -/
theorem cell_in_whole (c : Dev nD) :
    (V1 m ρ c main_call0_v0 : S65536x128.Idx → EReal)
      = shapeCast S65536x128 (m ((c.tc : Thread nD τ).loc main_arg0) : S262144x32.Idx → EReal)
          shapeCasts_S262144x32_S65536x128 := by
  show StableHlo.after hostOps0 (W0 m ρ c) (Proc.devRef .tc main_call0_v0) = _
  after_results
  rfl

/-- Packed row `r`, lane `32·j + f` of the first launch's input is cell row `4·r + j`, feature `f`. -/
theorem cell_in_apply (c : Dev nD) (r : Fin 65536) (j : Fin 4) (f : Fin 32) :
    V1 m ρ c main_call0_v0 (ix2 r (lane128 j f))
      = m ((c.tc : Thread nD τ).loc main_arg0) (ix2 (⟨4 * r.val + j.val, by omega⟩ : Fin 262144) f) := by
  refine (congrFun (cell_in_whole m ρ c) (ix2 r (lane128 j f))).trans ?_
  exact shapeCast_apply _ _ _ (ix2 (⟨4 * r.val + j.val, by omega⟩ : Fin 262144) f) (by
    rw [Shape.rowMajor_val_two, Shape.rowMajor_val_two]
    show (4 * r.val + j.val) * 32 + f.val = r.val * 128 + (32 * j.val + f.val)
    omega)

/-- Window 1 of the cell launch reads argument 3 as launched. -/
theorem cell_param_w1 (c : Dev nD) :
    V1 m ρ c (Pipeline.arrRef spec0 1) = m ((c.tc : Thread nD τ).loc main_arg3) :=
  host0_kept m ρ c main_arg3 (by decide)
/-- Window 2 of the cell launch reads argument 4 as launched. -/
theorem cell_param_w2 (c : Dev nD) :
    V1 m ρ c (Pipeline.arrRef spec0 2) = m ((c.tc : Thread nD τ).loc main_arg4) :=
  host0_kept m ρ c main_arg4 (by decide)
/-- Window 3 of the cell launch reads argument 5 as launched. -/
theorem cell_param_w3 (c : Dev nD) :
    V1 m ρ c (Pipeline.arrRef spec0 3) = m ((c.tc : Thread nD τ).loc main_arg5) :=
  host0_kept m ρ c main_arg5 (by decide)
/-- Window 4 of the cell launch reads argument 6 as launched. -/
theorem cell_param_w4 (c : Dev nD) :
    V1 m ρ c (Pipeline.arrRef spec0 4) = m ((c.tc : Thread nD τ).loc main_arg6) :=
  host0_kept m ρ c main_arg6 (by decide)
/-- Window 5 of the cell launch reads argument 7 as launched. -/
theorem cell_param_w5 (c : Dev nD) :
    V1 m ρ c (Pipeline.arrRef spec0 5) = m ((c.tc : Thread nD τ).loc main_arg7) :=
  host0_kept m ρ c main_arg7 (by decide)
/-- Window 6 of the cell launch reads argument 8 as launched. -/
theorem cell_param_w6 (c : Dev nD) :
    V1 m ρ c (Pipeline.arrRef spec0 6) = m ((c.tc : Thread nD τ).loc main_arg8) :=
  host0_kept m ρ c main_arg8 (by decide)
/-- Window 7 of the cell launch reads argument 9 as launched. -/
theorem cell_param_w7 (c : Dev nD) :
    V1 m ρ c (Pipeline.arrRef spec0 7) = m ((c.tc : Thread nD τ).loc main_arg9) :=
  host0_kept m ρ c main_arg9 (by decide)
/-- Window 8 of the cell launch reads argument 10 as launched. -/
theorem cell_param_w8 (c : Dev nD) :
    V1 m ρ c (Pipeline.arrRef spec0 8) = m ((c.tc : Thread nD τ).loc main_arg10) :=
  host0_kept m ρ c main_arg10 (by decide)

/-- The cell result is the first launch's output array regrouped: nothing after the unpacking writes it. -/
theorem cell_result_whole (c : Dev nD) :
    (W6 m ρ c (Proc.devRef .tc main_v0) : S262144x32.Idx → EReal)
      = shapeCast S262144x32 ((dat0 (V1 m ρ) c).arrAt 9 cfg0.N : S65536x128.Idx → EReal)
          shapeCasts_S65536x128_S262144x32 := by
  have h65 : W6 m ρ c (Proc.devRef .tc main_v0) = W5 m ρ c (Proc.devRef .tc main_v0) :=
    host_kept _ _ _ _ _ _ (W5 m ρ c) (by decide)
  have h54 : W5 m ρ c (Proc.devRef .tc main_v0) = W4 m ρ c (Proc.devRef .tc main_v0) :=
    W5_of_ne m ρ c main_v0 (by decide)
  have h43 : W4 m ρ c (Proc.devRef .tc main_v0) = W3 m ρ c (Proc.devRef .tc main_v0) :=
    host_kept _ _ _ _ _ _ (W3 m ρ c) (by decide)
  have h3 : (W3 m ρ c (Proc.devRef .tc main_v0) : S262144x32.Idx → EReal)
      = shapeCast S262144x32 (W2 m ρ c (Proc.devRef .tc main_call0_v1) : S65536x128.Idx → EReal)
          shapeCasts_S65536x128_S262144x32 := by
    show StableHlo.after hostOps1 (W2 m ρ c) (Proc.devRef .tc main_v0) = _
    after_results
    rfl
  refine h65.trans (h54.trans (h43.trans (h3.trans ?_)))
  exact congrArg (fun X : S65536x128.Idx → EReal => shapeCast S262144x32 X shapeCasts_S65536x128_S262144x32)
    (W2_arr m ρ c 9)

/-- Cell row `4·r + j`, feature `f` of the result is packed row `r`, lane `32·j + f` of the first launch's output. -/
theorem cell_result_apply (c : Dev nD) (r : Fin 65536) (j : Fin 4) (f : Fin 32) :
    W6 m ρ c (Proc.devRef .tc main_v0) (ix2 (⟨4 * r.val + j.val, by omega⟩ : Fin 262144) f)
      = (dat0 (V1 m ρ) c).arrAt 9 cfg0.N (ix2 r (lane128 j f)) := by
  refine (congrFun (cell_result_whole m ρ c) (ix2 (⟨4 * r.val + j.val, by omega⟩ : Fin 262144) f)).trans ?_
  exact shapeCast_apply _ _ _ (ix2 r (lane128 j f)) (by
    rw [Shape.rowMajor_val_two, Shape.rowMajor_val_two]
    show r.val * 128 + (32 * j.val + f.val) = (4 * r.val + j.val) * 32 + f.val
    omega)

/-! ### The edge side -/

theorem edge_arr_in : Pipeline.arrRef spec1 0 = main_call1_v0 := rfl
theorem edge_arr_out : Pipeline.arrRef spec1 9 = main_call1_v1 := rfl

/-- The second launch's packed input is the edge rows regrouped: the edge argument is untouched by everything
    before it. -/
theorem edge_in_whole (c : Dev nD) :
    (V4 m ρ c main_call1_v0 : S131072x128.Idx → EReal)
      = shapeCast S131072x128 (m ((c.tc : Thread nD τ).loc main_arg2) : S524288x32.Idx → EReal)
          shapeCasts_S524288x32_S131072x128 := by
  have h : (V4 m ρ c main_call1_v0 : S131072x128.Idx → EReal)
      = shapeCast S131072x128 (W3 m ρ c (Proc.devRef .tc main_arg2) : S524288x32.Idx → EReal)
          shapeCasts_S524288x32_S131072x128 := by
    show StableHlo.after hostOps1_1 (W3 m ρ c) (Proc.devRef .tc main_call1_v0) = _
    after_results
    rfl
  refine h.trans ?_
  exact congrArg (fun X : S524288x32.Idx → EReal => shapeCast S131072x128 X shapeCasts_S524288x32_S131072x128)
    (W3_kept m ρ c main_arg2 (by decide) (by decide) (by decide))

/-- Packed row `r`, lane `32·j + f` of the second launch's input is edge row `4·r + j`, feature `f`. -/
theorem edge_in_apply (c : Dev nD) (r : Fin 131072) (j : Fin 4) (f : Fin 32) :
    V4 m ρ c main_call1_v0 (ix2 r (lane128 j f))
      = m ((c.tc : Thread nD τ).loc main_arg2) (ix2 (⟨4 * r.val + j.val, by omega⟩ : Fin 524288) f) := by
  refine (congrFun (edge_in_whole m ρ c) (ix2 r (lane128 j f))).trans ?_
  exact shapeCast_apply _ _ _ (ix2 (⟨4 * r.val + j.val, by omega⟩ : Fin 524288) f) (by
    rw [Shape.rowMajor_val_two, Shape.rowMajor_val_two]
    show (4 * r.val + j.val) * 32 + f.val = r.val * 128 + (32 * j.val + f.val)
    omega)

/-- Window 1 of the edge launch reads argument 11 as launched. -/
theorem edge_param_w1 (c : Dev nD) :
    V4 m ρ c (Pipeline.arrRef spec1 1) = m ((c.tc : Thread nD τ).loc main_arg11) :=
  W4_kept m ρ c main_arg11 (by decide) (by decide) (by decide) (by decide)
/-- Window 2 of the edge launch reads argument 12 as launched. -/
theorem edge_param_w2 (c : Dev nD) :
    V4 m ρ c (Pipeline.arrRef spec1 2) = m ((c.tc : Thread nD τ).loc main_arg12) :=
  W4_kept m ρ c main_arg12 (by decide) (by decide) (by decide) (by decide)
/-- Window 3 of the edge launch reads argument 13 as launched. -/
theorem edge_param_w3 (c : Dev nD) :
    V4 m ρ c (Pipeline.arrRef spec1 3) = m ((c.tc : Thread nD τ).loc main_arg13) :=
  W4_kept m ρ c main_arg13 (by decide) (by decide) (by decide) (by decide)
/-- Window 4 of the edge launch reads argument 14 as launched. -/
theorem edge_param_w4 (c : Dev nD) :
    V4 m ρ c (Pipeline.arrRef spec1 4) = m ((c.tc : Thread nD τ).loc main_arg14) :=
  W4_kept m ρ c main_arg14 (by decide) (by decide) (by decide) (by decide)
/-- Window 5 of the edge launch reads argument 15 as launched. -/
theorem edge_param_w5 (c : Dev nD) :
    V4 m ρ c (Pipeline.arrRef spec1 5) = m ((c.tc : Thread nD τ).loc main_arg15) :=
  W4_kept m ρ c main_arg15 (by decide) (by decide) (by decide) (by decide)
/-- Window 6 of the edge launch reads argument 16 as launched. -/
theorem edge_param_w6 (c : Dev nD) :
    V4 m ρ c (Pipeline.arrRef spec1 6) = m ((c.tc : Thread nD τ).loc main_arg16) :=
  W4_kept m ρ c main_arg16 (by decide) (by decide) (by decide) (by decide)
/-- Window 7 of the edge launch reads argument 17 as launched. -/
theorem edge_param_w7 (c : Dev nD) :
    V4 m ρ c (Pipeline.arrRef spec1 7) = m ((c.tc : Thread nD τ).loc main_arg17) :=
  W4_kept m ρ c main_arg17 (by decide) (by decide) (by decide) (by decide)
/-- Window 8 of the edge launch reads argument 18 as launched. -/
theorem edge_param_w8 (c : Dev nD) :
    V4 m ρ c (Pipeline.arrRef spec1 8) = m ((c.tc : Thread nD τ).loc main_arg18) :=
  W4_kept m ρ c main_arg18 (by decide) (by decide) (by decide) (by decide)

/-- The edge result is the second launch's output array regrouped. -/
theorem edge_result_whole (c : Dev nD) :
    (W6 m ρ c (Proc.devRef .tc main_v1) : S524288x32.Idx → EReal)
      = shapeCast S524288x32 ((dat1 (V4 m ρ) c).arrAt 9 cfg1.N : S131072x128.Idx → EReal)
          shapeCasts_S131072x128_S524288x32 := by
  have h6 : (W6 m ρ c (Proc.devRef .tc main_v1) : S524288x32.Idx → EReal)
      = shapeCast S524288x32 (W5 m ρ c (Proc.devRef .tc main_call1_v1) : S131072x128.Idx → EReal)
          shapeCasts_S131072x128_S524288x32 := by
    show StableHlo.after hostOps2 (W5 m ρ c) (Proc.devRef .tc main_v1) = _
    after_results
    rfl
  refine h6.trans ?_
  exact congrArg (fun X : S131072x128.Idx → EReal => shapeCast S524288x32 X shapeCasts_S131072x128_S524288x32)
    (W5_arr m ρ c 9)

/-- Edge row `4·r + j`, feature `f` of the result is packed row `r`, lane `32·j + f` of the second launch's output. -/
theorem edge_result_apply (c : Dev nD) (r : Fin 131072) (j : Fin 4) (f : Fin 32) :
    W6 m ρ c (Proc.devRef .tc main_v1) (ix2 (⟨4 * r.val + j.val, by omega⟩ : Fin 524288) f)
      = (dat1 (V4 m ρ) c).arrAt 9 cfg1.N (ix2 r (lane128 j f)) := by
  refine (congrFun (edge_result_whole m ρ c) (ix2 (⟨4 * r.val + j.val, by omega⟩ : Fin 524288) f)).trans ?_
  exact shapeCast_apply _ _ _ (ix2 r (lane128 j f)) (by
    rw [Shape.rowMajor_val_two, Shape.rowMajor_val_two]
    show r.val * 128 + (32 * j.val + f.val) = (4 * r.val + j.val) * 32 + f.val
    omega)

end Values

end Cert.ReferenceIdeal.RefValue

end
-- ==== Proof.RefValue.lean ====
/-
  What each launch of the reference leaves in its output array, index by index.

  The body of a launch loads its block of 4096 packed rows of 128 lanes and the eight parameter arrays, and stores once:
  three affine layers (a product into a zero accumulator plus a bias row) with the gate x·σ(x) between them, then the
  normalisation against an averaging matrix the body builds from two lane counters floor-divided by 32 — `μ` where
  the two lanes fall in the same group of 32, zero elsewhere. Read at row `p`, lane `l` of the block this is the row
  network on row `p` alone: every product is a sum over the 128 lanes of that row. The blocks tile the array, one per
  grid point, so the array after the launch is the same function of the array row.
-/
import proofs.«161702_g2000305235446769_pallaspilot1_107_16_alg».proof.Proof.Gen.ReferenceIdeal.Frame
import proofs.«161702_g2000305235446769_pallaspilot1_107_16_alg».proof.Proof.RowNet
import proofs.«161702_g2000305235446769_pallaspilot1_107_16_alg».proof.Proof.Lanes
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RegionValue

open Idealize.ShloMosaic Idealize.ShloMosaic.TcCoe Idealize.ShloMosaic.ValueIdx
open Idealize.ShloMosaic.Pipeline (Dat Cfg Window)
open Cert.ReferenceIdeal Cert.ReferenceIdeal.Gen Cert.RowNet Cert.Lanes

theorem hz : (![0, 0] : Fin 2 → Nat) = fun _ => 0 := funext fun a => by fin_cases a <;> rfl

/-! ## The block operations of the body, read at an index -/

/-- A product of a 4096×128 block by a 128×128 matrix into a zero accumulator, read at row `p`, lane `l`: the sum
    over the 128 lanes of the row's entries times the matrix's column. -/
theorem matmul_row (X : FVec Ideal S4096x128 .f32) (W : FVec Ideal S128x128 .f32) (p : Fin 4096) (l : Fin 128) :
    matmul dot_S4096x128_S128x128_S4096x128_1_0_0_1_n_n none X W (constant (F := Ideal) S4096x128 .f32 0x00000000#32) (ix2 p l)
      = ∑ k : Fin 128, X (ix2 p k) * W (ix2 k l) := by
  show FloatOps.matmul _ none X W _ (ix2 p l) = _
  rw [Ideal.matmul_constant_zero_apply,
    ← Equiv.sum_comp (contrEquiv1 dot_S4096x128_S128x128_S4096x128_1_0_0_1_n_n 128 rfl rfl).symm]
  refine Finset.sum_congr rfl fun k _ => ?_
  have c2 := contrEquiv1_symm_val dot_S4096x128_S128x128_S4096x128_1_0_0_1_n_n 128 rfl rfl k
  have l2 : dot_S4096x128_S128x128_S4096x128_1_0_0_1_n_n.lhsIdx (ix2 p l)
      ((contrEquiv1 dot_S4096x128_S128x128_S4096x128_1_0_0_1_n_n 128 rfl rfl).symm k) = ix2 p k := by
    funext ax; apply Fin.ext
    match ax with
    | ⟨0, _⟩ => simp [DotDims.lhsIdx, dot_S4096x128_S128x128_S4096x128_1_0_0_1_n_n]; rfl
    | ⟨1, _⟩ => simp [DotDims.lhsIdx, dot_S4096x128_S128x128_S4096x128_1_0_0_1_n_n]; exact c2
  have r2 : dot_S4096x128_S128x128_S4096x128_1_0_0_1_n_n.rhsIdx (ix2 p l)
      ((contrEquiv1 dot_S4096x128_S128x128_S4096x128_1_0_0_1_n_n 128 rfl rfl).symm k) = ix2 k l := by
    funext ax; apply Fin.ext
    match ax with
    | ⟨0, _⟩ => simp [DotDims.rhsIdx, dot_S4096x128_S128x128_S4096x128_1_0_0_1_n_n]; exact c2
    | ⟨1, _⟩ => simp [DotDims.rhsIdx, dot_S4096x128_S128x128_S4096x128_1_0_0_1_n_n]; rfl
  rw [l2, r2]

/-- One affine layer on a block: the product with the weight plus the bias row repeated over the rows. -/
def layerV (Y : FVec Ideal S4096x128 .f32) (W : FVec Ideal S128x128 .f32) (b : FVec Ideal S1x128 .f32) :
    FVec Ideal S4096x128 .f32 :=
  addf (matmul dot_S4096x128_S128x128_S4096x128_1_0_0_1_n_n none Y W (constant (F := Ideal) S4096x128 .f32 0x00000000#32)) (broadcastTo S4096x128 b broadcasts_S1x128_S4096x128)

/-- The gate on a block. -/
def gateV (v : FVec Ideal S4096x128 .f32) : FVec Ideal S4096x128 .f32 := mulf v (logistic v)

/-- Row `p` of a layer of a block is the affine layer of row `p`. -/
theorem layerV_row (Y : FVec Ideal S4096x128 .f32) (W : FVec Ideal S128x128 .f32) (b : FVec Ideal S1x128 .f32) (p : Fin 4096) :
    (fun l : Fin 128 => layerV Y W b (ix2 p l))
      = affine (fun k l' => W (ix2 k l')) (fun l' => b (ix2 (0 : Fin 1) l')) (fun k => Y (ix2 p k)) := by
  funext l
  show matmul dot_S4096x128_S128x128_S4096x128_1_0_0_1_n_n none Y W (constant (F := Ideal) S4096x128 .f32 0x00000000#32) (ix2 p l) + broadcastTo S4096x128 b broadcasts_S1x128_S4096x128 (ix2 p l) = _
  rw [matmul_row, broadcastTo_1b_ab_apply]
  rfl

/-- Row `p` of the gate of a block is the gate of row `p`. -/
theorem gateV_row (v : FVec Ideal S4096x128 .f32) (p : Fin 4096) :
    (fun k : Fin 128 => gateV v (ix2 p k)) = gate (fun k => v (ix2 p k)) := rfl

/-- The deviation from the weighted mean on a block. -/
def devV (Y : FVec Ideal S4096x128 .f32) (M : FVec Ideal S128x128 .f32) : FVec Ideal S4096x128 .f32 :=
  subf Y (matmul dot_S4096x128_S128x128_S4096x128_1_0_0_1_n_n none Y M (constant (F := Ideal) S4096x128 .f32 0x00000000#32))

theorem devV_apply (Y : FVec Ideal S4096x128 .f32) (M : FVec Ideal S128x128 .f32) (p : Fin 4096) (l : Fin 128) :
    devV Y M (ix2 p l) = dev (fun k l' => M (ix2 k l')) (fun k => Y (ix2 p k)) l := by
  show Y (ix2 p l) - matmul dot_S4096x128_S128x128_S4096x128_1_0_0_1_n_n none Y M (constant (F := Ideal) S4096x128 .f32 0x00000000#32) (ix2 p l) = _
  rw [matmul_row]
  rfl

/-- The deviation over the root of the weighted mean squared deviation plus `ε`, on a block. -/
def coreV (Y : FVec Ideal S4096x128 .f32) (M : FVec Ideal S128x128 .f32) : FVec Ideal S4096x128 .f32 :=
  mulf (devV Y M) (rsqrt (addf (matmul dot_S4096x128_S128x128_S4096x128_1_0_0_1_n_n none (mulf (devV Y M) (devV Y M)) M (constant (F := Ideal) S4096x128 .f32 0x00000000#32))
    (broadcast S4096x128 (Scalar.ofBits (F := Ideal) .f32 0x3727C5AC#32))))

/-- The same on a row: the deviation over the root of the weighted mean squared deviation plus `ε`. -/
def coreRow (M : Fin 128 → Fin 128 → EReal) (y : Fin 128 → EReal) (l : Fin 128) : EReal :=
  dev M y l * Ideal.rsqrt ((∑ k : Fin 128, (dev M y k * dev M y k) * M k l) + (Ideal.ofBits .f32 0x3727C5AC#32))

theorem coreV_apply (Y : FVec Ideal S4096x128 .f32) (M : FVec Ideal S128x128 .f32) (p : Fin 4096) (l : Fin 128) :
    coreV Y M (ix2 p l) = coreRow (fun k l' => M (ix2 k l')) (fun k => Y (ix2 p k)) l := by
  have hs : ∑ k : Fin 128, mulf (devV Y M) (devV Y M) (ix2 p k) * M (ix2 k l)
      = ∑ k : Fin 128, (dev (fun k l' => M (ix2 k l')) (fun k => Y (ix2 p k)) k
          * dev (fun k l' => M (ix2 k l')) (fun k => Y (ix2 p k)) k) * M (ix2 k l) :=
    Finset.sum_congr rfl fun k _ => by
      show devV Y M (ix2 p k) * devV Y M (ix2 p k) * M (ix2 k l) = _
      rw [devV_apply]
  show devV Y M (ix2 p l) * Ideal.rsqrt (matmul dot_S4096x128_S128x128_S4096x128_1_0_0_1_n_n none (mulf (devV Y M) (devV Y M)) M (constant (F := Ideal) S4096x128 .f32 0x00000000#32) (ix2 p l) + (Ideal.ofBits .f32 0x3727C5AC#32)) = _
  rw [matmul_row, devV_apply, hs]
  rfl

/-! ## The averaging matrix -/

/-- The printed floor division by 32 of a word: the truncated quotient, lowered by one where the signs differ and the
    remainder is not zero. -/
def fdiv32 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- On a lane number below 128 it is the number's quotient by 32. -/
theorem fdiv32_ofNat : ∀ k : Fin 128, fdiv32 (BitVec.ofNat 32 k.val) = BitVec.ofNat 32 (k.val / 32) := by decide

/-- Two group numbers below 4 are equal as words iff they are equal. -/
theorem cmp_group : ∀ a b : Fin 4, IntOp.cmpi .eq (BitVec.ofNat 32 a.val) (BitVec.ofNat 32 b.val)
    = if a.val = b.val then 1#1 else 0#1 := by decide

/-- The matrix the body builds from two lane counters: `μ` where the two lanes' quotients by 32 agree, zero elsewhere. -/
noncomputable def avgV (v21 : IVec S128x128 32) (c32_i32 : BitVec 32) (v23 : IVec S128x128 32) (v30 : IVec S128x128 32)
    (v36 : IVec S128x128 32) : FVec Ideal S128x128 .f32 :=
  have v37 : IVec S128x128 1 := cmpi .ne v30 v36
  have v38 : IVec S128x128 32 := broadcast S128x128 c32_i32
  have v39 : IVec S128x128 32 := remsi v21 v38
  have v40 : IVec S128x128 32 := broadcast S128x128 0#32
  have v41 : IVec S128x128 1 := cmpi .ne v39 v40
  have v42 : IVec S128x128 1 := andi v37 v41
  have v43 : IVec S128x128 32 := broadcast S128x128 1#32
  have v44 : IVec S128x128 32 := subi v23 v43
  have v45 : IVec S128x128 32 := select v42 v44 v23
  have v46 : IVec S128x128 32 := iota .tc S128x128 32 [1] iota_S128x128_d1_w32
  have v47 : IVec S128x128 32 := broadcast S128x128 32#32
  have v48 : IVec S128x128 32 := divsi v46 v47
  have v49 : IVec S128x128 32 := broadcast S128x128 0#32
  have v50 : IVec S128x128 1 := cmpi .sgt v46 v49
  have v51 : IVec S128x128 32 := extui 32 v50 natLt_1_32
  have v52 : IVec S128x128 32 := broadcast S128x128 0#32
  have v53 : IVec S128x128 1 := cmpi .slt v46 v52
  have v54 : IVec S128x128 32 := extui 32 v53 natLt_1_32
  have v55 : IVec S128x128 32 := subi v51 v54
  let v56 : BitVec 1 := Scalar.cmpi .sgt 32#32 0#32
  let v57 : BitVec 32 := Scalar.extui v56
  let v58 : BitVec 1 := Scalar.cmpi .slt 32#32 0#32
  let v59 : BitVec 32 := Scalar.extui v58
  let v60 : BitVec 32 := Scalar.subi v57 v59
  have v61 : IVec S128x128 32 := broadcast S128x128 v60
  have v62 : IVec S128x128 1 := cmpi .ne v55 v61
  have v63 : IVec S128x128 32 := broadcast S128x128 32#32
  have v64 : IVec S128x128 32 := remsi v46 v63
  have v65 : IVec S128x128 32 := broadcast S128x128 0#32
  have v66 : IVec S128x128 1 := cmpi .ne v64 v65
  have v67 : IVec S128x128 1 := andi v62 v66
  have v68 : IVec S128x128 32 := broadcast S128x128 1#32
  have v69 : IVec S128x128 32 := subi v48 v68
  have v70 : IVec S128x128 32 := select v67 v69 v48
  have v71 : IVec S128x128 1 := cmpi .eq v45 v70
  have cst_26 : Ideal .f32 := Scalar.ofBits .f32 0x3D000000#32
  have cst_27 : Ideal .f32 := Scalar.ofBits .f32 0x00000000#32
  have v72 : FVec Ideal S128x128 .f32 := broadcast S128x128 cst_26
  have v73 : FVec Ideal S128x128 .f32 := broadcast S128x128 cst_27
  have v74 : FVec Ideal S128x128 .f32 := select v71 v72 v73
  v74

/-- From the words the two counters' chains leave at `(k, l)` to the averaging matrix. -/
theorem avg_of_words (k l : Fin 128) (μ : EReal) :
    Scalar.select (IntOp.cmpi .eq (fdiv32 (BitVec.ofNat 32 k.val)) (fdiv32 (BitVec.ofNat 32 l.val))) μ
      (Ideal.ofBits .f32 0x00000000#32) = segMat 128 μ k l := by
  rw [fdiv32_ofNat k, fdiv32_ofNat l, Ideal.ofBits_zero_f32]
  have hq := cmp_group ⟨k.val / 32, by omega⟩ ⟨l.val / 32, by omega⟩
  rw [show IntOp.cmpi .eq (BitVec.ofNat 32 (k.val / 32)) (BitVec.ofNat 32 (l.val / 32))
    = if k.val / 32 = l.val / 32 then 1#1 else 0#1 from hq]
  show _ = if k.val / 32 = l.val / 32 then μ else 0
  by_cases h : k.val / 32 = l.val / 32
  · rw [if_pos h, if_pos h]; exact select_one _ _
  · rw [if_neg h, if_neg h]; exact select_zero _ _

/-- The row network depends on its weights, vectors, input row and lane only through their values. -/
theorem net_ext {n : ℕ} {W1 W1' W2 W2' W3 W3' : Fin n → Fin n → EReal} {b1 b1' b2 b2' b3 b3' g g' h h' z z' : Fin n → EReal}
    (M : Fin n → Fin n → EReal) (eps : EReal)
    (e1 : ∀ k l, W1 k l = W1' k l) (f1 : ∀ l, b1 l = b1' l) (e2 : ∀ k l, W2 k l = W2' k l) (f2 : ∀ l, b2 l = b2' l)
    (e3 : ∀ k l, W3 k l = W3' k l) (f3 : ∀ l, b3 l = b3' l) (eg : ∀ l, g l = g' l) (eh : ∀ l, h l = h' l)
    (ez : ∀ k, z k = z' k) {l l' : Fin n} (el : l = l') :
    net W1 b1 W2 b2 W3 b3 M eps g h z l = net W1' b1' W2' b2' W3' b3' M eps g' h' z' l' := by
  obtain rfl : W1 = W1' := funext fun k => funext (e1 k)
  obtain rfl : b1 = b1' := funext f1
  obtain rfl : W2 = W2' := funext fun k => funext (e2 k)
  obtain rfl : b2 = b2' := funext f2
  obtain rfl : W3 = W3' := funext fun k => funext (e3 k)
  obtain rfl : b3 = b3' := funext f3
  obtain rfl : g = g' := funext eg
  obtain rfl : h = h' := funext eh
  obtain rfl : z = z' := funext ez
  subst el
  rfl

/-! ## The body of launch 0 at an index -/

theorem avg0_apply (k l : Fin 128) :
    avgV (iota .tc S128x128 32 [0] iota_S128x128_d0_w32) 32#32 k0_pay3 k0_pay4 k0_pay5 (ix2 k l)
      = segMat 128 (Ideal.ofBits .f32 0x3D000000#32) k l := by
  have hr : iota .tc S128x128 32 [0] iota_S128x128_d0_w32 (ix2 k l) = BitVec.ofNat 32 k.val :=
    iota_single_apply .tc S128x128 32 0 iota_S128x128_d0_w32 (ix2 k l)
  have hc : iota .tc S128x128 32 [1] iota_S128x128_d1_w32 (ix2 k l) = BitVec.ofNat 32 l.val :=
    iota_single_apply .tc S128x128 32 1 iota_S128x128_d1_w32 (ix2 k l)
  show Scalar.select (IntOp.cmpi .eq (fdiv32 (iota .tc S128x128 32 [0] iota_S128x128_d0_w32 (ix2 k l)))
      (fdiv32 (iota .tc S128x128 32 [1] iota_S128x128_d1_w32 (ix2 k l)))) (Ideal.ofBits .f32 0x3D000000#32)
      (Ideal.ofBits .f32 0x00000000#32) = _
  rw [hr, hc]
  exact avg_of_words k l _

theorem pay2_0_split (X : FVec Ideal S4096x128 .f32) (W1 : FVec Ideal S128x128 .f32) (b1 : FVec Ideal S1x128 .f32)
    (W2 : FVec Ideal S128x128 .f32) (b2 : FVec Ideal S1x128 .f32) (W3 : FVec Ideal S128x128 .f32) (b3 : FVec Ideal S1x128 .f32) :
    k0_pay2 (F := Ideal) X W1 b1 W2 b2 W3 b3
      = layerV (gateV (layerV (gateV (layerV (shapeCast S4096x128 X shapeCasts_S4096x128_S4096x128) W1 b1)) W2 b2)) W3 b3 := rfl

theorem pay6_0_split (Y : FVec Ideal S4096x128 .f32) (v21 : IVec S128x128 32) (c : BitVec 32) (v23 v30 v36 : IVec S128x128 32) :
    k0_pay6 (F := Ideal) Y v21 c v23 v30 v36 = coreV Y (avgV v21 c v23 v30 v36) := rfl

/-- What launch 0's body stores, at row `p`, lane `l` of its block: the row network on row `p` of the input block. -/
theorem out0_apply (x0 : FVec Ideal S4096x128 .f32) (x1 : FVec Ideal S128x128 .f32) (x2 : FVec Ideal S1x128 .f32)
    (x3 : FVec Ideal S128x128 .f32) (x4 : FVec Ideal S1x128 .f32) (x5 : FVec Ideal S128x128 .f32) (x6 : FVec Ideal S1x128 .f32)
    (x7 : FVec Ideal S1x128 .f32) (x8 : FVec Ideal S1x128 .f32) (p : Fin 4096) (l : Fin 128) :
    out0_9 (F := Ideal) x0 x1 x2 x3 x4 x5 x6 x7 x8 (ix2 p l)
      = net (fun k l' => x1 (ix2 k l')) (fun l' => x2 (ix2 (0 : Fin 1) l'))
          (fun k l' => x3 (ix2 k l')) (fun l' => x4 (ix2 (0 : Fin 1) l'))
          (fun k l' => x5 (ix2 k l')) (fun l' => x6 (ix2 (0 : Fin 1) l'))
          (segMat 128 (Ideal.ofBits .f32 0x3D000000#32)) (Ideal.ofBits .f32 0x3727C5AC#32)
          (fun l' => x7 (ix2 (0 : Fin 1) l')) (fun l' => x8 (ix2 (0 : Fin 1) l'))
          (fun k => x0 (ix2 p k)) l := by
  unfold out0_9
  rw [View.canon_unit_zero hz]
  simp only [View.ld_unit_zero (S := S4096x128) hz, View.ld_unit_zero (S := S128x128) hz, View.ld_unit_zero (S := S1x128) hz]
  have hM : (fun k l' : Fin 128 => avgV (iota .tc S128x128 32 [0] iota_S128x128_d0_w32) 32#32 k0_pay3 k0_pay4 k0_pay5 (ix2 k l'))
      = segMat 128 (Ideal.ofBits .f32 0x3D000000#32) := funext fun k => funext fun l' => avg0_apply k l'
  have hy : (fun k : Fin 128 => k0_pay2 (F := Ideal) x0 x1 x2 x3 x4 x5 x6 (ix2 p k))
      = affine (fun k l' => x5 (ix2 k l')) (fun l' => x6 (ix2 (0 : Fin 1) l'))
          (gate (affine (fun k l' => x3 (ix2 k l')) (fun l' => x4 (ix2 (0 : Fin 1) l'))
            (gate (affine (fun k l' => x1 (ix2 k l')) (fun l' => x2 (ix2 (0 : Fin 1) l')) (fun k => x0 (ix2 p k)))))) := by
    rw [pay2_0_split, layerV_row, gateV_row, layerV_row, gateV_row, layerV_row, shapeCast_self]
  show k0_pay6 (F := Ideal) (k0_pay2 (F := Ideal) x0 x1 x2 x3 x4 x5 x6) (iota .tc S128x128 32 [0] iota_S128x128_d0_w32) 32#32 k0_pay3 k0_pay4 k0_pay5 (ix2 p l)
      * broadcastTo S4096x128 x7 broadcasts_S1x128_S4096x128 (ix2 p l)
      + broadcastTo S4096x128 x8 broadcasts_S1x128_S4096x128 (ix2 p l) = _
  rw [pay6_0_split, coreV_apply, broadcastTo_1b_ab_apply, broadcastTo_1b_ab_apply, hM, hy]
  rfl

/-- The same at any index `y` of the block. -/
theorem out0_apply' (x0 : FVec Ideal S4096x128 .f32) (x1 : FVec Ideal S128x128 .f32) (x2 : FVec Ideal S1x128 .f32)
    (x3 : FVec Ideal S128x128 .f32) (x4 : FVec Ideal S1x128 .f32) (x5 : FVec Ideal S128x128 .f32) (x6 : FVec Ideal S1x128 .f32)
    (x7 : FVec Ideal S1x128 .f32) (x8 : FVec Ideal S1x128 .f32) (y : S4096x128.Idx) :
    out0_9 (F := Ideal) x0 x1 x2 x3 x4 x5 x6 x7 x8 y
      = net (fun k l' => x1 (ix2 k l')) (fun l' => x2 (ix2 (0 : Fin 1) l'))
          (fun k l' => x3 (ix2 k l')) (fun l' => x4 (ix2 (0 : Fin 1) l'))
          (fun k l' => x5 (ix2 k l')) (fun l' => x6 (ix2 (0 : Fin 1) l'))
          (segMat 128 (Ideal.ofBits .f32 0x3D000000#32)) (Ideal.ofBits .f32 0x3727C5AC#32)
          (fun l' => x7 (ix2 (0 : Fin 1) l')) (fun l' => x8 (ix2 (0 : Fin 1) l'))
          (fun k => x0 (ix2 (y 0) k)) (y 1) := by
  obtain ⟨p, l, rfl⟩ : ∃ (p : Fin 4096) (l : Fin 128), y = ix2 p l := ⟨y 0, y 1, eq_ix2 y⟩
  exact out0_apply x0 x1 x2 x3 x4 x5 x6 x7 x8 p l

/-! ## The body of launch 1 at an index -/

theorem avg1_apply (k l : Fin 128) :
    avgV (iota .tc S128x128 32 [0] iota_S128x128_d0_w32) 32#32 k1_pay3 k1_pay4 k1_pay5 (ix2 k l)
      = segMat 128 (Ideal.ofBits .f32 0x3D000000#32) k l := by
  have hr : iota .tc S128x128 32 [0] iota_S128x128_d0_w32 (ix2 k l) = BitVec.ofNat 32 k.val :=
    iota_single_apply .tc S128x128 32 0 iota_S128x128_d0_w32 (ix2 k l)
  have hc : iota .tc S128x128 32 [1] iota_S128x128_d1_w32 (ix2 k l) = BitVec.ofNat 32 l.val :=
    iota_single_apply .tc S128x128 32 1 iota_S128x128_d1_w32 (ix2 k l)
  show Scalar.select (IntOp.cmpi .eq (fdiv32 (iota .tc S128x128 32 [0] iota_S128x128_d0_w32 (ix2 k l)))
      (fdiv32 (iota .tc S128x128 32 [1] iota_S128x128_d1_w32 (ix2 k l)))) (Ideal.ofBits .f32 0x3D000000#32)
      (Ideal.ofBits .f32 0x00000000#32) = _
  rw [hr, hc]
  exact avg_of_words k l _

theorem pay2_1_split (X : FVec Ideal S4096x128 .f32) (W1 : FVec Ideal S128x128 .f32) (b1 : FVec Ideal S1x128 .f32)
    (W2 : FVec Ideal S128x128 .f32) (b2 : FVec Ideal S1x128 .f32) (W3 : FVec Ideal S128x128 .f32) (b3 : FVec Ideal S1x128 .f32) :
    k1_pay2 (F := Ideal) X W1 b1 W2 b2 W3 b3
      = layerV (gateV (layerV (gateV (layerV (shapeCast S4096x128 X shapeCasts_S4096x128_S4096x128) W1 b1)) W2 b2)) W3 b3 := rfl

theorem pay6_1_split (Y : FVec Ideal S4096x128 .f32) (v21 : IVec S128x128 32) (c : BitVec 32) (v23 v30 v36 : IVec S128x128 32) :
    k1_pay6 (F := Ideal) Y v21 c v23 v30 v36 = coreV Y (avgV v21 c v23 v30 v36) := rfl

/-- What launch 1's body stores, at row `p`, lane `l` of its block: the row network on row `p` of the input block. -/
theorem out1_apply (x0 : FVec Ideal S4096x128 .f32) (x1 : FVec Ideal S128x128 .f32) (x2 : FVec Ideal S1x128 .f32)
    (x3 : FVec Ideal S128x128 .f32) (x4 : FVec Ideal S1x128 .f32) (x5 : FVec Ideal S128x128 .f32) (x6 : FVec Ideal S1x128 .f32)
    (x7 : FVec Ideal S1x128 .f32) (x8 : FVec Ideal S1x128 .f32) (p : Fin 4096) (l : Fin 128) :
    out1_9 (F := Ideal) x0 x1 x2 x3 x4 x5 x6 x7 x8 (ix2 p l)
      = net (fun k l' => x1 (ix2 k l')) (fun l' => x2 (ix2 (0 : Fin 1) l'))
          (fun k l' => x3 (ix2 k l')) (fun l' => x4 (ix2 (0 : Fin 1) l'))
          (fun k l' => x5 (ix2 k l')) (fun l' => x6 (ix2 (0 : Fin 1) l'))
          (segMat 128 (Ideal.ofBits .f32 0x3D000000#32)) (Ideal.ofBits .f32 0x3727C5AC#32)
          (fun l' => x7 (ix2 (0 : Fin 1) l')) (fun l' => x8 (ix2 (0 : Fin 1) l'))
          (fun k => x0 (ix2 p k)) l := by
  unfold out1_9
  rw [View.canon_unit_zero hz]
  simp only [View.ld_unit_zero (S := S4096x128) hz, View.ld_unit_zero (S := S128x128) hz, View.ld_unit_zero (S := S1x128) hz]
  have hM : (fun k l' : Fin 128 => avgV (iota .tc S128x128 32 [0] iota_S128x128_d0_w32) 32#32 k1_pay3 k1_pay4 k1_pay5 (ix2 k l'))
      = segMat 128 (Ideal.ofBits .f32 0x3D000000#32) := funext fun k => funext fun l' => avg1_apply k l'
  have hy : (fun k : Fin 128 => k1_pay2 (F := Ideal) x0 x1 x2 x3 x4 x5 x6 (ix2 p k))
      = affine (fun k l' => x5 (ix2 k l')) (fun l' => x6 (ix2 (0 : Fin 1) l'))
          (gate (affine (fun k l' => x3 (ix2 k l')) (fun l' => x4 (ix2 (0 : Fin 1) l'))
            (gate (affine (fun k l' => x1 (ix2 k l')) (fun l' => x2 (ix2 (0 : Fin 1) l')) (fun k => x0 (ix2 p k)))))) := by
    rw [pay2_1_split, layerV_row, gateV_row, layerV_row, gateV_row, layerV_row, shapeCast_self]
  show k1_pay6 (F := Ideal) (k1_pay2 (F := Ideal) x0 x1 x2 x3 x4 x5 x6) (iota .tc S128x128 32 [0] iota_S128x128_d0_w32) 32#32 k1_pay3 k1_pay4 k1_pay5 (ix2 p l)
      * broadcastTo S4096x128 x7 broadcasts_S1x128_S4096x128 (ix2 p l)
      + broadcastTo S4096x128 x8 broadcasts_S1x128_S4096x128 (ix2 p l) = _
  rw [pay6_1_split, coreV_apply, broadcastTo_1b_ab_apply, broadcastTo_1b_ab_apply, hM, hy]
  rfl

/-- The same at any index `y` of the block. -/
theorem out1_apply' (x0 : FVec Ideal S4096x128 .f32) (x1 : FVec Ideal S128x128 .f32) (x2 : FVec Ideal S1x128 .f32)
    (x3 : FVec Ideal S128x128 .f32) (x4 : FVec Ideal S1x128 .f32) (x5 : FVec Ideal S128x128 .f32) (x6 : FVec Ideal S1x128 .f32)
    (x7 : FVec Ideal S1x128 .f32) (x8 : FVec Ideal S1x128 .f32) (y : S4096x128.Idx) :
    out1_9 (F := Ideal) x0 x1 x2 x3 x4 x5 x6 x7 x8 y
      = net (fun k l' => x1 (ix2 k l')) (fun l' => x2 (ix2 (0 : Fin 1) l'))
          (fun k l' => x3 (ix2 k l')) (fun l' => x4 (ix2 (0 : Fin 1) l'))
          (fun k l' => x5 (ix2 k l')) (fun l' => x6 (ix2 (0 : Fin 1) l'))
          (segMat 128 (Ideal.ofBits .f32 0x3D000000#32)) (Ideal.ofBits .f32 0x3727C5AC#32)
          (fun l' => x7 (ix2 (0 : Fin 1) l')) (fun l' => x8 (ix2 (0 : Fin 1) l'))
          (fun k => x0 (ix2 (y 0) k)) (y 1) := by
  obtain ⟨p, l, rfl⟩ : ∃ (p : Fin 4096) (l : Fin 128), y = ix2 p l := ⟨y 0, y 1, eq_ix2 y⟩
  exact out1_apply x0 x1 x2 x3 x4 x5 x6 x7 x8 p l

/-! ## Launch 0: from the blocks to the array -/

section Region0

variable (V : (c : Dev nD) → (b : Ref sig .tc) → Buf (Elt Ideal) ((c : Thread nD τ).loc b))

/-- The printed index maps over the grid: the row window and the output move one block of 4096 rows per point, the
    eight parameter windows stay at their one block. -/
theorem idx0_0 : ∀ t : Fin cfg0.N, win0_0.index t (0 : Fin 2) = t.val ∧ win0_0.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)

/-- A parameter window's block is its whole array, index for index. -/
theorem emb0_1 (t : Fin cfg0.N) (k : Fin 128) (l' : Fin 128) :
    ((cfg0.win 1).blk t).view.emb (ix2 k l' : S128x128.Idx) = (ix2 k l' : S128x128.Idx) := by
  obtain ⟨e0, e1⟩ := idx0_1 t
  funext a; apply Fin.ext
  match a with
  | ⟨0, _⟩ => show win0_1.index t (0 : Fin 2) * 128 + 1 * k.val = k.val; omega
  | ⟨1, _⟩ => show win0_1.index t (1 : Fin 2) * 128 + 1 * l'.val = l'.val; omega
theorem emb0_2 (t : Fin cfg0.N) (k : Fin 1) (l' : Fin 128) :
    ((cfg0.win 2).blk t).view.emb (ix2 k l' : S1x128.Idx) = (ix2 k l' : S1x128.Idx) := by
  obtain ⟨e0, e1⟩ := idx0_2 t
  funext a; apply Fin.ext
  match a with
  | ⟨0, _⟩ => show win0_2.index t (0 : Fin 2) * 1 + 1 * k.val = k.val; omega
  | ⟨1, _⟩ => show win0_2.index t (1 : Fin 2) * 128 + 1 * l'.val = l'.val; omega
theorem emb0_3 (t : Fin cfg0.N) (k : Fin 128) (l' : Fin 128) :
    ((cfg0.win 3).blk t).view.emb (ix2 k l' : S128x128.Idx) = (ix2 k l' : S128x128.Idx) := by
  obtain ⟨e0, e1⟩ := idx0_3 t
  funext a; apply Fin.ext
  match a with
  | ⟨0, _⟩ => show win0_3.index t (0 : Fin 2) * 128 + 1 * k.val = k.val; omega
  | ⟨1, _⟩ => show win0_3.index t (1 : Fin 2) * 128 + 1 * l'.val = l'.val; omega
theorem emb0_4 (t : Fin cfg0.N) (k : Fin 1) (l' : Fin 128) :
    ((cfg0.win 4).blk t).view.emb (ix2 k l' : S1x128.Idx) = (ix2 k l' : S1x128.Idx) := by
  obtain ⟨e0, e1⟩ := idx0_4 t
  funext a; apply Fin.ext
  match a with
  | ⟨0, _⟩ => show win0_4.index t (0 : Fin 2) * 1 + 1 * k.val = k.val; omega
  | ⟨1, _⟩ => show win0_4.index t (1 : Fin 2) * 128 + 1 * l'.val = l'.val; omega
theorem emb0_5 (t : Fin cfg0.N) (k : Fin 128) (l' : Fin 128) :
    ((cfg0.win 5).blk t).view.emb (ix2 k l' : S128x128.Idx) = (ix2 k l' : S128x128.Idx) := by
  obtain ⟨e0, e1⟩ := idx0_5 t
  funext a; apply Fin.ext
  match a with
  | ⟨0, _⟩ => show win0_5.index t (0 : Fin 2) * 128 + 1 * k.val = k.val; omega
  | ⟨1, _⟩ => show win0_5.index t (1 : Fin 2) * 128 + 1 * l'.val = l'.val; omega
theorem emb0_6 (t : Fin cfg0.N) (k : Fin 1) (l' : Fin 128) :
    ((cfg0.win 6).blk t).view.emb (ix2 k l' : S1x128.Idx) = (ix2 k l' : S1x128.Idx) := by
  obtain ⟨e0, e1⟩ := idx0_6 t
  funext a; apply Fin.ext
  match a with
  | ⟨0, _⟩ => show win0_6.index t (0 : Fin 2) * 1 + 1 * k.val = k.val; omega
  | ⟨1, _⟩ => show win0_6.index t (1 : Fin 2) * 128 + 1 * l'.val = l'.val; omega
theorem emb0_7 (t : Fin cfg0.N) (k : Fin 1) (l' : Fin 128) :
    ((cfg0.win 7).blk t).view.emb (ix2 k l' : S1x128.Idx) = (ix2 k l' : S1x128.Idx) := by
  obtain ⟨e0, e1⟩ := idx0_7 t
  funext a; apply Fin.ext
  match a with
  | ⟨0, _⟩ => show win0_7.index t (0 : Fin 2) * 1 + 1 * k.val = k.val; omega
  | ⟨1, _⟩ => show win0_7.index t (1 : Fin 2) * 128 + 1 * l'.val = l'.val; omega
theorem emb0_8 (t : Fin cfg0.N) (k : Fin 1) (l' : Fin 128) :
    ((cfg0.win 8).blk t).view.emb (ix2 k l' : S1x128.Idx) = (ix2 k l' : S1x128.Idx) := by
  obtain ⟨e0, e1⟩ := idx0_8 t
  funext a; apply Fin.ext
  match a with
  | ⟨0, _⟩ => show win0_8.index t (0 : Fin 2) * 1 + 1 * k.val = k.val; omega
  | ⟨1, _⟩ => show win0_8.index t (1 : Fin 2) * 128 + 1 * l'.val = l'.val; omega

/-- What the output array ends holding: at row `i 0`, lane `i 1`, the row network on row `i 0` of the packed input. -/
def G0 (c : Dev nD) : S65536x128.Idx → EReal := fun i =>
  net (fun k l' => V c (Pipeline.arrRef spec0 1) (ix2 k l')) (fun l' => V c (Pipeline.arrRef spec0 2) (ix2 (0 : Fin 1) l'))
          (fun k l' => V c (Pipeline.arrRef spec0 3) (ix2 k l')) (fun l' => V c (Pipeline.arrRef spec0 4) (ix2 (0 : Fin 1) l'))
          (fun k l' => V c (Pipeline.arrRef spec0 5) (ix2 k l')) (fun l' => V c (Pipeline.arrRef spec0 6) (ix2 (0 : Fin 1) l'))
          (segMat 128 (Ideal.ofBits .f32 0x3D000000#32)) (Ideal.ofBits .f32 0x3727C5AC#32)
          (fun l' => V c (Pipeline.arrRef spec0 7) (ix2 (0 : Fin 1) l')) (fun l' => V c (Pipeline.arrRef spec0 8) (ix2 (0 : Fin 1) l'))
          (fun k => V c (Pipeline.arrRef spec0 0) (ix2 (i 0) k)) (i 1)

/-- What point `t` writes back is block `t` of that function. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  obtain ⟨h0a, h0b⟩ := idx0_0 t
  obtain ⟨h9a, h9b⟩ := idx0_9 t
  funext y
  show out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) y
      = G0 V c (((cfg0.win 9).blk t).view.emb y)
  refine (out0_apply' (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  unfold G0
  refine net_ext _ _ (fun k l' => congrArg (V c (Pipeline.arrRef spec0 1)) (emb0_1 t k l'))
    (fun l' => congrArg (V c (Pipeline.arrRef spec0 2)) (emb0_2 t (0 : Fin 1) l'))
    (fun k l' => congrArg (V c (Pipeline.arrRef spec0 3)) (emb0_3 t k l'))
    (fun l' => congrArg (V c (Pipeline.arrRef spec0 4)) (emb0_4 t (0 : Fin 1) l'))
    (fun k l' => congrArg (V c (Pipeline.arrRef spec0 5)) (emb0_5 t k l'))
    (fun l' => congrArg (V c (Pipeline.arrRef spec0 6)) (emb0_6 t (0 : Fin 1) l'))
    (fun l' => congrArg (V c (Pipeline.arrRef spec0 7)) (emb0_7 t (0 : Fin 1) l'))
    (fun l' => congrArg (V c (Pipeline.arrRef spec0 8)) (emb0_8 t (0 : Fin 1) l'))
    (fun k => congrArg (V c (Pipeline.arrRef spec0 0)) ?_) ?_
  · funext a; apply Fin.ext
    match a with
    | ⟨0, _⟩ => show win0_0.index t (0 : Fin 2) * 4096 + 1 * (y 0).val = win0_9.index t (0 : Fin 2) * 4096 + 1 * (y 0).val; omega
    | ⟨1, _⟩ => show win0_0.index t (1 : Fin 2) * 128 + 1 * k.val = k.val; omega
  · apply Fin.ext
    show (y 1).val = win0_9.index t (1 : Fin 2) * 128 + 1 * (y 1).val
    omega

/-- An index of the array is in point `t`'s block iff each coordinate is in the block's range on its axis. -/
theorem mem_blk0 (t : Fin cfg0.N) (i : S65536x128.Idx) :
    i ∈ ((cfg0.win 9).blk t).view.set ↔ ∀ a : Fin 2, win0_9.index t a * S4096x128.size a ≤ (i a).val
      ∧ (i a).val < win0_9.index t a * S4096x128.size a + S4096x128.size a := by
  show i ∈ ((View.whole main_call0_v1).slice (win0_9.rect t)).set ↔ _
  rw [View.set_slice_whole, Rect.mem_set_unit]
  exact Iff.rfl

/-- Every row lies in the block of the point that is its quotient by 4096. -/
theorem cover0 (i : S65536x128.Idx) :
    ∃ t : Fin cfg0.N, (cfg0.win 9).flush t = true ∧ i ∈ ((cfg0.win 9).blk t).view.set := by
  have hi0 : (i 0).val < 65536 := (i 0).isLt
  have hi1 : (i 1).val < 128 := (i 1).isLt
  have hq : (i 0).val / 4096 < 16 := by omega
  obtain ⟨t, ht⟩ : ∃ t : Fin cfg0.N, t.val = (i 0).val / 4096 := ⟨⟨(i 0).val / 4096, hq⟩, rfl⟩
  obtain ⟨e0, e1⟩ := idx0_9 t
  refine ⟨t, flush0_9 t, ?_⟩
  rw [mem_blk0]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 128 ≤ (i 1).val ∧ (i 1).val < win0_9.index t (1 : Fin 2) * 128 + 128; omega

/-- The output array after the launch is that function. -/
theorem final0 (c : Dev nD) : (dat0 V c).arrAt 9 cfg0.N = G0 V c :=
  (dat0 V c).arrAt_eq_of_cover 9 (G0 V c) (fun t _ => flushed0_eq V c t) (cover0)

/-- THE OUTPUT ARRAY OF LAUNCH 0, index by index: row `r`, lane `l` is the row network — the launch's six weight and
    bias arrays, the averaging matrix, `ε`, its scale and shift arrays — on row `r` of the packed input, at lane `l`. -/
theorem cell_region_apply (c : Dev nD) (r : Fin 65536) (l : Fin 128) :
    (dat0 V c).arrAt 9 cfg0.N (ix2 r l)
      = net (fun k l' => V c (Pipeline.arrRef spec0 1) (ix2 k l')) (fun l' => V c (Pipeline.arrRef spec0 2) (ix2 (0 : Fin 1) l'))
          (fun k l' => V c (Pipeline.arrRef spec0 3) (ix2 k l')) (fun l' => V c (Pipeline.arrRef spec0 4) (ix2 (0 : Fin 1) l'))
          (fun k l' => V c (Pipeline.arrRef spec0 5) (ix2 k l')) (fun l' => V c (Pipeline.arrRef spec0 6) (ix2 (0 : Fin 1) l'))
          (segMat 128 (Ideal.ofBits .f32 0x3D000000#32)) (Ideal.ofBits .f32 0x3727C5AC#32)
          (fun l' => V c (Pipeline.arrRef spec0 7) (ix2 (0 : Fin 1) l')) (fun l' => V c (Pipeline.arrRef spec0 8) (ix2 (0 : Fin 1) l'))
          (fun k => V c (Pipeline.arrRef spec0 0) (ix2 r k)) l :=
  congrFun (final0 V c) (ix2 r l)

end Region0

/-! ## Launch 1: from the blocks to the array -/

section Region1

variable (V : (c : Dev nD) → (b : Ref sig .tc) → Buf (Elt Ideal) ((c : Thread nD τ).loc b))

/-- The printed index maps over the grid: the row window and the output move one block of 4096 rows per point, the
    eight parameter windows stay at their one block. -/
theorem idx1_0 : ∀ t : Fin cfg1.N, win1_0.index t (0 : Fin 2) = t.val ∧ win1_0.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)

/-- A parameter window's block is its whole array, index for index. -/
theorem emb1_1 (t : Fin cfg1.N) (k : Fin 128) (l' : Fin 128) :
    ((cfg1.win 1).blk t).view.emb (ix2 k l' : S128x128.Idx) = (ix2 k l' : S128x128.Idx) := by
  obtain ⟨e0, e1⟩ := idx1_1 t
  funext a; apply Fin.ext
  match a with
  | ⟨0, _⟩ => show win1_1.index t (0 : Fin 2) * 128 + 1 * k.val = k.val; omega
  | ⟨1, _⟩ => show win1_1.index t (1 : Fin 2) * 128 + 1 * l'.val = l'.val; omega
theorem emb1_2 (t : Fin cfg1.N) (k : Fin 1) (l' : Fin 128) :
    ((cfg1.win 2).blk t).view.emb (ix2 k l' : S1x128.Idx) = (ix2 k l' : S1x128.Idx) := by
  obtain ⟨e0, e1⟩ := idx1_2 t
  funext a; apply Fin.ext
  match a with
  | ⟨0, _⟩ => show win1_2.index t (0 : Fin 2) * 1 + 1 * k.val = k.val; omega
  | ⟨1, _⟩ => show win1_2.index t (1 : Fin 2) * 128 + 1 * l'.val = l'.val; omega
theorem emb1_3 (t : Fin cfg1.N) (k : Fin 128) (l' : Fin 128) :
    ((cfg1.win 3).blk t).view.emb (ix2 k l' : S128x128.Idx) = (ix2 k l' : S128x128.Idx) := by
  obtain ⟨e0, e1⟩ := idx1_3 t
  funext a; apply Fin.ext
  match a with
  | ⟨0, _⟩ => show win1_3.index t (0 : Fin 2) * 128 + 1 * k.val = k.val; omega
  | ⟨1, _⟩ => show win1_3.index t (1 : Fin 2) * 128 + 1 * l'.val = l'.val; omega
theorem emb1_4 (t : Fin cfg1.N) (k : Fin 1) (l' : Fin 128) :
    ((cfg1.win 4).blk t).view.emb (ix2 k l' : S1x128.Idx) = (ix2 k l' : S1x128.Idx) := by
  obtain ⟨e0, e1⟩ := idx1_4 t
  funext a; apply Fin.ext
  match a with
  | ⟨0, _⟩ => show win1_4.index t (0 : Fin 2) * 1 + 1 * k.val = k.val; omega
  | ⟨1, _⟩ => show win1_4.index t (1 : Fin 2) * 128 + 1 * l'.val = l'.val; omega
theorem emb1_5 (t : Fin cfg1.N) (k : Fin 128) (l' : Fin 128) :
    ((cfg1.win 5).blk t).view.emb (ix2 k l' : S128x128.Idx) = (ix2 k l' : S128x128.Idx) := by
  obtain ⟨e0, e1⟩ := idx1_5 t
  funext a; apply Fin.ext
  match a with
  | ⟨0, _⟩ => show win1_5.index t (0 : Fin 2) * 128 + 1 * k.val = k.val; omega
  | ⟨1, _⟩ => show win1_5.index t (1 : Fin 2) * 128 + 1 * l'.val = l'.val; omega
theorem emb1_6 (t : Fin cfg1.N) (k : Fin 1) (l' : Fin 128) :
    ((cfg1.win 6).blk t).view.emb (ix2 k l' : S1x128.Idx) = (ix2 k l' : S1x128.Idx) := by
  obtain ⟨e0, e1⟩ := idx1_6 t
  funext a; apply Fin.ext
  match a with
  | ⟨0, _⟩ => show win1_6.index t (0 : Fin 2) * 1 + 1 * k.val = k.val; omega
  | ⟨1, _⟩ => show win1_6.index t (1 : Fin 2) * 128 + 1 * l'.val = l'.val; omega
theorem emb1_7 (t : Fin cfg1.N) (k : Fin 1) (l' : Fin 128) :
    ((cfg1.win 7).blk t).view.emb (ix2 k l' : S1x128.Idx) = (ix2 k l' : S1x128.Idx) := by
  obtain ⟨e0, e1⟩ := idx1_7 t
  funext a; apply Fin.ext
  match a with
  | ⟨0, _⟩ => show win1_7.index t (0 : Fin 2) * 1 + 1 * k.val = k.val; omega
  | ⟨1, _⟩ => show win1_7.index t (1 : Fin 2) * 128 + 1 * l'.val = l'.val; omega
theorem emb1_8 (t : Fin cfg1.N) (k : Fin 1) (l' : Fin 128) :
    ((cfg1.win 8).blk t).view.emb (ix2 k l' : S1x128.Idx) = (ix2 k l' : S1x128.Idx) := by
  obtain ⟨e0, e1⟩ := idx1_8 t
  funext a; apply Fin.ext
  match a with
  | ⟨0, _⟩ => show win1_8.index t (0 : Fin 2) * 1 + 1 * k.val = k.val; omega
  | ⟨1, _⟩ => show win1_8.index t (1 : Fin 2) * 128 + 1 * l'.val = l'.val; omega

/-- What the output array ends holding: at row `i 0`, lane `i 1`, the row network on row `i 0` of the packed input. -/
def G1 (c : Dev nD) : S131072x128.Idx → EReal := fun i =>
  net (fun k l' => V c (Pipeline.arrRef spec1 1) (ix2 k l')) (fun l' => V c (Pipeline.arrRef spec1 2) (ix2 (0 : Fin 1) l'))
          (fun k l' => V c (Pipeline.arrRef spec1 3) (ix2 k l')) (fun l' => V c (Pipeline.arrRef spec1 4) (ix2 (0 : Fin 1) l'))
          (fun k l' => V c (Pipeline.arrRef spec1 5) (ix2 k l')) (fun l' => V c (Pipeline.arrRef spec1 6) (ix2 (0 : Fin 1) l'))
          (segMat 128 (Ideal.ofBits .f32 0x3D000000#32)) (Ideal.ofBits .f32 0x3727C5AC#32)
          (fun l' => V c (Pipeline.arrRef spec1 7) (ix2 (0 : Fin 1) l')) (fun l' => V c (Pipeline.arrRef spec1 8) (ix2 (0 : Fin 1) l'))
          (fun k => V c (Pipeline.arrRef spec1 0) (ix2 (i 0) k)) (i 1)

/-- What point `t` writes back is block `t` of that function. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  obtain ⟨h0a, h0b⟩ := idx1_0 t
  obtain ⟨h9a, h9b⟩ := idx1_9 t
  funext y
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) y
      = G1 V c (((cfg1.win 9).blk t).view.emb y)
  refine (out1_apply' (iblk1 V c 0 t) (iblk1 V c 1 t) (iblk1 V c 2 t) (iblk1 V c 3 t) (iblk1 V c 4 t) (iblk1 V c 5 t) (iblk1 V c 6 t) (iblk1 V c 7 t) (iblk1 V c 8 t) y).trans ?_
  unfold G1
  refine net_ext _ _ (fun k l' => congrArg (V c (Pipeline.arrRef spec1 1)) (emb1_1 t k l'))
    (fun l' => congrArg (V c (Pipeline.arrRef spec1 2)) (emb1_2 t (0 : Fin 1) l'))
    (fun k l' => congrArg (V c (Pipeline.arrRef spec1 3)) (emb1_3 t k l'))
    (fun l' => congrArg (V c (Pipeline.arrRef spec1 4)) (emb1_4 t (0 : Fin 1) l'))
    (fun k l' => congrArg (V c (Pipeline.arrRef spec1 5)) (emb1_5 t k l'))
    (fun l' => congrArg (V c (Pipeline.arrRef spec1 6)) (emb1_6 t (0 : Fin 1) l'))
    (fun l' => congrArg (V c (Pipeline.arrRef spec1 7)) (emb1_7 t (0 : Fin 1) l'))
    (fun l' => congrArg (V c (Pipeline.arrRef spec1 8)) (emb1_8 t (0 : Fin 1) l'))
    (fun k => congrArg (V c (Pipeline.arrRef spec1 0)) ?_) ?_
  · funext a; apply Fin.ext
    match a with
    | ⟨0, _⟩ => show win1_0.index t (0 : Fin 2) * 4096 + 1 * (y 0).val = win1_9.index t (0 : Fin 2) * 4096 + 1 * (y 0).val; omega
    | ⟨1, _⟩ => show win1_0.index t (1 : Fin 2) * 128 + 1 * k.val = k.val; omega
  · apply Fin.ext
    show (y 1).val = win1_9.index t (1 : Fin 2) * 128 + 1 * (y 1).val
    omega

/-- An index of the array is in point `t`'s block iff each coordinate is in the block's range on its axis. -/
theorem mem_blk1 (t : Fin cfg1.N) (i : S131072x128.Idx) :
    i ∈ ((cfg1.win 9).blk t).view.set ↔ ∀ a : Fin 2, win1_9.index t a * S4096x128.size a ≤ (i a).val
      ∧ (i a).val < win1_9.index t a * S4096x128.size a + S4096x128.size a := by
  show i ∈ ((View.whole main_call1_v1).slice (win1_9.rect t)).set ↔ _
  rw [View.set_slice_whole, Rect.mem_set_unit]
  exact Iff.rfl

/-- Every row lies in the block of the point that is its quotient by 4096. -/
theorem cover1 (i : S131072x128.Idx) :
    ∃ t : Fin cfg1.N, (cfg1.win 9).flush t = true ∧ i ∈ ((cfg1.win 9).blk t).view.set := by
  have hi0 : (i 0).val < 131072 := (i 0).isLt
  have hi1 : (i 1).val < 128 := (i 1).isLt
  have hq : (i 0).val / 4096 < 32 := by omega
  obtain ⟨t, ht⟩ : ∃ t : Fin cfg1.N, t.val = (i 0).val / 4096 := ⟨⟨(i 0).val / 4096, hq⟩, rfl⟩
  obtain ⟨e0, e1⟩ := idx1_9 t
  refine ⟨t, flush1_9 t, ?_⟩
  rw [mem_blk1]
  intro a
  match a with
  | ⟨0, _⟩ => show win1_9.index t (0 : Fin 2) * 4096 ≤ (i 0).val ∧ (i 0).val < win1_9.index t (0 : Fin 2) * 4096 + 4096; omega
  | ⟨1, _⟩ => show win1_9.index t (1 : Fin 2) * 128 ≤ (i 1).val ∧ (i 1).val < win1_9.index t (1 : Fin 2) * 128 + 128; omega

/-- The output array after the launch is that function. -/
theorem final1 (c : Dev nD) : (dat1 V c).arrAt 9 cfg1.N = G1 V c :=
  (dat1 V c).arrAt_eq_of_cover 9 (G1 V c) (fun t _ => flushed1_eq V c t) (cover1)

/-- THE OUTPUT ARRAY OF LAUNCH 1, index by index: row `r`, lane `l` is the row network — the launch's six weight and
    bias arrays, the averaging matrix, `ε`, its scale and shift arrays — on row `r` of the packed input, at lane `l`. -/
theorem edge_region_apply (c : Dev nD) (r : Fin 131072) (l : Fin 128) :
    (dat1 V c).arrAt 9 cfg1.N (ix2 r l)
      = net (fun k l' => V c (Pipeline.arrRef spec1 1) (ix2 k l')) (fun l' => V c (Pipeline.arrRef spec1 2) (ix2 (0 : Fin 1) l'))
          (fun k l' => V c (Pipeline.arrRef spec1 3) (ix2 k l')) (fun l' => V c (Pipeline.arrRef spec1 4) (ix2 (0 : Fin 1) l'))
          (fun k l' => V c (Pipeline.arrRef spec1 5) (ix2 k l')) (fun l' => V c (Pipeline.arrRef spec1 6) (ix2 (0 : Fin 1) l'))
          (segMat 128 (Ideal.ofBits .f32 0x3D000000#32)) (Ideal.ofBits .f32 0x3727C5AC#32)
          (fun l' => V c (Pipeline.arrRef spec1 7) (ix2 (0 : Fin 1) l')) (fun l' => V c (Pipeline.arrRef spec1 8) (ix2 (0 : Fin 1) l'))
          (fun k => V c (Pipeline.arrRef spec1 0) (ix2 r k)) l :=
  congrFun (final1 V c) (ix2 r l)

end Region1

end Cert.ReferenceIdeal.RegionValue

end
-- ==== Proof.RefFinal.lean ====
/-
  The reference's two results as the shared function of its arguments.

  The reference packs four consecutive rows of an argument into one row of 128 lanes (a row-major reshape), runs its
  region on the packed rows, and unpacks (the inverse reshape). Its region applies the 128-lane row network to every
  packed row. When the weights are four equal diagonal blocks and the vectors four repeats — what the precondition
  states — the packing theorem at four logical rows says lane group `j` of packed row `r` comes out as the encoder on
  logical row `j` of that packed row, that is on argument row `4·r + j`, which is where the unpacking puts it.
-/
import proofs.«161702_g2000305235446769_pallaspilot1_107_16_alg».proof.Proof.RefRun
import proofs.«161702_g2000305235446769_pallaspilot1_107_16_alg».proof.Proof.RefValue
import proofs.«161702_g2000305235446769_pallaspilot1_107_16_alg».proof.Proof.Lanes
import proofs.«161702_g2000305235446769_pallaspilot1_107_16_alg».proof.Proof.Spec

noncomputable section

namespace Cert.ReferenceIdeal.FinalValue

open Cert.ReferenceIdeal Cert.ReferenceIdeal.Gen Cert.ReferenceIdeal.RefValue Cert.ReferenceIdeal.RegionValue
open Cert.Packing Cert.RowNet Cert.Lanes Cert.Spec Idealize.ShloMosaic Idealize.ShloMosaic.ValueIdx Idealize.ShloMosaic.TcCoe Idealize.SL.Sem

variable (m : (ℓ : Loc nD τ sig) → Buf (Elt Ideal) ℓ) (ρ : Dev nD → PrngReg)

/-- The cell result at result row `4·r + j`: the reference reshapes the rows four to a packed row, runs its region on
    packed rows, and reshapes back, so result row `4·r + j` is lane group `j` of packed row `r` of the region's output; the
    region's output row is the 128-lane row network on packed row `r`; with packed weights and tiled vectors the packing
    theorem at four logical rows leaves the encoder on logical row `j` of that packed row, which is argument row `4·r + j`. -/
theorem cell_final_at (c : Dev nD) (hw1 : PackedW (m ((c.tc : Thread nD τ).loc main_arg3))) (hb1 : TiledV (m ((c.tc : Thread nD τ).loc main_arg4))) (hw2 : PackedW (m ((c.tc : Thread nD τ).loc main_arg5))) (hb2 : TiledV (m ((c.tc : Thread nD τ).loc main_arg6)))
    (hw3 : PackedW (m ((c.tc : Thread nD τ).loc main_arg7))) (hb3 : TiledV (m ((c.tc : Thread nD τ).loc main_arg8))) (hg : TiledV (m ((c.tc : Thread nD τ).loc main_arg9))) (hh : TiledV (m ((c.tc : Thread nD τ).loc main_arg10)))
    (r : Fin 65536) (j : Fin 4) (f : Fin 32) :
    W6 m ρ c (Proc.devRef .tc main_v0) (ix2 (⟨4 * r.val + j.val, by omega⟩ : Fin 262144) f)
      = enc (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (fun u => (m ((c.tc : Thread nD τ).loc main_arg0)) (ix2 (⟨4 * r.val + j.val, by omega⟩ : Fin 262144) u)) f := by
  rw [cell_result_apply m ρ c r j f, cell_region_apply (V1 m ρ) c r (lane128 j f)]
  rw [cell_param_w1 m ρ c, cell_param_w2 m ρ c, cell_param_w3 m ρ c, cell_param_w4 m ρ c, cell_param_w5 m ρ c,
    cell_param_w6 m ρ c, cell_param_w7 m ρ c, cell_param_w8 m ρ c]
  have hnet := net_packed laneEquiv128 (blockDiag_of_packedW hw1) (repeats_of_tiledV hb1) (blockDiag_of_packedW hw2)
    (repeats_of_tiledV hb2) (blockDiag_of_packedW hw3) (repeats_of_tiledV hb3) (segMat_blockDiag128 Cert.Spec.mu)
    (repeats_of_tiledV hg) (repeats_of_tiledV hh) Cert.Spec.eps (fun k => V1 m ρ c (Pipeline.arrRef spec0 0) (ix2 r k)) j f
  rw [laneEquiv128_apply] at hnet
  refine (show _ = _ from hnet).trans ?_
  unfold enc
  congr 1
  funext u
  exact cell_in_apply m ρ c r j u

/-- The cell result, whole: the encoder on every row of the cell argument. -/
theorem cell_final (c : Dev nD) (hw1 : PackedW (m ((c.tc : Thread nD τ).loc main_arg3))) (hb1 : TiledV (m ((c.tc : Thread nD τ).loc main_arg4))) (hw2 : PackedW (m ((c.tc : Thread nD τ).loc main_arg5))) (hb2 : TiledV (m ((c.tc : Thread nD τ).loc main_arg6)))
    (hw3 : PackedW (m ((c.tc : Thread nD τ).loc main_arg7))) (hb3 : TiledV (m ((c.tc : Thread nD τ).loc main_arg8))) (hg : TiledV (m ((c.tc : Thread nD τ).loc main_arg9))) (hh : TiledV (m ((c.tc : Thread nD τ).loc main_arg10))) :
    (W6 m ρ c (Proc.devRef .tc main_v0) : S262144x32.Idx → EReal)
      = encRows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0)) := by
  funext i
  obtain ⟨row, f, rfl⟩ : ∃ (row : Fin 262144) (f : Fin 32), i = ix2 row f := ⟨i 0, i 1, eq_ix2 i⟩
  obtain ⟨r, j, rfl⟩ : ∃ (r : Fin 65536) (j : Fin 4), row = (⟨4 * r.val + j.val, by omega⟩ : Fin 262144) :=
    ⟨⟨row.val / 4, by omega⟩, ⟨row.val % 4, by omega⟩, Fin.ext (by simp only []; omega)⟩
  rw [encRows_apply]
  exact cell_final_at m ρ c hw1 hb1 hw2 hb2 hw3 hb3 hg hh r j f

/-- The edge result at result row `4·r + j`: the reference reshapes the rows four to a packed row, runs its region on
    packed rows, and reshapes back, so result row `4·r + j` is lane group `j` of packed row `r` of the region's output; the
    region's output row is the 128-lane row network on packed row `r`; with packed weights and tiled vectors the packing
    theorem at four logical rows leaves the encoder on logical row `j` of that packed row, which is argument row `4·r + j`. -/
theorem edge_final_at (c : Dev nD) (hw1 : PackedW (m ((c.tc : Thread nD τ).loc main_arg11))) (hb1 : TiledV (m ((c.tc : Thread nD τ).loc main_arg12))) (hw2 : PackedW (m ((c.tc : Thread nD τ).loc main_arg13))) (hb2 : TiledV (m ((c.tc : Thread nD τ).loc main_arg14)))
    (hw3 : PackedW (m ((c.tc : Thread nD τ).loc main_arg15))) (hb3 : TiledV (m ((c.tc : Thread nD τ).loc main_arg16))) (hg : TiledV (m ((c.tc : Thread nD τ).loc main_arg17))) (hh : TiledV (m ((c.tc : Thread nD τ).loc main_arg18)))
    (r : Fin 131072) (j : Fin 4) (f : Fin 32) :
    W6 m ρ c (Proc.devRef .tc main_v1) (ix2 (⟨4 * r.val + j.val, by omega⟩ : Fin 524288) f)
      = enc (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
          (fun u => (m ((c.tc : Thread nD τ).loc main_arg2)) (ix2 (⟨4 * r.val + j.val, by omega⟩ : Fin 524288) u)) f := by
  rw [edge_result_apply m ρ c r j f, edge_region_apply (V4 m ρ) c r (lane128 j f)]
  rw [edge_param_w1 m ρ c, edge_param_w2 m ρ c, edge_param_w3 m ρ c, edge_param_w4 m ρ c, edge_param_w5 m ρ c,
    edge_param_w6 m ρ c, edge_param_w7 m ρ c, edge_param_w8 m ρ c]
  have hnet := net_packed laneEquiv128 (blockDiag_of_packedW hw1) (repeats_of_tiledV hb1) (blockDiag_of_packedW hw2)
    (repeats_of_tiledV hb2) (blockDiag_of_packedW hw3) (repeats_of_tiledV hb3) (segMat_blockDiag128 Cert.Spec.mu)
    (repeats_of_tiledV hg) (repeats_of_tiledV hh) Cert.Spec.eps (fun k => V4 m ρ c (Pipeline.arrRef spec1 0) (ix2 r k)) j f
  rw [laneEquiv128_apply] at hnet
  refine (show _ = _ from hnet).trans ?_
  unfold enc
  congr 1
  funext u
  exact edge_in_apply m ρ c r j u

/-- The edge result, whole: the encoder on every row of the edge argument. -/
theorem edge_final (c : Dev nD) (hw1 : PackedW (m ((c.tc : Thread nD τ).loc main_arg11))) (hb1 : TiledV (m ((c.tc : Thread nD τ).loc main_arg12))) (hw2 : PackedW (m ((c.tc : Thread nD τ).loc main_arg13))) (hb2 : TiledV (m ((c.tc : Thread nD τ).loc main_arg14)))
    (hw3 : PackedW (m ((c.tc : Thread nD τ).loc main_arg15))) (hb3 : TiledV (m ((c.tc : Thread nD τ).loc main_arg16))) (hg : TiledV (m ((c.tc : Thread nD τ).loc main_arg17))) (hh : TiledV (m ((c.tc : Thread nD τ).loc main_arg18))) :
    (W6 m ρ c (Proc.devRef .tc main_v1) : S524288x32.Idx → EReal)
      = encRows (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg2)) := by
  funext i
  obtain ⟨row, f, rfl⟩ : ∃ (row : Fin 524288) (f : Fin 32), i = ix2 row f := ⟨i 0, i 1, eq_ix2 i⟩
  obtain ⟨r, j, rfl⟩ : ∃ (r : Fin 131072) (j : Fin 4), row = (⟨4 * r.val + j.val, by omega⟩ : Fin 524288) :=
    ⟨⟨row.val / 4, by omega⟩, ⟨row.val % 4, by omega⟩, Fin.ext (by simp only []; omega)⟩
  rw [encRows_apply]
  exact edge_final_at m ρ c hw1 hb1 hw2 hb2 hw3 hb3 hg hh r j f

end Cert.ReferenceIdeal.FinalValue

end
-- ==== Proof.lean ====
/- The certificate's five claims for the fused two-encoder kernel against its two-launch reference.

   Each program runs every row of the cell array and of the edge array through one encoder — three affine layers with the
   gate x·σ(x) between them, then a normalisation over the row's 32 features — and passes the index array through. They
   differ in how rows share a vector row: the reference lays four consecutive rows side by side in 128 lanes and multiplies
   by the 128×128 weights as given; the kernel lays eight rows, 1024 (or 2048) apart inside a block, side by side in 256
   lanes and multiplies by two copies of each weight on the diagonal. A row's result is independent of its lane-mates
   exactly when each given weight is four equal 32×32 blocks on its diagonal and zero elsewhere and each given vector
   repeats its first 32 entries — the sixteen conjuncts the precondition states beside finiteness. Under them both
   results are the encoder applied row by row (module Spec), index by index as extended reals; no finiteness is used,
   since the only law applied to a possibly infinite number is 0·x = 0.

   The three frames are the generated frame certificates of the three programs; the idealization's ledger is empty, so
   what it preserves is trivially true; the last claim joins the kernel's run (its blocks, module KernelValue) and the
   reference's run (its packed rows, module RefFinal) at the one function. -/
import proofs.«161702_g2000305235446769_pallaspilot1_107_16_alg».proof.Defs
import proofs.«161702_g2000305235446769_pallaspilot1_107_16_alg».proof.Proof.Gen.Kernel
import proofs.«161702_g2000305235446769_pallaspilot1_107_16_alg».proof.Proof.Gen.Kernel.Skeleton
import proofs.«161702_g2000305235446769_pallaspilot1_107_16_alg».proof.Proof.Gen.Kernel.Launch
import proofs.«161702_g2000305235446769_pallaspilot1_107_16_alg».proof.Proof.Gen.Kernel.Points
import proofs.«161702_g2000305235446769_pallaspilot1_107_16_alg».proof.Proof.Gen.Kernel.Frame
import proofs.«161702_g2000305235446769_pallaspilot1_107_16_alg».proof.Proof.Gen.KernelIdeal
import proofs.«161702_g2000305235446769_pallaspilot1_107_16_alg».proof.Proof.Gen.KernelIdeal.Skeleton
import proofs.«161702_g2000305235446769_pallaspilot1_107_16_alg».proof.Proof.Gen.KernelIdeal.Launch
import proofs.«161702_g2000305235446769_pallaspilot1_107_16_alg».proof.Proof.Gen.KernelIdeal.Points
import proofs.«161702_g2000305235446769_pallaspilot1_107_16_alg».proof.Proof.Gen.KernelIdeal.Frame
import proofs.«161702_g2000305235446769_pallaspilot1_107_16_alg».proof.Proof.Gen.KernelIdeal.Value
import proofs.«161702_g2000305235446769_pallaspilot1_107_16_alg».proof.Proof.Gen.ReferenceIdeal
import proofs.«161702_g2000305235446769_pallaspilot1_107_16_alg».proof.Proof.Gen.ReferenceIdeal.Skeleton
import proofs.«161702_g2000305235446769_pallaspilot1_107_16_alg».proof.Proof.Gen.ReferenceIdeal.Launch
import proofs.«161702_g2000305235446769_pallaspilot1_107_16_alg».proof.Proof.Gen.ReferenceIdeal.Points
import proofs.«161702_g2000305235446769_pallaspilot1_107_16_alg».proof.Proof.Gen.ReferenceIdeal.Frame
import proofs.«161702_g2000305235446769_pallaspilot1_107_16_alg».proof.Proof.Gen.Pre_finite_inputs
import proofs.«161702_g2000305235446769_pallaspilot1_107_16_alg».proof.Proof.PreDecode
import proofs.«161702_g2000305235446769_pallaspilot1_107_16_alg».proof.Proof.KernelValue
import proofs.«161702_g2000305235446769_pallaspilot1_107_16_alg».proof.Proof.RefFinal
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => Cert.ReferenceIdeal.Gen.frame m ρ

/-- The sixteen structure facts the precondition states, of the kernel's argument arrays on every device. -/
theorem structure_of_pre_kernelIdeal (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) :
    Cert.Packing.PackedW (m ((c.tc : Thread Cert.KernelIdeal.nD Cert.KernelIdeal.τ).loc Cert.KernelIdeal.main_arg3))
    ∧ Cert.Packing.TiledV (m ((c.tc : Thread Cert.KernelIdeal.nD Cert.KernelIdeal.τ).loc Cert.KernelIdeal.main_arg4))
    ∧ Cert.Packing.PackedW (m ((c.tc : Thread Cert.KernelIdeal.nD Cert.KernelIdeal.τ).loc Cert.KernelIdeal.main_arg5))
    ∧ Cert.Packing.TiledV (m ((c.tc : Thread Cert.KernelIdeal.nD Cert.KernelIdeal.τ).loc Cert.KernelIdeal.main_arg6))
    ∧ Cert.Packing.PackedW (m ((c.tc : Thread Cert.KernelIdeal.nD Cert.KernelIdeal.τ).loc Cert.KernelIdeal.main_arg7))
    ∧ Cert.Packing.TiledV (m ((c.tc : Thread Cert.KernelIdeal.nD Cert.KernelIdeal.τ).loc Cert.KernelIdeal.main_arg8))
    ∧ Cert.Packing.TiledV (m ((c.tc : Thread Cert.KernelIdeal.nD Cert.KernelIdeal.τ).loc Cert.KernelIdeal.main_arg9))
    ∧ Cert.Packing.TiledV (m ((c.tc : Thread Cert.KernelIdeal.nD Cert.KernelIdeal.τ).loc Cert.KernelIdeal.main_arg10))
    ∧ Cert.Packing.PackedW (m ((c.tc : Thread Cert.KernelIdeal.nD Cert.KernelIdeal.τ).loc Cert.KernelIdeal.main_arg11))
    ∧ Cert.Packing.TiledV (m ((c.tc : Thread Cert.KernelIdeal.nD Cert.KernelIdeal.τ).loc Cert.KernelIdeal.main_arg12))
    ∧ Cert.Packing.PackedW (m ((c.tc : Thread Cert.KernelIdeal.nD Cert.KernelIdeal.τ).loc Cert.KernelIdeal.main_arg13))
    ∧ Cert.Packing.TiledV (m ((c.tc : Thread Cert.KernelIdeal.nD Cert.KernelIdeal.τ).loc Cert.KernelIdeal.main_arg14))
    ∧ Cert.Packing.PackedW (m ((c.tc : Thread Cert.KernelIdeal.nD Cert.KernelIdeal.τ).loc Cert.KernelIdeal.main_arg15))
    ∧ Cert.Packing.TiledV (m ((c.tc : Thread Cert.KernelIdeal.nD Cert.KernelIdeal.τ).loc Cert.KernelIdeal.main_arg16))
    ∧ Cert.Packing.TiledV (m ((c.tc : Thread Cert.KernelIdeal.nD Cert.KernelIdeal.τ).loc Cert.KernelIdeal.main_arg17))
    ∧ Cert.Packing.TiledV (m ((c.tc : Thread Cert.KernelIdeal.nD Cert.KernelIdeal.τ).loc Cert.KernelIdeal.main_arg18)) :=
  @Cert.PreDecode.structure_of_pre Cert.Pre_finite_inputs.Gen.facts _ _ _ _ _ _ _ _ _ _ _ _ _ _ _ _ _ _ _ (hpre c)

/-- Both idealized programs, run from memories that agree on the arguments, end with the encoder applied to every cell
    row and to every edge row, and with the index array untouched: the kernel by its blocks, the reference by its packed
    rows, one function of the same arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hs := structure_of_pre_kernelIdeal m hpre
  refine ⟨fun c => Cert.Spec.encRows (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg2)), fun c => (m ((c.tc : Thread Cert.KernelIdeal.nD Cert.KernelIdeal.τ).loc Cert.KernelIdeal.main_arg1)), fun c => Cert.Spec.encRows (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)), ?_, ?_⟩
  · refine (θ_run (Cert.KernelIdeal.defs (F := Ideal)) _ _).mono (fun r h c => ?_) (Cert.KernelIdeal.FinalValue.run_final m ρ hs)
    exact ⟨(h c).2.1, (h c).2.2.2.1, (h c).1, (h c).2.2⟩
  · refine (θ_run (Cert.ReferenceIdeal.defs (F := Ideal)) _ _).mono (fun r h c => ?_) (Cert.ReferenceIdeal.RefValue.run_named m' ρ')
    have ha := hagree c
    have hc := hs c
    have f3 := hc.1
    rw [← ha.2.2.2.1] at f3
    have f4 := hc.2.1
    rw [← ha.2.2.2.2.1] at f4
    have f5 := hc.2.2.1
    rw [← ha.2.2.2.2.2.1] at f5
    have f6 := hc.2.2.2.1
    rw [← ha.2.2.2.2.2.2.1] at f6
    have f7 := hc.2.2.2.2.1
    rw [← ha.2.2.2.2.2.2.2.1] at f7
    have f8 := hc.2.2.2.2.2.1
    rw [← ha.2.2.2.2.2.2.2.2.1] at f8
    have f9 := hc.2.2.2.2.2.2.1
    rw [← ha.2.2.2.2.2.2.2.2.2.1] at f9
    have f10 := hc.2.2.2.2.2.2.2.1
    rw [← ha.2.2.2.2.2.2.2.2.2.2.1] at f10
    have f11 := hc.2.2.2.2.2.2.2.2.1
    rw [← ha.2.2.2.2.2.2.2.2.2.2.2.1] at f11
    have f12 := hc.2.2.2.2.2.2.2.2.2.1
    rw [← ha.2.2.2.2.2.2.2.2.2.2.2.2.1] at f12
    have f13 := hc.2.2.2.2.2.2.2.2.2.2.1
    rw [← ha.2.2.2.2.2.2.2.2.2.2.2.2.2.1] at f13
    have f14 := hc.2.2.2.2.2.2.2.2.2.2.2.1
    rw [← ha.2.2.2.2.2.2.2.2.2.2.2.2.2.2.1] at f14
    have f15 := hc.2.2.2.2.2.2.2.2.2.2.2.2.1
    rw [← ha.2.2.2.2.2.2.2.2.2.2.2.2.2.2.2.1] at f15
    have f16 := hc.2.2.2.2.2.2.2.2.2.2.2.2.2.1
    rw [← ha.2.2.2.2.2.2.2.2.2.2.2.2.2.2.2.2.1] at f16
    have f17 := hc.2.2.2.2.2.2.2.2.2.2.2.2.2.2.1
    rw [← ha.2.2.2.2.2.2.2.2.2.2.2.2.2.2.2.2.2.1] at f17
    have f18 := hc.2.2.2.2.2.2.2.2.2.2.2.2.2.2.2
    rw [← ha.2.2.2.2.2.2.2.2.2.2.2.2.2.2.2.2.2.2] at f18
    refine ⟨(h c).1.trans ?_, (h c).2.2.2.1.trans ha.2.1, (h c).2.1.trans ?_, (h c).2.2⟩
    · rw [Cert.ReferenceIdeal.FinalValue.edge_final m' ρ' c f11 f12 f13 f14 f15 f16 f17 f18]
      rw [ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1, ha.2.2.2.2.2.2.2.2.2.2.2.2.2.2.2.2.2.1, ha.2.2.2.2.2.2.2.2.2.2.2.2.2.2.2.2.2.2, ha.2.2.1]
    · rw [Cert.ReferenceIdeal.FinalValue.cell_final m' ρ' c f3 f4 f5 f6 f7 f8 f9 f10]
      rw [ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
